-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v22_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v22_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x46 : Shape := ⟨3, ![128, 512, 46]⟩
abbrev S512 : Shape := ⟨1, ![512]⟩
abbrev S256x512 : Shape := ⟨2, ![256, 512]⟩
abbrev S256 : Shape := ⟨1, ![256]⟩
abbrev S512x256 : Shape := ⟨2, ![512, 256]⟩
abbrev S_ : Shape := ⟨0, ![]⟩

class Facts : Prop where
  bcast_S_S128x512x46 : S_.BroadcastsInDim S128x512x46 (![] : Fin 0 → Fin S128x512x46.rank)
  reducesTo_S128x512x46_S_d0_1_2 : S128x512x46.ReducesTo [0, 1, 2] S_
  h_S_ : 0 < S_.numel
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_arg11 : FVec F S512x256 .f32) (main_arg12 : FVec F S512 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x256 .f32 := Host.absf main_arg11
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S256x512 .f32) (main_arg8 : FVec F S256 .f32) (main_arg9 : FVec F S256x512 .f32) (main_arg10 : FVec F S256 .f32) (main_arg11 : FVec F S512x256 .f32) (main_arg12 : FVec F S512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S512 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) (main_arg11 : FVec F S512x256 .f32) (main_arg12 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x512x46 .f32) (main_arg1 : FVec F S512 .f32) (main_arg2 : FVec F S512 .f32) (main_arg3 : FVec F S512 .f32) (main_arg4 : FVec F S512 .f32) (main_arg5 : FVec F S256x512 .f32) (main_arg6 : FVec F S256 .f32) (main_arg7 : FVec F S256x512 .f32) (main_arg8 : FVec F S256 .f32) (main_arg9 : FVec F S256x512 .f32) (main_arg10 : FVec F S256 .f32) (main_arg11 : FVec F S512x256 .f32) (main_arg12 : FVec F S512 .f32) : IVec S_ 1 :=
  let main_v0 : FVec F S128x512x46 .f32 := Host.absf main_arg0
  let main_cst : FVec F S_ .f32 := constant S_ .f32 0x7F800000#32
  let main_v1 : FVec F S128x512x46 .f32 := broadcastInDim S128x512x46 ![] bcast_S_S128x512x46 main_cst
  let main_v2 : IVec S128x512x46 1 := cmpf .olt main_v0 main_v1
  let main_c : IVec S_ 1 := constantI S_ 1 1#1
  let main_v3 : IVec S_ 1 := (fun x v => Host.reduce IntOp.andi x v reducesTo_S128x512x46_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S128x512x46 : Shape := ⟨3, ![128, 512, 46]⟩
abbrev S512 : Shape := ⟨1, ![512]⟩
abbrev S256x512 : Shape := ⟨2, ![256, 512]⟩
abbrev S256 : Shape := ⟨1, ![256]⟩
abbrev S512x256 : Shape := ⟨2, ![512, 256]⟩
abbrev S_ : Shape := ⟨0, ![]⟩
abbrev S128x46x512 : Shape := ⟨3, ![128, 46, 512]⟩
abbrev S5888x512 : Shape := ⟨2, ![5888, 512]⟩
abbrev S1x512 : Shape := ⟨2, ![1, 512]⟩
abbrev S1x256 : Shape := ⟨2, ![1, 256]⟩
abbrev S5888x256 : Shape := ⟨2, ![5888, 256]⟩
abbrev S1472x512 : Shape := ⟨2, ![1472, 512]⟩
abbrev S1472x256 : Shape := ⟨2, ![1472, 256]⟩
abbrev S5888 : Shape := ⟨1, ![5888]⟩
abbrev S1x5888 : Shape := ⟨2, ![1, 5888]⟩
abbrev S5888x5888 : Shape := ⟨2, ![5888, 5888]⟩
abbrev S256x256 : Shape := ⟨2, ![256, 256]⟩
abbrev S256x5888 : Shape := ⟨2, ![256, 5888]⟩
abbrev S256x1 : Shape := ⟨2, ![256, 1]⟩

abbrev nBuf : Space → Nat
  | .hbm => 58
  | .vmem => 29
  | .smem => 0
  | _ => 0

abbrev bufTy : (tb : Table) → Fin (tcTables nBuf tb) → BufTy
  | .hbm, ⟨0, _⟩ => ⟨S128x512x46, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S512x256, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S128x46x512, .f32⟩
  | .hbm, ⟨21, _⟩ => ⟨S5888x512, .f32⟩
  | .hbm, ⟨22, _⟩ => ⟨S1x512, .f32⟩
  | .hbm, ⟨23, _⟩ => ⟨S1x512, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x512, .f32⟩
  | .hbm, ⟨28, _⟩ => ⟨S256x512, .bf16⟩
  | .hbm, ⟨29, _⟩ => ⟨S256x512, .bf16⟩
  | .hbm, ⟨30, _⟩ => ⟨S256x512, .bf16⟩
  | .hbm, ⟨31, _⟩ => ⟨S512x256, .bf16⟩
  | .hbm, ⟨32, _⟩ => ⟨S5888x256, .bf16⟩
  | .hbm, ⟨33, _⟩ => ⟨S5888x256, .bf16⟩
  | .hbm, ⟨34, _⟩ => ⟨S5888x256, .bf16⟩
  | .hbm, ⟨35, _⟩ => ⟨S5888, .i32⟩
  | .hbm, ⟨36, _⟩ => ⟨S_, .i32⟩
  | .hbm, ⟨37, _⟩ => ⟨S_, .i32⟩
  | .hbm, ⟨38, _⟩ => ⟨S5888, .i32⟩
  | .hbm, ⟨39, _⟩ => ⟨S5888, .i32⟩
  | .hbm, ⟨40, _⟩ => ⟨S5888, .i32⟩
  | .hbm, ⟨41, _⟩ => ⟨S_, .i32⟩
  | .hbm, ⟨42, _⟩ => ⟨S5888, .i32⟩
  | .hbm, ⟨43, _⟩ => ⟨S5888, .i1⟩
  | .hbm, ⟨44, _⟩ => ⟨S5888, .i32⟩
  | .hbm, ⟨45, _⟩ => ⟨S5888, .i32⟩
  | .hbm, ⟨46, _⟩ => ⟨S_, .i32⟩
  | .hbm, ⟨47, _⟩ => ⟨S5888, .i32⟩
  | .hbm, ⟨48, _⟩ => ⟨S5888, .i1⟩
  | .hbm, ⟨49, _⟩ => ⟨S5888, .i1⟩
  | .hbm, ⟨50, _⟩ => ⟨S_, .i32⟩
  | .hbm, ⟨51, _⟩ => ⟨S5888, .i32⟩
  | .hbm, ⟨52, _⟩ => ⟨S5888, .i32⟩
  | .hbm, ⟨53, _⟩ => ⟨S5888, .i32⟩
  | .hbm, ⟨54, _⟩ => ⟨S1x5888, .i32⟩
  | .hbm, ⟨55, _⟩ => ⟨S5888x5888, .f32⟩
  | .hbm, ⟨56, _⟩ => ⟨S5888x512, .f32⟩
  | .hbm, ⟨57, _⟩ => ⟨S128x46x512, .f32⟩
  | .local _ .vmem, ⟨0, _⟩ => ⟨S1472x512, .f32⟩
  | .local _ .vmem, ⟨1, _⟩ => ⟨S1472x512, .f32⟩
  | .local _ .vmem, ⟨2, _⟩ => ⟨S1x512, .f32⟩
  | .local _ .vmem, ⟨3, _⟩ => ⟨S1x512, .f32⟩
  | .local _ .vmem, ⟨4, _⟩ => ⟨S256x512, .bf16⟩
  | .local _ .vmem, ⟨5, _⟩ => ⟨S1x256, .f32⟩
  | .local _ .vmem, ⟨6, _⟩ => ⟨S256x512, .bf16⟩
  | .local _ .vmem, ⟨7, _⟩ => ⟨S1x256, .f32⟩
  | .local _ .vmem, ⟨8, _⟩ => ⟨S256x512, .bf16⟩
  | .local _ .vmem, ⟨9, _⟩ => ⟨S1x256, .f32⟩
  | .local _ .vmem, ⟨10, _⟩ => ⟨S1472x256, .bf16⟩
  | .local _ .vmem, ⟨11, _⟩ => ⟨S1472x256, .bf16⟩
  | .local _ .vmem, ⟨12, _⟩ => ⟨S1472x256, .bf16⟩
  | .local _ .vmem, ⟨13, _⟩ => ⟨S1472x256, .bf16⟩
  | .local _ .vmem, ⟨14, _⟩ => ⟨S1472x256, .bf16⟩
  | .local _ .vmem, ⟨15, _⟩ => ⟨S1472x256, .bf16⟩
  | .local _ .vmem, ⟨16, _⟩ => ⟨S256x256, .bf16⟩
  | .local _ .vmem, ⟨17, _⟩ => ⟨S256x256, .bf16⟩
  | .local _ .vmem, ⟨18, _⟩ => ⟨S5888x256, .bf16⟩
  | .local _ .vmem, ⟨19, _⟩ => ⟨S5888x256, .bf16⟩
  | .local _ .vmem, ⟨20, _⟩ => ⟨S256x512, .f32⟩
  | .local _ .vmem, ⟨21, _⟩ => ⟨S256x512, .f32⟩
  | .local _ .vmem, ⟨22, _⟩ => ⟨S1x5888, .i32⟩
  | .local _ .vmem, ⟨23, _⟩ => ⟨S512x256, .bf16⟩
  | .local _ .vmem, ⟨24, _⟩ => ⟨S1x512, .f32⟩
  | .local _ .vmem, ⟨25, _⟩ => ⟨S256x5888, .f32⟩
  | .local _ .vmem, ⟨26, _⟩ => ⟨S256x5888, .f32⟩
  | .local _ .vmem, ⟨27, _⟩ => ⟨S256x512, .f32⟩
  | .local _ .vmem, ⟨28, _⟩ => ⟨S256x512, .f32⟩
  | _, _ => ⟨S128x512x46, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v19 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v20 : Ref sig .tc := ⟨.hbm, 53, rfl⟩
abbrev main_v21 : Ref sig .tc := ⟨.hbm, 54, rfl⟩
abbrev main_v22_0 : Ref sig .tc := ⟨.hbm, 55, rfl⟩
abbrev main_v22_1 : Ref sig .tc := ⟨.hbm, 56, rfl⟩
abbrev main_v23 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1472x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1472x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1472x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1472x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![23], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5888x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5888x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x5888 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x5888 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S512 : S_.BroadcastsInDim S512 (![] : Fin 0 → Fin S512.rank)
  transposes_S128x512x46_S128x46x512_0_2_1 : S128x512x46.Transposes [0, 2, 1] S128x46x512
  shapeCasts_S128x46x512_S5888x512 : S128x46x512.ShapeCasts S5888x512
  shapeCasts_S512_S1x512 : S512.ShapeCasts S1x512
  shapeCasts_S256_S1x256 : S256.ShapeCasts S1x256
  bitsLt_bf16_f32 : FTy.bits .bf16 < FTy.bits .f32
  inb_S1472x512_S1472x512_0_0 : ∀ a, (![0, 0] : Fin 2 → Nat) a + S1472x512.size a ≤ S1472x512.size a
  h_S1472x512 : 0 < S1472x512.numel
  shapeCasts_S1472x512_S1472x512 : S1472x512.ShapeCasts S1472x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1472x512 : S1x512.Broadcasts S1472x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1472x256 : S1x256.Broadcasts S1472x256
  inb_S1472x256_S1472x256_0_0 : ∀ a, (![0, 0] : Fin 2 → Nat) a + S1472x256.size a ≤ S1472x256.size a
  h_S1472x256 : 0 < S1472x256.numel
  packedbf16_S1472x256_S1472x256_0_0 : (Rect.unit (s := S1472x256) ![0, 0] S1472x256.size inb_S1472x256_S1472x256_0_0).PackedRows (EltTy.packing .bf16)
  bcast_S_S5888 : S_.BroadcastsInDim S5888 (![] : Fin 0 → Fin S5888.rank)
  shapeCasts_S5888_S1x5888 : S5888.ShapeCasts S1x5888
  iota_S256x1_d0_w32 : S256x1.Iotas .tc 32 [0]
  natLt_1_32 : 1 < 32
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S5888x256_S5888x256_0_0 : ∀ a, (![0, 0] : Fin 2 → Nat) a + S5888x256.size a ≤ S5888x256.size a
  h_S5888x256 : 0 < S5888x256.numel
  shapeCasts_S5888x256_S5888x256 : S5888x256.ShapeCasts S5888x256
  transposes_S5888x256_p1_0_S256x5888 : S5888x256.Transposes [1, 0] S256x5888
  broadcasts_S256x1_S256x5888 : S256x1.Broadcasts S256x5888
  broadcasts_S1x5888_S256x5888 : S1x5888.Broadcasts S256x5888
  reduces_S256x5888_S256 : S256x5888.Reduces [1] S256
  shapeCasts_S256_S256x1 : S256.ShapeCasts S256x1
  inb_S256x5888_S256x5888_0_0 : ∀ a, (![0, 0] : Fin 2 → Nat) a + S256x5888.size a ≤ S256x5888.size a
  h_S256x5888 : 0 < S256x5888.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  broadcasts_S1x512_S256x512 : S1x512.Broadcasts S256x512
  shapeCasts_S5888x512_S128x46x512 : S5888x512.ShapeCasts S128x46x512
  dot_S1472x512_S512x256_S1472x256_1_0_0_1_n_n_wf : DotDims.WF S1472x512 S512x256 S1472x256 [1] [0] [0] [1] [] []
  dot_S256x256_S256x5888_S256x5888_1_0_0_1_n_n_wf : DotDims.WF S256x256 S256x5888 S256x5888 [1] [0] [0] [1] [] []
  dot_S256x5888_S5888x256_S256x256_1_0_0_1_n_n_wf : DotDims.WF S256x5888 S5888x256 S256x256 [1] [0] [0] [1] [] []
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1472x512.size a ≤ S5888x512.size a
  hwx0_0 : ∀ i : grid0.Coords, EltTy.bits .f32 = 32 ∨ (Rect.block (s := S5888x512) S1472x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1472x256.size a ≤ S5888x256.size a
  hwx0_9 : ∀ i : grid0.Coords, EltTy.bits .bf16 = 32 ∨ (Rect.block (s := S5888x256) S1472x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1472x256.size a ≤ S5888x256.size a
  hwx0_10 : ∀ i : grid0.Coords, EltTy.bits .bf16 = 32 ∨ (Rect.block (s := S5888x256) S1472x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1472x256.size a ≤ S5888x256.size a
  hwx0_11 : ∀ i : grid0.Coords, EltTy.bits .bf16 = 32 ∨ (Rect.block (s := S5888x256) S1472x256.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S5888x256.size a
  hwx1_0 : ∀ i : grid1.Coords, EltTy.bits .bf16 = 32 ∨ (Rect.block (s := S5888x256) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5888x256.size a ≤ S5888x256.size a
  hwx1_1 : ∀ i : grid1.Coords, EltTy.bits .bf16 = 32 ∨ (Rect.block (s := S5888x256) S5888x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5888x256.size a ≤ S5888x256.size a
  hwx1_2 : ∀ i : grid1.Coords, EltTy.bits .bf16 = 32 ∨ (Rect.block (s := S5888x256) S5888x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S5888x512.size a
  hwx1_3 : ∀ i : grid1.Coords, EltTy.bits .f32 = 32 ∨ (Rect.block (s := S5888x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5888.size a ≤ S1x5888.size a
  hwx1_4 : ∀ i : grid1.Coords, EltTy.bits .i32 = 32 ∨ (Rect.block (s := S1x5888) S1x5888.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x5888.size a ≤ S5888x5888.size a
  hwx1_7 : ∀ i : grid1.Coords, EltTy.bits .f32 = 32 ∨ (Rect.block (s := S5888x5888) S256x5888.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x512.size a ≤ S5888x512.size a
  hwx1_8 : ∀ i : grid1.Coords, EltTy.bits .f32 = 32 ∨ (Rect.block (s := S5888x512) S256x512.size (cc1_transform_8 i) (hinb1_8 i)).WholeWords (EltTy.packing .f32)

variable [Facts₀]

def dot_S1472x512_S512x256_S1472x256_1_0_0_1_n_n : DotDims S1472x512 S512x256 S1472x256 where
  lhsContracting := [1]
  rhsContracting := [0]
  lhsNonContracting := [0]
  rhsNonContracting := [1]
  lhsBatch := []
  rhsBatch := []
  wf := dot_S1472x512_S512x256_S1472x256_1_0_0_1_n_n_wf
def dot_S256x256_S256x5888_S256x5888_1_0_0_1_n_n : DotDims S256x256 S256x5888 S256x5888 where
  lhsContracting := [1]
  rhsContracting := [0]
  lhsNonContracting := [0]
  rhsNonContracting := [1]
  lhsBatch := []
  rhsBatch := []
  wf := dot_S256x256_S256x5888_S256x5888_1_0_0_1_n_n_wf
def dot_S256x5888_S5888x256_S256x256_1_0_0_1_n_n : DotDims S256x5888 S5888x256 S256x256 where
  lhsContracting := [1]
  rhsContracting := [0]
  lhsNonContracting := [0]
  rhsNonContracting := [1]
  lhsBatch := []
  rhsBatch := []
  wf := dot_S256x5888_S5888x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_v7) S1472x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18_0) S1472x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18_1) S1472x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18_2) S1472x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v18_0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_1) S5888x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_2) S5888x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x5888.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22_0) S256x5888.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_1) S256x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S128x512x46 : Shape := ⟨3, ![128, 512, 46]⟩
abbrev S512 : Shape := ⟨1, ![512]⟩
abbrev S256x512 : Shape := ⟨2, ![256, 512]⟩
abbrev S256 : Shape := ⟨1, ![256]⟩
abbrev S512x256 : Shape := ⟨2, ![512, 256]⟩
abbrev S_ : Shape := ⟨0, ![]⟩
abbrev S1x512x1 : Shape := ⟨3, ![1, 512, 1]⟩
abbrev S128x46x512 : Shape := ⟨3, ![128, 46, 512]⟩
abbrev S5888x512 : Shape := ⟨2, ![5888, 512]⟩
abbrev S5888x256 : Shape := ⟨2, ![5888, 256]⟩
abbrev S1x256 : Shape := ⟨2, ![1, 256]⟩
abbrev S256x5888 : Shape := ⟨2, ![256, 5888]⟩
abbrev S5888x5888 : Shape := ⟨2, ![5888, 5888]⟩
abbrev S5888 : Shape := ⟨1, ![5888]⟩
abbrev S5888x1 : Shape := ⟨2, ![5888, 1]⟩
abbrev S1x5888 : Shape := ⟨2, ![1, 5888]⟩
abbrev S1x512 : Shape := ⟨2, ![1, 512]⟩

abbrev nBuf : Space → Nat
  | .hbm => 98
  | .vmem => 0
  | .smem => 0
  | _ => 0

abbrev bufTy : (tb : Table) → Fin (tcTables nBuf tb) → BufTy
  | .hbm, ⟨0, _⟩ => ⟨S128x512x46, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S512x256, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1x512x1, .f32⟩
  | .hbm, ⟨19, _⟩ => ⟨S128x512x46, .f32⟩
  | .hbm, ⟨20, _⟩ => ⟨S128x512x46, .f32⟩
  | .hbm, ⟨21, _⟩ => ⟨S512, .f32⟩
  | .hbm, ⟨22, _⟩ => ⟨S512, .f32⟩
  | .hbm, ⟨23, _⟩ => ⟨S1x512x1, .f32⟩
  | .hbm, ⟨24, _⟩ => ⟨S128x512x46, .f32⟩
  | .hbm, ⟨25, _⟩ => ⟨S128x512x46, .f32⟩
  | .hbm, ⟨26, _⟩ => ⟨S_, .f32⟩
  | .hbm, ⟨27, _⟩ => ⟨S128x512x46, .f32⟩
  | .hbm, ⟨28, _⟩ => ⟨S128x512x46, .f32⟩
  | .hbm, ⟨29, _⟩ => ⟨S128x46x512, .f32⟩
  | .hbm, ⟨30, _⟩ => ⟨S5888x512, .f32⟩
  | .hbm, ⟨31, _⟩ => ⟨S512x256, .f32⟩
  | .hbm, ⟨32, _⟩ => ⟨S5888x256, .f32⟩
  | .hbm, ⟨33, _⟩ => ⟨S1x256, .f32⟩
  | .hbm, ⟨34, _⟩ => ⟨S5888x256, .f32⟩
  | .hbm, ⟨35, _⟩ => ⟨S5888x256, .f32⟩
  | .hbm, ⟨36, _⟩ => ⟨S512x256, .f32⟩
  | .hbm, ⟨37, _⟩ => ⟨S5888x256, .f32⟩
  | .hbm, ⟨38, _⟩ => ⟨S1x256, .f32⟩
  | .hbm, ⟨39, _⟩ => ⟨S5888x256, .f32⟩
  | .hbm, ⟨40, _⟩ => ⟨S5888x256, .f32⟩
  | .hbm, ⟨41, _⟩ => ⟨S256x5888, .f32⟩
  | .hbm, ⟨42, _⟩ => ⟨S5888x5888, .f32⟩
  | .hbm, ⟨43, _⟩ => ⟨S5888, .i32⟩
  | .hbm, ⟨44, _⟩ => ⟨S_, .i32⟩
  | .hbm, ⟨45, _⟩ => ⟨S_, .i32⟩
  | .hbm, ⟨46, _⟩ => ⟨S5888, .i32⟩
  | .hbm, ⟨47, _⟩ => ⟨S5888, .i32⟩
  | .hbm, ⟨48, _⟩ => ⟨S5888, .i32⟩
  | .hbm, ⟨49, _⟩ => ⟨S_, .i32⟩
  | .hbm, ⟨50, _⟩ => ⟨S5888, .i32⟩
  | .hbm, ⟨51, _⟩ => ⟨S5888, .i1⟩
  | .hbm, ⟨52, _⟩ => ⟨S5888, .i32⟩
  | .hbm, ⟨53, _⟩ => ⟨S5888, .i32⟩
  | .hbm, ⟨54, _⟩ => ⟨S_, .i32⟩
  | .hbm, ⟨55, _⟩ => ⟨S5888, .i32⟩
  | .hbm, ⟨56, _⟩ => ⟨S5888, .i1⟩
  | .hbm, ⟨57, _⟩ => ⟨S5888, .i1⟩
  | .hbm, ⟨58, _⟩ => ⟨S_, .i32⟩
  | .hbm, ⟨59, _⟩ => ⟨S5888, .i32⟩
  | .hbm, ⟨60, _⟩ => ⟨S5888, .i32⟩
  | .hbm, ⟨61, _⟩ => ⟨S5888, .i32⟩
  | .hbm, ⟨62, _⟩ => ⟨S5888x1, .i32⟩
  | .hbm, ⟨63, _⟩ => ⟨S1x5888, .i32⟩
  | .hbm, ⟨64, _⟩ => ⟨S5888x5888, .i32⟩
  | .hbm, ⟨65, _⟩ => ⟨S5888x5888, .i32⟩
  | .hbm, ⟨66, _⟩ => ⟨S5888x5888, .i1⟩
  | .hbm, ⟨67, _⟩ => ⟨S_, .f32⟩
  | .hbm, ⟨68, _⟩ => ⟨S5888x5888, .f32⟩
  | .hbm, ⟨69, _⟩ => ⟨S5888x5888, .f32⟩
  | .hbm, ⟨70, _⟩ => ⟨S_, .f32⟩
  | .hbm, ⟨71, _⟩ => ⟨S5888, .f32⟩
  | .hbm, ⟨72, _⟩ => ⟨S_, .f32⟩
  | .hbm, ⟨73, _⟩ => ⟨S5888, .f32⟩
  | .hbm, ⟨74, _⟩ => ⟨S5888, .f32⟩
  | .hbm, ⟨75, _⟩ => ⟨S5888x1, .f32⟩
  | .hbm, ⟨76, _⟩ => ⟨S5888x5888, .f32⟩
  | .hbm, ⟨77, _⟩ => ⟨S5888x5888, .f32⟩
  | .hbm, ⟨78, _⟩ => ⟨S5888x5888, .f32⟩
  | .hbm, ⟨79, _⟩ => ⟨S_, .f32⟩
  | .hbm, ⟨80, _⟩ => ⟨S5888, .f32⟩
  | .hbm, ⟨81, _⟩ => ⟨S5888x1, .f32⟩
  | .hbm, ⟨82, _⟩ => ⟨S5888x5888, .f32⟩
  | .hbm, ⟨83, _⟩ => ⟨S5888x5888, .f32⟩
  | .hbm, ⟨84, _⟩ => ⟨S512x256, .f32⟩
  | .hbm, ⟨85, _⟩ => ⟨S5888x256, .f32⟩
  | .hbm, ⟨86, _⟩ => ⟨S1x256, .f32⟩
  | .hbm, ⟨87, _⟩ => ⟨S5888x256, .f32⟩
  | .hbm, ⟨88, _⟩ => ⟨S5888x256, .f32⟩
  | .hbm, ⟨89, _⟩ => ⟨S5888x256, .f32⟩
  | .hbm, ⟨90, _⟩ => ⟨S256x512, .f32⟩
  | .hbm, ⟨91, _⟩ => ⟨S5888x512, .f32⟩
  | .hbm, ⟨92, _⟩ => ⟨S1x512, .f32⟩
  | .hbm, ⟨93, _⟩ => ⟨S5888x512, .f32⟩
  | .hbm, ⟨94, _⟩ => ⟨S5888x512, .f32⟩
  | .hbm, ⟨95, _⟩ => ⟨S128x46x512, .f32⟩
  | .hbm, ⟨96, _⟩ => ⟨S128x46x512, .f32⟩
  | .hbm, ⟨97, _⟩ => ⟨S128x46x512, .f32⟩
  | _, _ => ⟨S128x512x46, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_0 : Ref sig .tc := ⟨.hbm, 67, rfl⟩
abbrev main_call2_v0 : Ref sig .tc := ⟨.hbm, 68, rfl⟩
abbrev main_v34 : Ref sig .tc := ⟨.hbm, 69, rfl⟩
abbrev main_cst_1 : Ref sig .tc := ⟨.hbm, 70, rfl⟩
abbrev main_v35 : Ref sig .tc := ⟨.hbm, 71, rfl⟩
abbrev main_cst_2 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_3 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512x1_1 : S512.BroadcastsInDim S1x512x1 (![1] : Fin 1 → Fin S1x512x1.rank)
  bcast_S1x512x1_S128x512x46_0_1_2 : S1x512x1.BroadcastsInDim S128x512x46 (![0, 1, 2] : Fin 3 → Fin S128x512x46.rank)
  bcast_S_S128x512x46 : S_.BroadcastsInDim S128x512x46 (![] : Fin 0 → Fin S128x512x46.rank)
  transposes_S128x512x46_S128x46x512_0_2_1 : S128x512x46.Transposes [0, 2, 1] S128x46x512
  shapeCasts_S128x46x512_S5888x512 : S128x46x512.ShapeCasts S5888x512
  transposes_S256x512_S512x256_1_0 : S256x512.Transposes [1, 0] S512x256
  bcast_S256_S1x256_1 : S256.BroadcastsInDim S1x256 (![1] : Fin 1 → Fin S1x256.rank)
  bcast_S1x256_S5888x256_0_1 : S1x256.BroadcastsInDim S5888x256 (![0, 1] : Fin 2 → Fin S5888x256.rank)
  transposes_S5888x256_S256x5888_1_0 : S5888x256.Transposes [1, 0] S256x5888
  bcast_S_S5888 : S_.BroadcastsInDim S5888 (![] : Fin 0 → Fin S5888.rank)
  bcast_S5888_S5888x1_0 : S5888.BroadcastsInDim S5888x1 (![0] : Fin 1 → Fin S5888x1.rank)
  bcast_S5888_S1x5888_1 : S5888.BroadcastsInDim S1x5888 (![1] : Fin 1 → Fin S1x5888.rank)
  bcast_S5888x1_S5888x5888_0_1 : S5888x1.BroadcastsInDim S5888x5888 (![0, 1] : Fin 2 → Fin S5888x5888.rank)
  bcast_S1x5888_S5888x5888_0_1 : S1x5888.BroadcastsInDim S5888x5888 (![0, 1] : Fin 2 → Fin S5888x5888.rank)
  bcast_S_S5888x5888 : S_.BroadcastsInDim S5888x5888 (![] : Fin 0 → Fin S5888x5888.rank)
  reducesTo_S5888x5888_S5888_d1 : S5888x5888.ReducesTo [1] S5888
  h_S_ : 0 < S_.numel
  transposes_S512x256_S256x512_1_0 : S512x256.Transposes [1, 0] S256x512
  bcast_S512_S1x512_1 : S512.BroadcastsInDim S1x512 (![1] : Fin 1 → Fin S1x512.rank)
  bcast_S1x512_S5888x512_0_1 : S1x512.BroadcastsInDim S5888x512 (![0, 1] : Fin 2 → Fin S5888x512.rank)
  shapeCasts_S5888x512_S128x46x512 : S5888x512.ShapeCasts S128x46x512
  dot_S5888x512_S512x256_S5888x256_1_0_0_1_n_n_wf : DotDims.WF S5888x512 S512x256 S5888x256 [1] [0] [0] [1] [] []
  dot_S5888x256_S256x5888_S5888x5888_1_0_0_1_n_n_wf : DotDims.WF S5888x256 S256x5888 S5888x5888 [1] [0] [0] [1] [] []
  dot_S5888x5888_S5888x256_S5888x256_1_0_0_1_n_n_wf : DotDims.WF S5888x5888 S5888x256 S5888x256 [1] [0] [0] [1] [] []
  dot_S5888x256_S256x512_S5888x512_1_0_0_1_n_n_wf : DotDims.WF S5888x256 S256x512 S5888x512 [1] [0] [0] [1] [] []

variable [Facts₀]

def dot_S5888x512_S512x256_S5888x256_1_0_0_1_n_n : DotDims S5888x512 S512x256 S5888x256 where
  lhsContracting := [1]
  rhsContracting := [0]
  lhsNonContracting := [0]
  rhsNonContracting := [1]
  lhsBatch := []
  rhsBatch := []
  wf := dot_S5888x512_S512x256_S5888x256_1_0_0_1_n_n_wf
def dot_S5888x256_S256x5888_S5888x5888_1_0_0_1_n_n : DotDims S5888x256 S256x5888 S5888x5888 where
  lhsContracting := [1]
  rhsContracting := [0]
  lhsNonContracting := [0]
  rhsNonContracting := [1]
  lhsBatch := []
  rhsBatch := []
  wf := dot_S5888x256_S256x5888_S5888x5888_1_0_0_1_n_n_wf
def dot_S5888x5888_S5888x256_S5888x256_1_0_0_1_n_n : DotDims S5888x5888 S5888x256 S5888x256 where
  lhsContracting := [1]
  rhsContracting := [0]
  lhsNonContracting := [0]
  rhsNonContracting := [1]
  lhsBatch := []
  rhsBatch := []
  wf := dot_S5888x5888_S5888x256_S5888x256_1_0_0_1_n_n_wf
def dot_S5888x256_S256x512_S5888x512_1_0_0_1_n_n : DotDims S5888x256 S256x512 S5888x512 where
  lhsContracting := [1]
  rhsContracting := [0]
  lhsNonContracting := [0]
  rhsNonContracting := [1]
  lhsBatch := []
  rhsBatch := []
  wf := dot_S5888x256_S256x512_S5888x512_1_0_0_1_n_n_wf

class Facts : Prop extends Facts₀ where

variable [Facts]
-- ==== Proof.Spec.lean ====
/-
  The mathematics of this certificate, stated once and over no program: what the two results are, index by index, as
  functions of the thirteen argument arrays read at the extended reals.

  Tokens.  The activation [128, 512, 46] is read as 5888 = 128 · 46 tokens of 512 channels: token t = 46 n + k is
  (sample n, position k), so n = t / 46 and k = t % 46, and two tokens lie in the same block of 46 iff t / 46 = u / 46.

  The chain.  inv = γ / sqrt(var + ε), shift = β − mean · inv (per channel);
    feat t c  = max (ori[n, c, k] · inv c + shift c, 0)
    xθ t j    = (Σ_c feat t c · θw[j, c]) + θb[j]          (likewise xφ with φw, φb and gx with gw, gb)
    attn t u  = −1000 when t and u share a block, else Σ_j xθ t j · xφ u j
    f t u     = exp (attn t u − max_u attn t u) / Σ_u exp (attn t u − max_u attn t u)     (the row softmax)
    y t j     = Σ_u f t u · gx u j
    wy t c    = (Σ_j y t j · Ww[c, j]) + Wb[c]
    results:  att[n, k, c] = ori[n, c, k] + wy (46 n + k) c     and     f itself.
  A row maximum is the fold of max from −∞ over the row; a sum over a row is a finite sum in the commutative monoid of
  the extended reals, so neither depends on an order or a grouping. No step uses a law that needs finiteness.
-/
import Idealize.ShloMosaic.PureOps.Ideal
import Idealize.ShloMosaic.Lib.ValueIdx

noncomputable section

namespace Cert.Spec

open Idealize.ShloMosaic Idealize.ShloMosaic.ValueIdx

/-- The thirteen argument arrays, as functions of their indices into the extended reals. -/
structure Args where
  ori : (⟨3, ![128, 512, 46]⟩ : Shape).Idx → EReal
  gamma : (⟨1, ![512]⟩ : Shape).Idx → EReal
  beta : (⟨1, ![512]⟩ : Shape).Idx → EReal
  mean : (⟨1, ![512]⟩ : Shape).Idx → EReal
  var : (⟨1, ![512]⟩ : Shape).Idx → EReal
  thetaW : (⟨2, ![256, 512]⟩ : Shape).Idx → EReal
  thetaB : (⟨1, ![256]⟩ : Shape).Idx → EReal
  phiW : (⟨2, ![256, 512]⟩ : Shape).Idx → EReal
  phiB : (⟨1, ![256]⟩ : Shape).Idx → EReal
  gW : (⟨2, ![256, 512]⟩ : Shape).Idx → EReal
  gB : (⟨1, ![256]⟩ : Shape).Idx → EReal
  wW : (⟨2, ![512, 256]⟩ : Shape).Idx → EReal
  wB : (⟨1, ![512]⟩ : Shape).Idx → EReal

/-- The sample of a token: t / 46. -/
def tn (t : Fin 5888) : Fin 128 := ⟨t.val / 46, by have := t.isLt; omega⟩
/-- The position of a token inside its sample: t % 46. -/
def tk (t : Fin 5888) : Fin 46 := ⟨t.val % 46, Nat.mod_lt _ (by decide)⟩
/-- The token of (sample, position): 46 n + k. -/
def tok (n : Fin 128) (k : Fin 46) : Fin 5888 := ⟨46 * n.val + k.val, by have := n.isLt; have := k.isLt; omega⟩

theorem tn_tok (n : Fin 128) (k : Fin 46) : tn (tok n k) = n := by
  apply Fin.ext; show (46 * n.val + k.val) / 46 = n.val; have := k.isLt; omega
theorem tk_tok (n : Fin 128) (k : Fin 46) : tk (tok n k) = k := by
  apply Fin.ext; show (46 * n.val + k.val) % 46 = k.val; have := k.isLt; omega
theorem tok_tn_tk (t : Fin 5888) : tok (tn t) (tk t) = t := by
  apply Fin.ext; show 46 * (t.val / 46) + t.val % 46 = t.val; omega

variable (A : Args)

/-- The folded batch-norm scale, per channel: γ / sqrt(var + ε), ε the f32 word of 1e-5. -/
def inv (c : Fin 512) : EReal :=
  Ideal.div (A.gamma (ix1 c)) (Ideal.sqrt (A.var (ix1 c) + Ideal.ofBits .f32 0x3727C5AC#32))
/-- The folded batch-norm offset, per channel: β − mean · inv. -/
def shift (c : Fin 512) : EReal := A.beta (ix1 c) - A.mean (ix1 c) * inv A c
/-- The activation of token `t`, channel `c`, before normalisation: ori[t / 46, c, t % 46]. -/
def oriT (t : Fin 5888) (c : Fin 512) : EReal := A.ori (ix3 (tn t) c (tk t))
/-- Batch norm and ReLU. -/
def feat (t : Fin 5888) (c : Fin 512) : EReal :=
  max (oriT A t c * inv A c + shift A c) (Ideal.ofBits .f32 0x00000000#32)
/-- A projection of the features to 256 channels with a bias: (Σ_c feat t c · w[j, c]) + b[j]. -/
def proj (w : (⟨2, ![256, 512]⟩ : Shape).Idx → EReal) (b : (⟨1, ![256]⟩ : Shape).Idx → EReal) (t : Fin 5888) (j : Fin 256) : EReal :=
  (∑ c : Fin 512, feat A t c * w (ix2 j c)) + b (ix1 j)
def xTheta (t : Fin 5888) (j : Fin 256) : EReal := proj A A.thetaW A.thetaB t j
def xPhi (t : Fin 5888) (j : Fin 256) : EReal := proj A A.phiW A.phiB t j
def gX (t : Fin 5888) (j : Fin 256) : EReal := proj A A.gW A.gB t j
/-- The attention logits with each diagonal block of 46 × 46 replaced by −1000. -/
def attn (t u : Fin 5888) : EReal :=
  if t.val / 46 = u.val / 46 then Ideal.ofBits .f32 0xC47A0000#32 else ∑ j : Fin 256, xTheta A t j * xPhi A u j
/-- The maximum of a row of logits: the fold of max from −∞. -/
def rowMax (t : Fin 5888) : EReal :=
  (Finset.univ : Finset (Fin 5888)).fold max (Ideal.ofBits .f32 0xFF800000#32) (attn A t)
/-- The unnormalised softmax weights. -/
def expo (t u : Fin 5888) : EReal := Ideal.exp (attn A t u - rowMax A t)
/-- Their row sum. -/
def rowSum (t : Fin 5888) : EReal := ∑ u : Fin 5888, expo A t u
/-- The softmax of a row: the second result. -/
def soft (t u : Fin 5888) : EReal := Ideal.div (expo A t u) (rowSum A t)
/-- The attended values. -/
def yv (t : Fin 5888) (j : Fin 256) : EReal := ∑ u : Fin 5888, soft A t u * gX A u j
/-- The output projection with its bias. -/
def wy (t : Fin 5888) (c : Fin 512) : EReal := (∑ j : Fin 256, yv A t j * A.wW (ix2 c j)) + A.wB (ix1 c)
/-- The residual sum on the token layout [5888, 512]: what the second kernel region writes. -/
def attFlat (t : Fin 5888) (c : Fin 512) : EReal := oriT A t c + wy A t c

/-- The first result at explicit coordinates: ori[n, c, k] + wy (46 n + k) c. -/
def attNKC (n : Fin 128) (k : Fin 46) (c : Fin 512) : EReal := A.ori (ix3 n c k) + wy A (tok n k) c
/-- FIRST RESULT, [128, 46, 512]. -/
def attOut : (⟨3, ![128, 46, 512]⟩ : Shape).Idx → EReal := fun i => attNKC A (i 0) (i 1) (i 2)
/-- SECOND RESULT, [5888, 5888]: the row softmax of the masked logits. -/
def fdiv : (⟨2, ![5888, 5888]⟩ : Shape).Idx → EReal := fun i => soft A (i 0) (i 1)

/-- The first result read through the token layout: entry (n, k, c) of it is entry (46 n + k, c) of `attFlat`. -/
theorem attNKC_eq_attFlat (n : Fin 128) (k : Fin 46) (c : Fin 512) : attNKC A n k c = attFlat A (tok n k) c := by
  unfold attNKC attFlat oriT
  rw [tn_tok, tk_tok]

end Cert.Spec

end
-- ==== Proof.Args.lean ====
/-
  The thirteen argument arrays of a launch memory, packaged as the specification's `Args`: once for the idealized kernel's
  memory and once for the idealized reference's. Two memories that agree on the arguments give the same package.
-/
import proofs.«123535_j11510512353703_2_alg».proof.KernelIdeal
import proofs.«123535_j11510512353703_2_alg».proof.ReferenceIdeal
import proofs.«123535_j11510512353703_2_alg».proof.Proof.Spec

noncomputable section

open Idealize.ShloMosaic Idealize.SL.Sem

namespace Cert.KernelIdeal

/-- The argument arrays of the idealized kernel's memory on device `c`. -/
def argsK (m : (ℓ : Loc nD τ sig) → Buf (Elt Ideal) ℓ) (c : Dev nD) : Cert.Spec.Args where
  ori := m ((c.tc : Thread nD τ).loc main_arg0)
  gamma := m ((c.tc : Thread nD τ).loc main_arg1)
  beta := m ((c.tc : Thread nD τ).loc main_arg2)
  mean := m ((c.tc : Thread nD τ).loc main_arg3)
  var := m ((c.tc : Thread nD τ).loc main_arg4)
  thetaW := m ((c.tc : Thread nD τ).loc main_arg5)
  thetaB := m ((c.tc : Thread nD τ).loc main_arg6)
  phiW := m ((c.tc : Thread nD τ).loc main_arg7)
  phiB := m ((c.tc : Thread nD τ).loc main_arg8)
  gW := m ((c.tc : Thread nD τ).loc main_arg9)
  gB := m ((c.tc : Thread nD τ).loc main_arg10)
  wW := m ((c.tc : Thread nD τ).loc main_arg11)
  wB := m ((c.tc : Thread nD τ).loc main_arg12)

end Cert.KernelIdeal

namespace Cert.ReferenceIdeal

/-- The argument arrays of the idealized reference's memory on device `c`. -/
def argsR (m : (ℓ : Loc nD τ sig) → Buf (Elt Ideal) ℓ) (c : Dev nD) : Cert.Spec.Args where
  ori := m ((c.tc : Thread nD τ).loc main_arg0)
  gamma := m ((c.tc : Thread nD τ).loc main_arg1)
  beta := m ((c.tc : Thread nD τ).loc main_arg2)
  mean := m ((c.tc : Thread nD τ).loc main_arg3)
  var := m ((c.tc : Thread nD τ).loc main_arg4)
  thetaW := m ((c.tc : Thread nD τ).loc main_arg5)
  thetaB := m ((c.tc : Thread nD τ).loc main_arg6)
  phiW := m ((c.tc : Thread nD τ).loc main_arg7)
  phiB := m ((c.tc : Thread nD τ).loc main_arg8)
  gW := m ((c.tc : Thread nD τ).loc main_arg9)
  gB := m ((c.tc : Thread nD τ).loc main_arg10)
  wW := m ((c.tc : Thread nD τ).loc main_arg11)
  wB := m ((c.tc : Thread nD τ).loc main_arg12)

end Cert.ReferenceIdeal

end
-- ==== Proof.KRun.lean ====
/-
  The idealized kernel's run with its two results named. @main is seven segments: host operations, the first
  pallas_call, three stretches of host operations, the second pallas_call, and a final reshape. The frame certificate
  folds the buffer contents through them (`W0` … `W7`) and shows that every weakly fair execution ends with every
  unscoped buffer holding the last fold `W7`; read at the two result buffers this is the run that the value claims need,
  and read at the thirteen argument buffers it is the frame. What `W7` holds at the results is worked out elsewhere.
-/
import proofs.«123535_j11510512353703_2_alg».proof.Proof.KernelIdealFrame

set_option maxRecDepth 16384

noncomputable section

namespace Cert.KernelIdeal.KRun

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, with the two result buffers at the
    last boundary's contents and the thirteen argument arrays as launched. -/
theorem run : θ_run defs (onTc (τ := τ) (main (F := F))) ⟨m, fun _ => 0, ρ⟩ (fun r => ∀ c : Dev nD,
      r.2.mem ((c.tc : Thread nD τ).loc main_v23) = W7 m ρ c (Proc.devRef .tc main_v23)
      ∧ r.2.mem ((c.tc : Thread nD τ).loc main_v22_0) = W7 m ρ c (Proc.devRef .tc main_v22_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v23 (by decide)),
       h c _ (mem_uc main_v22_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.KRun

end
-- ==== Proof.KMid.lean ====
/-
  Between the two pallas_calls. The second call reads seven arrays: the three projections the first call wrote
  (x_θ, x_φ, g_x), the token-major activation and the two output-projection parameters that the host prepared before the
  first call, and the row of block ids the host computes between the calls. The host operations between the calls
  (an iota, the constant 46, the floor division, a reshape) write none of the first six, so each enters the second call
  holding what it held when the first call ended: for a projection, the fold of the first call's write-backs; for an
  input of the first call or an array the first call does not touch, its contents before the first call.
-/
import proofs.«123535_j11510512353703_2_alg».proof.Proof.KernelIdealFrame

set_option maxRecDepth 16384

noncomputable section

namespace Cert.KernelIdeal.KMid

open Cert.KernelIdeal.Gen Cert.KernelIdeal.GenP
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- No host operation between the two pallas_calls writes `main_v18_0`: it enters the second as it left the first. -/
theorem W5_main_v18_0 (c : Dev nD) : W5 m ρ c (Proc.devRef .tc main_v18_0) = W2 m ρ c (Proc.devRef .tc main_v18_0) :=
  calc W5 m ρ c (Proc.devRef .tc main_v18_0)
    _ = W4 m ρ c (Proc.devRef .tc main_v18_0) := StableHlo.after_of_forall_not_mem (b := Proc.devRef .tc main_v18_0) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v18_0) := StableHlo.after_of_forall_not_mem (b := Proc.devRef .tc main_v18_0) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v18_0) := StableHlo.after_of_forall_not_mem (b := Proc.devRef .tc main_v18_0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two pallas_calls writes `main_v18_1`: it enters the second as it left the first. -/
theorem W5_main_v18_1 (c : Dev nD) : W5 m ρ c (Proc.devRef .tc main_v18_1) = W2 m ρ c (Proc.devRef .tc main_v18_1) :=
  calc W5 m ρ c (Proc.devRef .tc main_v18_1)
    _ = W4 m ρ c (Proc.devRef .tc main_v18_1) := StableHlo.after_of_forall_not_mem (b := Proc.devRef .tc main_v18_1) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v18_1) := StableHlo.after_of_forall_not_mem (b := Proc.devRef .tc main_v18_1) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v18_1) := StableHlo.after_of_forall_not_mem (b := Proc.devRef .tc main_v18_1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two pallas_calls writes `main_v18_2`: it enters the second as it left the first. -/
theorem W5_main_v18_2 (c : Dev nD) : W5 m ρ c (Proc.devRef .tc main_v18_2) = W2 m ρ c (Proc.devRef .tc main_v18_2) :=
  calc W5 m ρ c (Proc.devRef .tc main_v18_2)
    _ = W4 m ρ c (Proc.devRef .tc main_v18_2) := StableHlo.after_of_forall_not_mem (b := Proc.devRef .tc main_v18_2) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v18_2) := StableHlo.after_of_forall_not_mem (b := Proc.devRef .tc main_v18_2) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v18_2) := StableHlo.after_of_forall_not_mem (b := Proc.devRef .tc main_v18_2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two pallas_calls writes `main_v7`: it enters the second as it left the first. -/
theorem W5_main_v7 (c : Dev nD) : W5 m ρ c (Proc.devRef .tc main_v7) = W2 m ρ c (Proc.devRef .tc main_v7) :=
  calc W5 m ρ c (Proc.devRef .tc main_v7)
    _ = W4 m ρ c (Proc.devRef .tc main_v7) := StableHlo.after_of_forall_not_mem (b := Proc.devRef .tc main_v7) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v7) := StableHlo.after_of_forall_not_mem (b := Proc.devRef .tc main_v7) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two pallas_calls writes `main_v17`: it enters the second as it left the first. -/
theorem W5_main_v17 (c : Dev nD) : W5 m ρ c (Proc.devRef .tc main_v17) = W2 m ρ c (Proc.devRef .tc main_v17) :=
  calc W5 m ρ c (Proc.devRef .tc main_v17)
    _ = W4 m ρ c (Proc.devRef .tc main_v17) := StableHlo.after_of_forall_not_mem (b := Proc.devRef .tc main_v17) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v17) := StableHlo.after_of_forall_not_mem (b := Proc.devRef .tc main_v17) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No host operation between the two pallas_calls writes `main_v13`: it enters the second as it left the first. -/
theorem W5_main_v13 (c : Dev nD) : W5 m ρ c (Proc.devRef .tc main_v13) = W2 m ρ c (Proc.devRef .tc main_v13) :=
  calc W5 m ρ c (Proc.devRef .tc main_v13)
    _ = W4 m ρ c (Proc.devRef .tc main_v13) := StableHlo.after_of_forall_not_mem (b := Proc.devRef .tc main_v13) _ _ (List.forall_iff_forall_mem.mp (by
          simp only [hostOps1_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v13) := StableHlo.after_of_forall_not_mem (b := Proc.devRef .tc main_v13) _ _ (List.forall_iff_forall_mem.mp (by
          simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v13) := StableHlo.after_of_forall_not_mem (b := Proc.devRef .tc main_v13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- x_θ as the second call finds it: what the first call's write-backs left in its first output array. -/
theorem V5_theta (c : Dev nD) : V5 m ρ c main_v18_0 = (dat0 (V1 m ρ) c).arrAt 9 cfg0.N :=
  (W5_main_v18_0 m ρ c).trans (W2_arr m ρ c 9)
/-- x_φ likewise. -/
theorem V5_phi (c : Dev nD) : V5 m ρ c main_v18_1 = (dat0 (V1 m ρ) c).arrAt 10 cfg0.N :=
  (W5_main_v18_1 m ρ c).trans (W2_arr m ρ c 10)
/-- g_x likewise. -/
theorem V5_g (c : Dev nD) : V5 m ρ c main_v18_2 = (dat0 (V1 m ρ) c).arrAt 11 cfg0.N :=
  (W5_main_v18_2 m ρ c).trans (W2_arr m ρ c 11)
/-- The token-major activation is an INPUT of the first call, which never writes an input array. -/
theorem V5_ori (c : Dev nD) : V5 m ρ c main_v7 = V1 m ρ c main_v7 :=
  (W5_main_v7 m ρ c).trans ((W2_arr m ρ c 0).trans (((dat0 (V1 m ρ) c).arrAt_in 0 rfl cfg0.N).trans (A_eq0 (V1 m ρ) c 0)))
/-- The output projection's weight is not an array of the first call at all. -/
theorem V5_wW (c : Dev nD) : V5 m ρ c main_v17 = V1 m ρ c main_v17 :=
  (W5_main_v17 m ρ c).trans (W2_of_ne m ρ c main_v17 (by decide))
/-- Nor is its bias. -/
theorem V5_wB (c : Dev nD) : V5 m ρ c main_v13 = V1 m ρ c main_v13 :=
  (W5_main_v13 m ρ c).trans (W2_of_ne m ρ c main_v13 (by decide))

end Cert.KernelIdeal.KMid

end
-- ==== Proof.FloorDiv.lean ====
/-
  Floor division of a 32-bit word by 46, for words below 5888.

  Both programs compute "x // 46" on signed 32-bit words by the usual correction of the truncated quotient: q = x sdiv 46,
  and q − 1 when the signs of x and 46 differ and x srem 46 ≠ 0. For 0 ≤ x < 2^31 both words have a clear top bit, so the
  signed quotient and remainder are the unsigned ones, i.e. the natural-number ones; the sign of 46 is 1 and the sign of x
  is 0 or 1, and it is 0 only for x = 0, whose remainder is 0. So the correction never fires and the result is the word
  of x / 46.
-/
import Idealize.ShloMosaic.Lib.ValueIdx

namespace Cert.FloorDiv

open Idealize.ShloMosaic

/-- A word below 5888 has a clear top bit. -/
theorem msb_of_lt (x : BitVec 32) (hx : x.toNat < 5888) : x.msb = false := by
  rw [BitVec.msb_eq_false_iff_two_mul_lt]; omega

/-- The divisor 46 is no corner of signed division. -/
theorem not_corner (x : BitVec 32) : ¬ IntOp.SDivCorner x 46#32 := by
  intro h
  rcases h with h | ⟨_, h⟩
  · exact absurd h (by decide)
  · exact absurd h (by decide)

/-- The signed quotient by 46 of a word below 5888 is the word of the natural quotient, on every unit. -/
theorem divsi46 (u : ArithUnit) (x : BitVec 32) (hx : x.toNat < 5888) :
    IntOp.divsi u x 46#32 = BitVec.ofNat 32 (x.toNat / 46) := by
  unfold IntOp.divsi
  rw [if_neg (not_corner x), BitVec.sdiv_eq, msb_of_lt x hx, show (46#32 : BitVec 32).msb = false by decide]
  apply BitVec.eq_of_toNat_eq
  simp only [BitVec.udiv_eq, BitVec.toNat_udiv, BitVec.toNat_ofNat]
  have : x.toNat / 46 < 2 ^ 32 := by omega
  rw [Nat.mod_eq_of_lt this]

/-- The signed remainder by 46 of a word below 5888 is the word of the natural remainder, on every unit. -/
theorem remsi46 (u : ArithUnit) (x : BitVec 32) (hx : x.toNat < 5888) :
    IntOp.remsi u x 46#32 = BitVec.ofNat 32 (x.toNat % 46) := by
  unfold IntOp.remsi
  rw [if_neg (not_corner x), BitVec.srem_eq, msb_of_lt x hx, show (46#32 : BitVec 32).msb = false by decide]
  apply BitVec.eq_of_toNat_eq
  simp only [BitVec.toNat_umod, BitVec.toNat_ofNat]
  have : x.toNat % 46 < 2 ^ 32 := by omega
  rw [Nat.mod_eq_of_lt this]

/-- The remainder word is the zero word exactly when the natural remainder is zero. -/
theorem rem_word_eq_zero (x : BitVec 32) : (BitVec.ofNat 32 (x.toNat % 46) = 0#32) ↔ x.toNat % 46 = 0 := by
  constructor
  · intro h
    have := congrArg BitVec.toNat h
    simp only [BitVec.toNat_ofNat] at this
    have h2 : x.toNat % 46 < 2 ^ 32 := by omega
    rw [Nat.mod_eq_of_lt h2] at this
    exact this
  · intro h; rw [h]

/-- The sign of 46, as the host computes a sign: 1. -/
theorem sign46 : (if (46#32 : BitVec 32) = 0 then (0 : BitVec 32) else if (46#32 : BitVec 32).msb then -1 else 1) = 1#32 := by decide

/-- The sign of a non-zero word below 5888, as the host computes a sign: 1. -/
theorem sign_of_pos (x : BitVec 32) (hx : x.toNat < 5888) (h0 : x ≠ 0) :
    (if x = 0 then (0 : BitVec 32) else if x.msb then -1 else 1) = 1#32 := by
  rw [if_neg h0, msb_of_lt x hx]; rfl

/-- THE HOST'S FLOOR DIVISION BY 46 at one element: the select of the corrected and the truncated quotient. -/
theorem host_floordiv46 (x : BitVec 32) (hx : x.toNat < 5888) :
    Scalar.select
        (IntOp.andi
          (IntOp.cmpi .ne (if x = 0 then (0 : BitVec 32) else if x.msb then -1 else 1)
            (if (46#32 : BitVec 32) = 0 then (0 : BitVec 32) else if (46#32 : BitVec 32).msb then -1 else 1))
          (IntOp.cmpi .ne (IntOp.remsi .host x 46#32) 0#32))
        (IntOp.subi (IntOp.divsi .host x 46#32) 1#32)
        (IntOp.divsi .host x 46#32)
      = BitVec.ofNat 32 (x.toNat / 46) := by
  rw [divsi46 .host x hx, remsi46 .host x hx, sign46]
  by_cases h0 : x = 0
  · subst h0; rfl
  · rw [sign_of_pos x hx h0]
    have : IntOp.cmpi .ne (1#32) (1#32) = 0#1 := by decide
    rw [this]
    have h2 : ∀ b : BitVec 1, IntOp.andi 0#1 b = 0#1 := by decide
    rw [h2]
    rfl

/-- The host's formula is what its elementwise operations read at an index. -/
example {s : Shape} (xs : IVec s 32) (i : s.Idx) :
    select (andi (cmpi .ne (signi xs) (signi (broadcast s 46#32))) (cmpi .ne (Host.remsi xs (broadcast s 46#32)) (broadcast s 0#32)))
        (subi (Host.divsi xs (broadcast s 46#32)) (broadcast s 1#32)) (Host.divsi xs (broadcast s 46#32)) i
      = Scalar.select
        (IntOp.andi
          (IntOp.cmpi .ne (if xs i = 0 then (0 : BitVec 32) else if (xs i).msb then -1 else 1)
            (if (46#32 : BitVec 32) = 0 then (0 : BitVec 32) else if (46#32 : BitVec 32).msb then -1 else 1))
          (IntOp.cmpi .ne (IntOp.remsi .host (xs i) 46#32) 0#32))
        (IntOp.subi (IntOp.divsi .host (xs i) 46#32) 1#32)
        (IntOp.divsi .host (xs i) 46#32) := rfl

/-- A non-zero word below 5888 is positive as a signed word, and not negative. -/
theorem slt_of_pos (x : BitVec 32) (hx : x.toNat < 5888) (h0 : x ≠ 0) : (0#32).slt x = true ∧ x.slt 0#32 = false := by
  have hi : x.toInt = (x.toNat : Int) := BitVec.toInt_eq_toNat_of_lt (by omega)
  have hn : x.toNat ≠ 0 := fun h => h0 (BitVec.eq_of_toNat_eq h)
  constructor
  · rw [BitVec.slt_eq_decide, hi]; simp; omega
  · rw [BitVec.slt_eq_decide, hi]; simp

/-- THE KERNEL BODY'S FLOOR DIVISION BY 46 at one element: the sign of x spelt as (x > 0) − (x < 0) on zero-extended
    comparison bits, that of 46 likewise on scalars. -/
theorem kernel_floordiv46 (x : BitVec 32) (hx : x.toNat < 5888) :
    Scalar.select
        (IntOp.andi
          (IntOp.cmpi .ne
            (IntOp.subi ((IntOp.cmpi .sgt x 0#32).setWidth 32) ((IntOp.cmpi .slt x 0#32).setWidth 32))
            (Scalar.subi (Scalar.extui (Scalar.cmpi .sgt 46#32 0#32)) (Scalar.extui (Scalar.cmpi .slt 46#32 0#32))))
          (IntOp.cmpi .ne (IntOp.remsi .vector x 46#32) 0#32))
        (IntOp.subi (IntOp.divsi .vector x 46#32) 1#32)
        (IntOp.divsi .vector x 46#32)
      = BitVec.ofNat 32 (x.toNat / 46) := by
  rw [divsi46 .vector x hx, remsi46 .vector x hx]
  have h46 : Scalar.subi (Scalar.extui (Scalar.cmpi .sgt 46#32 0#32)) (Scalar.extui (Scalar.cmpi .slt 46#32 0#32)) = 1#32 := by decide
  rw [h46]
  by_cases h0 : x = 0
  · subst h0; rfl
  · obtain ⟨h1, h2⟩ := slt_of_pos x hx h0
    have hs : IntOp.subi ((IntOp.cmpi .sgt x 0#32).setWidth 32) ((IntOp.cmpi .slt x 0#32).setWidth 32) = 1#32 := by
      simp only [IntOp.cmpi, IntOp.subi, h1, h2]; decide
    rw [hs]
    have : IntOp.cmpi .ne (1#32) (1#32) = 0#1 := by decide
    rw [this]
    have h2 : ∀ b : BitVec 1, IntOp.andi 0#1 b = 0#1 := by decide
    rw [h2]
    rfl

end Cert.FloorDiv
-- ==== Proof.KBlk.lean ====
/-
  The row of block ids. Between the two pallas_calls the host computes, for each of the 5888 token columns u, the id of its
  block of 46 tokens, u // 46, on 32-bit words: an iota, the signed quotient and remainder by 46, and the usual
  floor-division correction (subtract one when the signs differ and the remainder is not zero), then a reshape to one
  row [1, 5888]. Every column index is below 5888, far below 2^31, so quotient and remainder are the natural-number ones
  and the correction never fires: the row holds the word of u / 46 at column u. Nothing here depends on what the buffers
  held before these operations, so the fact is stated for an arbitrary starting valuation.
-/
import proofs.«123535_j11510512353703_2_alg».proof.Proof.KernelIdealFrame
import proofs.«123535_j11510512353703_2_alg».proof.Proof.FloorDiv
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
set_option maxRecDepth 16384

noncomputable section

namespace Cert.KernelIdeal.KBlk

open Cert.KernelIdeal.Gen Cert.KernelIdeal.GenP
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

open Idealize.ShloMosaic.ValueIdx

/-- A scalar broadcast to a shape is the splat of its one entry. -/
theorem bcast_scalar {T : Shape} {α : Type} (h : (⟨0, ![]⟩ : Shape).BroadcastsInDim T ![]) (x : (⟨0, ![]⟩ : Shape).Idx → α) :
    broadcastInDim T ![] h x = broadcast T (x ix0) :=
  funext fun j => broadcastInDim_scalar_apply h x j

/-- The host's token // 46 over the 5888 columns, as its operations compose: quotient q and remainder of the iota by the
    splat of 46, and q − 1 where the signs of the iota and of 46 differ and the remainder is not zero. -/
def hostFD : IVec S5888 32 :=
  select
    (andi (cmpi .ne (signi (iotaInDim S5888 32 0)) (broadcastInDim S5888 ![] bcast_S_S5888 (signi (id (constantI S_ 32 46#32)))))
      (cmpi .ne (Host.remsi (iotaInDim S5888 32 0) (broadcastInDim S5888 ![] bcast_S_S5888 (id (constantI S_ 32 46#32))))
        (broadcastInDim S5888 ![] bcast_S_S5888 (constantI S_ 32 0#32))))
    (subi (Host.divsi (iotaInDim S5888 32 0) (broadcastInDim S5888 ![] bcast_S_S5888 (id (constantI S_ 32 46#32))))
      (broadcastInDim S5888 ![] bcast_S_S5888 (constantI S_ 32 1#32)))
    (Host.divsi (iotaInDim S5888 32 0) (broadcastInDim S5888 ![] bcast_S_S5888 (id (constantI S_ 32 46#32))))

/-- At column u it is the word of u / 46: the iota's word there is u < 5888, where signed and natural division agree. -/
theorem hostFD_apply (u : Fin 5888) : hostFD (ix1 u) = BitVec.ofNat 32 (u.val / 46) := by
  unfold hostFD
  rw [bcast_scalar, bcast_scalar, bcast_scalar, bcast_scalar]
  have hu : (BitVec.ofNat 32 u.val).toNat = u.val := by
    rw [BitVec.toNat_ofNat]; exact Nat.mod_eq_of_lt (by have := u.isLt; omega)
  refine (Cert.FloorDiv.host_floordiv46 (BitVec.ofNat 32 u.val) (by rw [hu]; exact u.isLt)).trans ?_
  rw [hu]

set_option maxHeartbeats 1000000 in
/-- After the host operations between the calls, from any contents, the block-id row is that formula as one row. -/
theorem blk_term (X : Valuation τ sig (Elt F)) :
    (StableHlo.after (hostOps1_2 (F := F)) (StableHlo.after hostOps1_1 (StableHlo.after hostOps1 X)) (Proc.devRef .tc main_v21) : S1x5888.Idx → BitVec 32)
      = shapeCast S1x5888 hostFD shapeCasts_S5888_S1x5888 := by
  after_results
  rfl

/-- So it holds u / 46 at column u. -/
theorem blk_of (X : Valuation τ sig (Elt F)) (u : Fin 5888) :
    (StableHlo.after (hostOps1_2 (F := F)) (StableHlo.after hostOps1_1 (StableHlo.after hostOps1 X)) (Proc.devRef .tc main_v21) : S1x5888.Idx → BitVec 32) (ix2 (0 : Fin 1) u)
      = BitVec.ofNat 32 (u.val / 46) := by
  rw [blk_term]
  exact (shapeCast_a_1a_apply _ _ (0 : Fin 1) u).trans (hostFD_apply u)

/-- The block-id row as the second call finds it. -/
theorem V5_blk (c : Dev nD) (u : Fin 5888) :
    (V5 m ρ c main_v21 : S1x5888.Idx → BitVec 32) (ix2 (0 : Fin 1) u) = BitVec.ofNat 32 (u.val / 46) :=
  blk_of (W2 m ρ c) u

end Cert.KernelIdeal.KBlk

end
-- ==== Proof.KTail.lean ====
/-
  After the second pallas_call. The one host operation left reshapes the call's second output from the token layout
  [5888, 512] to [128, 46, 512]: entry (n, k, c) of the result is entry (46 n + k, c) of the array (row-major order on both
  sides). It writes neither the call's first output — the softmax matrix, which is returned as it is — nor anything else,
  so the two results at the end of the run are: the softmax matrix as the second call's write-backs left it, and the
  residual sum read through the token layout.
-/
import proofs.«123535_j11510512353703_2_alg».proof.Proof.KernelIdealFrame
import proofs.«123535_j11510512353703_2_alg».proof.Proof.Spec
import Idealize.ShloMosaic.Lib.StableHlo.Run
import Idealize.ShloMosaic.Lib.ValueIdx
import Idealize.ShloMosaic.Lib.Pipeline.Value
set_option maxRecDepth 16384

noncomputable section

namespace Cert.KernelIdeal.KTail

open Cert.KernelIdeal.Gen Cert.KernelIdeal.GenP
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

open Idealize.ShloMosaic.ValueIdx

/-- The final reshape read at an index, from any contents: (n, k, c) reads the token row 46 n + k. -/
theorem tail_att (X : Valuation τ sig (Elt F)) (n : Fin 128) (k : Fin 46) (ch : Fin 512) :
    (StableHlo.after (hostOps2 (F := F)) X (Proc.devRef .tc main_v23) : S128x46x512.Idx → Elt F .f32) (ix3 n k ch)
      = (X (Proc.devRef .tc main_v22_1) : S5888x512.Idx → Elt F .f32) (ix2 (Cert.Spec.tok n k) ch) := by
  after_results
  refine shapeCast_apply _ _ _ _ ?_
  show (S5888x512.rowMajor (ix2 (Cert.Spec.tok n k) ch)).val = (S128x46x512.rowMajor (ix3 n k ch)).val
  rw [Shape.rowMajor_val_two, Shape.rowMajor_val_three]
  show (46 * n.val + k.val) * 512 + ch.val = (n.val * 46 + k.val) * 512 + ch.val
  rw [Nat.mul_comm 46 n.val]

/-- FIRST RESULT at the end of the run: the second call's second output array read through the token layout. -/
theorem W7_att (c : Dev nD) (n : Fin 128) (k : Fin 46) (ch : Fin 512) :
    (W7 m ρ c (Proc.devRef .tc main_v23) : S128x46x512.Idx → Elt F .f32) (ix3 n k ch)
      = ((dat1 (V5 m ρ) c).arrAt 8 cfg1.N : S5888x512.Idx → Elt F .f32) (ix2 (Cert.Spec.tok n k) ch) :=
  (tail_att (W6 m ρ c) n k ch).trans (congrFun (W6_arr m ρ c 8) _)

/-- SECOND RESULT at the end of the run: the second call's first output array, untouched by the final reshape. -/
theorem W7_fdiv (c : Dev nD) : W7 m ρ c (Proc.devRef .tc main_v22_0) = (dat1 (V5 m ρ) c).arrAt 7 cfg1.N :=
  (StableHlo.after_of_forall_not_mem (b := Proc.devRef .tc main_v22_0) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arr m ρ c 7)

end Cert.KernelIdeal.KTail

end
-- ==== Proof.KAttnPayLayout.lean ====
/-
  Layout operations read at an index, in the column ("keepdims") forms the attention body uses: a vector [a] cast to a
  column [a, 1], a column [a, 1] broadcast along the rows of [a, b], and the index a one-axis reduction of [a, b] along
  axis 1 inserts.
-/
import Idealize.ShloMosaic.Lib.ValueIdx
import Idealize.ShloMosaic.Lib.ValueLayout
import Idealize.ShloMosaic.Lib.Pipeline.Value
import Idealize.ShloMosaic.PureOps.Ideal.Laws

namespace Cert.KernelIdeal.KAttn

open Idealize.ShloMosaic Idealize.ShloMosaic.ValueIdx

variable {α : Type}

/-- An `[a]` array cast to the column `[a, 1]` reads, at `(i, z)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction of `[a, b]` along axis 1 inserts: row `p` with the coordinate `c` put back is `(p, c)`. -/
theorem lift_axis1 {a b : ℕ} (h : (⟨2, ![a, b]⟩ : Shape).Reduces [1] ⟨1, ![a]⟩) (p : Fin a) (c : Fin b) :
    h.lift (ix1 p) c = ix2 p c := by
  funext ax
  apply Fin.ext
  match ax with
  | ⟨0, _⟩ => rfl
  | ⟨1, _⟩ => rfl

end Cert.KernelIdeal.KAttn
-- ==== Proof.KAttnPay1.lean ====
/-
  The softmax payload of the attention body, read at an index: with the row maximum m_r subtracted, each entry is
  exp (a_{r,u} − m_r) divided by the row's sum of those exponentials.
-/
import proofs.«123535_j11510512353703_2_alg».proof.Proof.Gen.KernelIdeal.Skeleton
import proofs.«123535_j11510512353703_2_alg».proof.Proof.KAttnPayLayout

noncomputable section

namespace Cert.KernelIdeal.KAttn

open Idealize.ShloMosaic Idealize.ShloMosaic.ValueIdx Cert.KernelIdeal Cert.KernelIdeal.Gen

variable (v40 : FVec Ideal S256x5888 .f32) (v41 : FVec Ideal S256 .f32)

/-- The row maximum laid along its row. -/
theorem rowmax_col (r : Fin 256) (u : Fin 5888) :
    broadcastTo S256x5888 (shapeCast S256x1 v41 shapeCasts_S256_S256x1) broadcasts_S256x1_S256x5888 (ix2 r u) = v41 (ix1 r) :=
  (broadcastTo_a1_ab_apply _ broadcasts_S256x1_S256x5888 r u).trans (shapeCast_a_a1_apply v41 shapeCasts_S256_S256x1 r 0)

theorem pay1_apply (r : Fin 256) (u : Fin 5888) :
    k1_pay1 (F := Ideal) v40 v41 (ix2 r u)
      = Ideal.div (Ideal.exp (v40 (ix2 r u) - v41 (ix1 r))) (∑ u' : Fin 5888, Ideal.exp (v40 (ix2 r u') - v41 (ix1 r))) := by
  unfold k1_pay1
  have hnum : ∀ u' : Fin 5888,
      exp (subf v40 (broadcastTo S256x5888 (shapeCast S256x1 v41 shapeCasts_S256_S256x1) broadcasts_S256x1_S256x5888)) (ix2 r u')
        = Ideal.exp (v40 (ix2 r u') - v41 (ix1 r)) := by
    intro u'
    show Ideal.exp (v40 (ix2 r u')
      - broadcastTo S256x5888 (shapeCast S256x1 v41 shapeCasts_S256_S256x1) broadcasts_S256x1_S256x5888 (ix2 r u')) = _
    rw [rowmax_col]
  rw [divf_apply, hnum u]
  congr 1
  refine (broadcastTo_a1_ab_apply _ broadcasts_S256x1_S256x5888 r u).trans ?_
  refine (shapeCast_a_a1_apply _ shapeCasts_S256_S256x1 r 0).trans ?_
  refine (Ideal.multiReduction_add_single _ _ reduces_S256x5888_S256 _ _ (ix1 r)).trans ?_
  refine Finset.sum_congr rfl fun u' _ => ?_
  exact (congrArg _ (lift_axis1 reduces_S256x5888_S256 r u')).trans (hnum u')

end Cert.KernelIdeal.KAttn
-- ==== Proof.KAttnPayDot.lean ====
/-
  The three matrix products of the attention body read at an index. Each contracts one axis — the left operand's
  second with the right operand's first — into a zero accumulator, so at the extended reals each entry (p, q) is the
  finite sum over the contracted coordinate k of lhs[p, k] · rhs[k, q]: the contraction index is re-indexed by its one
  coordinate, and the operand indices at (p, q) and k are (p, k) and (k, q).
-/
import proofs.«123535_j11510512353703_2_alg».proof.Proof.Gen.KernelIdeal.Skeleton
import Idealize.ShloMosaic.Lib.ValueIdx
import Idealize.ShloMosaic.PureOps.Ideal.Laws

noncomputable section

namespace Cert.KernelIdeal.KAttn

open Idealize.ShloMosaic Idealize.ShloMosaic.ValueIdx Cert.KernelIdeal Cert.KernelIdeal.Gen

/-! ### The dot record of [256, 256] × [256, 5888] -/

theorem dotQK_lhs0 (j : S256x5888.Idx) (q : dot_S256x256_S256x5888_S256x5888_1_0_0_1_n_n.contr.Idx) :
    (dot_S256x256_S256x5888_S256x5888_1_0_0_1_n_n.lhsIdx j q 0).val = (j 0).val := by
  unfold DotDims.lhsIdx
  rw [dif_neg (show ¬(0 : Fin S256x256.rank) ∈ dot_S256x256_S256x5888_S256x5888_1_0_0_1_n_n.lhsBatch by decide),
    dif_pos (show (0 : Fin S256x256.rank) ∈ dot_S256x256_S256x5888_S256x5888_1_0_0_1_n_n.lhsNonContracting by decide)]
  rfl
theorem dotQK_lhs1 (j : S256x5888.Idx) (q : dot_S256x256_S256x5888_S256x5888_1_0_0_1_n_n.contr.Idx) :
    (dot_S256x256_S256x5888_S256x5888_1_0_0_1_n_n.lhsIdx j q 1).val = (q ⟨0, by decide⟩).val :=
  dot_S256x256_S256x5888_S256x5888_1_0_0_1_n_n.lhsIdx_val_of_single rfl j q
theorem dotQK_rhs0 (j : S256x5888.Idx) (q : dot_S256x256_S256x5888_S256x5888_1_0_0_1_n_n.contr.Idx) :
    (dot_S256x256_S256x5888_S256x5888_1_0_0_1_n_n.rhsIdx j q 0).val = (q ⟨0, by decide⟩).val :=
  dot_S256x256_S256x5888_S256x5888_1_0_0_1_n_n.rhsIdx_val_of_single rfl j q
theorem dotQK_rhs1 (j : S256x5888.Idx) (q : dot_S256x256_S256x5888_S256x5888_1_0_0_1_n_n.contr.Idx) :
    (dot_S256x256_S256x5888_S256x5888_1_0_0_1_n_n.rhsIdx j q 1).val = (j 1).val := by
  unfold DotDims.rhsIdx
  rw [dif_neg (show ¬(1 : Fin S256x5888.rank) ∈ dot_S256x256_S256x5888_S256x5888_1_0_0_1_n_n.rhsBatch by decide),
    dif_pos (show (1 : Fin S256x5888.rank) ∈ dot_S256x256_S256x5888_S256x5888_1_0_0_1_n_n.rhsNonContracting by decide)]
  rfl

/-- The matrix product into the zero splat, read at (p, q): the sum over the one contracted coordinate. -/
theorem matmulQK_apply {φ₁ φ₂ : FTy} (lhs : FVec Ideal S256x256 φ₁) (rhs : FVec Ideal S256x5888 φ₂) (p : Fin 256) (q : Fin 5888) :
    matmul dot_S256x256_S256x5888_S256x5888_1_0_0_1_n_n none lhs rhs (constant (F := Ideal) S256x5888 .f32 0x00000000#32) (ix2 p q)
      = ∑ k : Fin 256, lhs (ix2 p k) * rhs (ix2 k q) := by
  refine (Ideal.matmul_constant_zero_apply dot_S256x256_S256x5888_S256x5888_1_0_0_1_n_n none lhs rhs (ix2 p q)).trans ?_
  rw [← Equiv.sum_comp (contrEquiv1 dot_S256x256_S256x5888_S256x5888_1_0_0_1_n_n 256 rfl rfl).symm]
  refine Finset.sum_congr rfl fun k _ => ?_
  have hk := contrEquiv1_symm_val dot_S256x256_S256x5888_S256x5888_1_0_0_1_n_n 256 rfl rfl k
  have el : dot_S256x256_S256x5888_S256x5888_1_0_0_1_n_n.lhsIdx (ix2 p q) ((contrEquiv1 dot_S256x256_S256x5888_S256x5888_1_0_0_1_n_n 256 rfl rfl).symm k) = ix2 p k :=
    funext fun a => Fin.ext (by
      match a with
      | ⟨0, _⟩ => exact dotQK_lhs0 _ _
      | ⟨1, _⟩ => exact (dotQK_lhs1 _ _).trans hk)
  have er : dot_S256x256_S256x5888_S256x5888_1_0_0_1_n_n.rhsIdx (ix2 p q) ((contrEquiv1 dot_S256x256_S256x5888_S256x5888_1_0_0_1_n_n 256 rfl rfl).symm k) = ix2 k q :=
    funext fun a => Fin.ext (by
      match a with
      | ⟨0, _⟩ => exact (dotQK_rhs0 _ _).trans hk
      | ⟨1, _⟩ => exact dotQK_rhs1 _ _)
  rw [el, er]

/-! ### The dot record of [256, 5888] × [5888, 256] -/

theorem dotPV_lhs0 (j : S256x256.Idx) (q : dot_S256x5888_S5888x256_S256x256_1_0_0_1_n_n.contr.Idx) :
    (dot_S256x5888_S5888x256_S256x256_1_0_0_1_n_n.lhsIdx j q 0).val = (j 0).val := by
  unfold DotDims.lhsIdx
  rw [dif_neg (show ¬(0 : Fin S256x5888.rank) ∈ dot_S256x5888_S5888x256_S256x256_1_0_0_1_n_n.lhsBatch by decide),
    dif_pos (show (0 : Fin S256x5888.rank) ∈ dot_S256x5888_S5888x256_S256x256_1_0_0_1_n_n.lhsNonContracting by decide)]
  rfl
theorem dotPV_lhs1 (j : S256x256.Idx) (q : dot_S256x5888_S5888x256_S256x256_1_0_0_1_n_n.contr.Idx) :
    (dot_S256x5888_S5888x256_S256x256_1_0_0_1_n_n.lhsIdx j q 1).val = (q ⟨0, by decide⟩).val :=
  dot_S256x5888_S5888x256_S256x256_1_0_0_1_n_n.lhsIdx_val_of_single rfl j q
theorem dotPV_rhs0 (j : S256x256.Idx) (q : dot_S256x5888_S5888x256_S256x256_1_0_0_1_n_n.contr.Idx) :
    (dot_S256x5888_S5888x256_S256x256_1_0_0_1_n_n.rhsIdx j q 0).val = (q ⟨0, by decide⟩).val :=
  dot_S256x5888_S5888x256_S256x256_1_0_0_1_n_n.rhsIdx_val_of_single rfl j q
theorem dotPV_rhs1 (j : S256x256.Idx) (q : dot_S256x5888_S5888x256_S256x256_1_0_0_1_n_n.contr.Idx) :
    (dot_S256x5888_S5888x256_S256x256_1_0_0_1_n_n.rhsIdx j q 1).val = (j 1).val := by
  unfold DotDims.rhsIdx
  rw [dif_neg (show ¬(1 : Fin S5888x256.rank) ∈ dot_S256x5888_S5888x256_S256x256_1_0_0_1_n_n.rhsBatch by decide),
    dif_pos (show (1 : Fin S5888x256.rank) ∈ dot_S256x5888_S5888x256_S256x256_1_0_0_1_n_n.rhsNonContracting by decide)]
  rfl

/-- The matrix product into the zero splat, read at (p, q): the sum over the one contracted coordinate. -/
theorem matmulPV_apply {φ₁ φ₂ : FTy} (lhs : FVec Ideal S256x5888 φ₁) (rhs : FVec Ideal S5888x256 φ₂) (p : Fin 256) (q : Fin 256) :
    matmul dot_S256x5888_S5888x256_S256x256_1_0_0_1_n_n none lhs rhs (constant (F := Ideal) S256x256 .f32 0x00000000#32) (ix2 p q)
      = ∑ k : Fin 5888, lhs (ix2 p k) * rhs (ix2 k q) := by
  refine (Ideal.matmul_constant_zero_apply dot_S256x5888_S5888x256_S256x256_1_0_0_1_n_n none lhs rhs (ix2 p q)).trans ?_
  rw [← Equiv.sum_comp (contrEquiv1 dot_S256x5888_S5888x256_S256x256_1_0_0_1_n_n 5888 rfl rfl).symm]
  refine Finset.sum_congr rfl fun k _ => ?_
  have hk := contrEquiv1_symm_val dot_S256x5888_S5888x256_S256x256_1_0_0_1_n_n 5888 rfl rfl k
  have el : dot_S256x5888_S5888x256_S256x256_1_0_0_1_n_n.lhsIdx (ix2 p q) ((contrEquiv1 dot_S256x5888_S5888x256_S256x256_1_0_0_1_n_n 5888 rfl rfl).symm k) = ix2 p k :=
    funext fun a => Fin.ext (by
      match a with
      | ⟨0, _⟩ => exact dotPV_lhs0 _ _
      | ⟨1, _⟩ => exact (dotPV_lhs1 _ _).trans hk)
  have er : dot_S256x5888_S5888x256_S256x256_1_0_0_1_n_n.rhsIdx (ix2 p q) ((contrEquiv1 dot_S256x5888_S5888x256_S256x256_1_0_0_1_n_n 5888 rfl rfl).symm k) = ix2 k q :=
    funext fun a => Fin.ext (by
      match a with
      | ⟨0, _⟩ => exact (dotPV_rhs0 _ _).trans hk
      | ⟨1, _⟩ => exact dotPV_rhs1 _ _)
  rw [el, er]

/-! ### The dot record of [256, 256] × [256, 512] -/

theorem dotW_lhs0 (j : S256x512.Idx) (q : dot_S256x256_S256x512_S256x512_1_0_0_1_n_n.contr.Idx) :
    (dot_S256x256_S256x512_S256x512_1_0_0_1_n_n.lhsIdx j q 0).val = (j 0).val := by
  unfold DotDims.lhsIdx
  rw [dif_neg (show ¬(0 : Fin S256x256.rank) ∈ dot_S256x256_S256x512_S256x512_1_0_0_1_n_n.lhsBatch by decide),
    dif_pos (show (0 : Fin S256x256.rank) ∈ dot_S256x256_S256x512_S256x512_1_0_0_1_n_n.lhsNonContracting by decide)]
  rfl
theorem dotW_lhs1 (j : S256x512.Idx) (q : dot_S256x256_S256x512_S256x512_1_0_0_1_n_n.contr.Idx) :
    (dot_S256x256_S256x512_S256x512_1_0_0_1_n_n.lhsIdx j q 1).val = (q ⟨0, by decide⟩).val :=
  dot_S256x256_S256x512_S256x512_1_0_0_1_n_n.lhsIdx_val_of_single rfl j q
theorem dotW_rhs0 (j : S256x512.Idx) (q : dot_S256x256_S256x512_S256x512_1_0_0_1_n_n.contr.Idx) :
    (dot_S256x256_S256x512_S256x512_1_0_0_1_n_n.rhsIdx j q 0).val = (q ⟨0, by decide⟩).val :=
  dot_S256x256_S256x512_S256x512_1_0_0_1_n_n.rhsIdx_val_of_single rfl j q
theorem dotW_rhs1 (j : S256x512.Idx) (q : dot_S256x256_S256x512_S256x512_1_0_0_1_n_n.contr.Idx) :
    (dot_S256x256_S256x512_S256x512_1_0_0_1_n_n.rhsIdx j q 1).val = (j 1).val := by
  unfold DotDims.rhsIdx
  rw [dif_neg (show ¬(1 : Fin S256x512.rank) ∈ dot_S256x256_S256x512_S256x512_1_0_0_1_n_n.rhsBatch by decide),
    dif_pos (show (1 : Fin S256x512.rank) ∈ dot_S256x256_S256x512_S256x512_1_0_0_1_n_n.rhsNonContracting by decide)]
  rfl

/-- The matrix product into the zero splat, read at (p, q): the sum over the one contracted coordinate. -/
theorem matmulW_apply {φ₁ φ₂ : FTy} (lhs : FVec Ideal S256x256 φ₁) (rhs : FVec Ideal S256x512 φ₂) (p : Fin 256) (q : Fin 512) :
    matmul dot_S256x256_S256x512_S256x512_1_0_0_1_n_n none lhs rhs (constant (F := Ideal) S256x512 .f32 0x00000000#32) (ix2 p q)
      = ∑ k : Fin 256, lhs (ix2 p k) * rhs (ix2 k q) := by
  refine (Ideal.matmul_constant_zero_apply dot_S256x256_S256x512_S256x512_1_0_0_1_n_n none lhs rhs (ix2 p q)).trans ?_
  rw [← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  have el : dot_S256x256_S256x512_S256x512_1_0_0_1_n_n.lhsIdx (ix2 p q) ((contrEquiv1 dot_S256x256_S256x512_S256x512_1_0_0_1_n_n 256 rfl rfl).symm k) = ix2 p k :=
    funext fun a => Fin.ext (by
      match a with
      | ⟨0, _⟩ => exact dotW_lhs0 _ _
      | ⟨1, _⟩ => exact (dotW_lhs1 _ _).trans hk)
  have er : dot_S256x256_S256x512_S256x512_1_0_0_1_n_n.rhsIdx (ix2 p q) ((contrEquiv1 dot_S256x256_S256x512_S256x512_1_0_0_1_n_n 256 rfl rfl).symm k) = ix2 k q :=
    funext fun a => Fin.ext (by
      match a with
      | ⟨0, _⟩ => exact (dotW_rhs0 _ _).trans hk
      | ⟨1, _⟩ => exact dotW_rhs1 _ _)
  rw [el, er]

end Cert.KernelIdeal.KAttn
-- ==== Proof.KAttnPay3.lean ====
/-
  The masked logits of the attention body, read at an index. Row r of grid step i is token 256 i + r; the body computes
  its block (256 i + r) // 46 by the signed floor-division correction on 32-bit words, compares it with the block word of
  column u, and selects −1000 where they agree and the logit Σ_j θ[r, j] · φ[u, j] elsewhere. With 256 i + r < 5888 no
  word operation wraps, the floor division is the natural quotient, and equality of the two block words is equality of
  the quotients. The row maximum is the fold of max over the row from −∞.
-/
import proofs.«123535_j11510512353703_2_alg».proof.Proof.Gen.KernelIdeal.Skeleton
import proofs.«123535_j11510512353703_2_alg».proof.Proof.KAttnPayLayout
import proofs.«123535_j11510512353703_2_alg».proof.Proof.KAttnPayDot
import proofs.«123535_j11510512353703_2_alg».proof.Proof.FloorDiv

noncomputable section

namespace Cert.KernelIdeal.KAttn

open Idealize.ShloMosaic Idealize.ShloMosaic.ValueIdx Cert.KernelIdeal Cert.KernelIdeal.Gen

/-! ## The row's block word -/

/-- The tokens of the rows of grid step `i`, as a column of words: 256 i + (row). -/
def tokWords (i : grid1.Coords) : IVec S256x1 32 :=
  addi (broadcast S256x1 (Scalar.muli (BitVec.ofNat 32 (i 0).val) 256#32)) (iota .tc S256x1 32 [0] iota_S256x1_d0_w32)

/-- Their blocks, as the body computes them: the floor division by 46 with the sign correction. -/
def blockWords (i : grid1.Coords) : IVec S256x1 32 :=
  select
    (andi
      (cmpi .ne
        (subi (extui 32 (cmpi .sgt (tokWords i) (broadcast S256x1 0#32)) natLt_1_32)
          (extui 32 (cmpi .slt (tokWords i) (broadcast S256x1 0#32)) natLt_1_32))
        (broadcast S256x1
          (Scalar.subi (Scalar.extui (Scalar.cmpi .sgt 46#32 0#32)) (Scalar.extui (Scalar.cmpi .slt 46#32 0#32)))))
      (cmpi .ne (remsi (tokWords i) (broadcast S256x1 46#32)) (broadcast S256x1 0#32)))
    (subi (divsi (tokWords i) (broadcast S256x1 46#32)) (broadcast S256x1 1#32))
    (divsi (tokWords i) (broadcast S256x1 46#32))

theorem grid_lt (i : grid1.Coords) : (i 0).val < 23 := (i 0).isLt

/-- Row r of step i is token 256 i + r: the product and the sum do not wrap. -/
theorem tokWords_apply (i : grid1.Coords) (r : Fin 256) (z : Fin 1) :
    tokWords i (ix2 r z) = BitVec.ofNat 32 (256 * (i 0).val + r.val) := by
  show BitVec.ofNat 32 (i 0).val * BitVec.ofNat 32 256 + BitVec.ofNat 32 (0 * 256 + r.val) = _
  rw [← BitVec.ofNat_mul, ← BitVec.ofNat_add]
  congr 1
  omega

theorem tokWords_toNat (i : grid1.Coords) (r : Fin 256) (z : Fin 1) :
    (tokWords i (ix2 r z)).toNat = 256 * (i 0).val + r.val := by
  rw [tokWords_apply, BitVec.toNat_ofNat]
  have := grid_lt i; have := r.isLt
  exact Nat.mod_eq_of_lt (by omega)

/-- Its block word is the word of (256 i + r) / 46. -/
theorem blockWords_apply (i : grid1.Coords) (r : Fin 256) (z : Fin 1) :
    blockWords i (ix2 r z) = BitVec.ofNat 32 ((256 * (i 0).val + r.val) / 46) := by
  have hlt : (tokWords i (ix2 r z)).toNat < 5888 := by
    rw [tokWords_toNat]; have := grid_lt i; have := r.isLt; omega
  refine (Cert.FloorDiv.kernel_floordiv46 (tokWords i (ix2 r z)) hlt).trans ?_
  rw [tokWords_toNat]

/-- … laid along the row. -/
theorem rowBlock_apply (i : grid1.Coords) (r : Fin 256) (u : Fin 5888) :
    broadcastTo S256x5888 (blockWords i) broadcasts_S256x1_S256x5888 (ix2 r u)
      = BitVec.ofNat 32 ((256 * (i 0).val + r.val) / 46) :=
  (broadcastTo_a1_ab_apply (blockWords i) broadcasts_S256x1_S256x5888 r u).trans (blockWords_apply i r 0)

/-! ## The column's block word -/

theorem colBlock_apply (x4 : Vec Ideal S1x5888 .i32) (hx4 : ∀ u : Fin 5888, x4 (ix2 0 u) = BitVec.ofNat 32 (u.val / 46))
    (r : Fin 256) (u : Fin 5888) :
    broadcastTo S256x5888 (shapeCast S1x5888 x4 shapeCasts_S1x5888_S1x5888) broadcasts_S1x5888_S256x5888 (ix2 r u)
      = BitVec.ofNat 32 (u.val / 46) := by
  refine (broadcastTo_1b_ab_apply _ broadcasts_S1x5888_S256x5888 r u).trans ?_
  rw [shapeCast_self]
  exact hx4 u

/-! ## The logits -/

theorem logits_apply (x0 : Vec Ideal S256x256 .bf16) (x1 : Vec Ideal S5888x256 .bf16) (r : Fin 256) (u : Fin 5888) :
    matmul dot_S256x256_S256x5888_S256x5888_1_0_0_1_n_n none (shapeCast S256x256 x0 shapeCasts_S256x256_S256x256 : FVec Ideal S256x256 .bf16)
        (transpose S256x5888 [1, 0] (shapeCast S5888x256 x1 shapeCasts_S5888x256_S5888x256 : FVec Ideal S5888x256 .bf16) transposes_S5888x256_p1_0_S256x5888)
        (constant (F := Ideal) S256x5888 .f32 0x00000000#32) (ix2 r u)
      = ∑ j : Fin 256, x0 (ix2 r j) * x1 (ix2 u j) := by
  refine (matmulQK_apply _ _ r u).trans ?_
  refine Finset.sum_congr rfl fun j _ => ?_
  rw [shapeCast_self, transpose_ix2_apply, shapeCast_self]

/-! ## The select on equal block words -/

theorem select_eq_words {α : Type} (a b : ℕ) (ha : a < 2 ^ 32) (hb : b < 2 ^ 32) (A B : α) :
    Scalar.select (IntOp.cmpi .eq (BitVec.ofNat 32 a) (BitVec.ofNat 32 b)) A B = if a = b then A else B := by
  by_cases h : a = b
  · subst h
    rw [if_pos rfl]
    show Scalar.select (BitVec.ofBool (BitVec.ofNat 32 a == BitVec.ofNat 32 a)) A B = A
    rw [beq_self_eq_true]; rfl
  · rw [if_neg h]
    have hne : BitVec.ofNat 32 a ≠ BitVec.ofNat 32 b := by
      intro he
      have := congrArg BitVec.toNat he
      rw [BitVec.toNat_ofNat, BitVec.toNat_ofNat, Nat.mod_eq_of_lt ha, Nat.mod_eq_of_lt hb] at this
      exact h this
    show Scalar.select (BitVec.ofBool (BitVec.ofNat 32 a == BitVec.ofNat 32 b)) A B = B
    rw [beq_eq_false_iff_ne.mpr hne]; rfl

/-! ## The payloads -/

variable (i : grid1.Coords) (x4 : Vec Ideal S1x5888 .i32) (x0 : Vec Ideal S256x256 .bf16) (x1 : Vec Ideal S5888x256 .bf16)

/-- The masked-logit payload is the select of the splat −1000 and the logits on equal block words. -/
theorem pay3_eq :
    k1_pay3 (F := Ideal) i x4 x0 x1
      = select
          (cmpi .eq (broadcastTo S256x5888 (blockWords i) broadcasts_S256x1_S256x5888)
            (broadcastTo S256x5888 (shapeCast S1x5888 x4 shapeCasts_S1x5888_S1x5888) broadcasts_S1x5888_S256x5888))
          (broadcast S256x5888 (Ideal.ofBits .f32 0xC47A0000#32))
          (matmul dot_S256x256_S256x5888_S256x5888_1_0_0_1_n_n none (shapeCast S256x256 x0 shapeCasts_S256x256_S256x256 : FVec Ideal S256x256 .bf16)
            (transpose S256x5888 [1, 0] (shapeCast S5888x256 x1 shapeCasts_S5888x256_S5888x256 : FVec Ideal S5888x256 .bf16) transposes_S5888x256_p1_0_S256x5888)
            (constant (F := Ideal) S256x5888 .f32 0x00000000#32)) := rfl

theorem pay3_apply (hx4 : ∀ u : Fin 5888, x4 (ix2 0 u) = BitVec.ofNat 32 (u.val / 46)) (r : Fin 256) (u : Fin 5888) :
    k1_pay3 (F := Ideal) i x4 x0 x1 (ix2 r u)
      = if (256 * (i 0).val + r.val) / 46 = u.val / 46 then Ideal.ofBits .f32 0xC47A0000#32
        else ∑ j : Fin 256, x0 (ix2 r j) * x1 (ix2 u j) := by
  rw [pay3_eq]
  show Scalar.select
      (IntOp.cmpi .eq (broadcastTo S256x5888 (blockWords i) broadcasts_S256x1_S256x5888 (ix2 r u))
        (broadcastTo S256x5888 (shapeCast S1x5888 x4 shapeCasts_S1x5888_S1x5888) broadcasts_S1x5888_S256x5888 (ix2 r u)))
      (Ideal.ofBits .f32 0xC47A0000#32)
      (matmul dot_S256x256_S256x5888_S256x5888_1_0_0_1_n_n none (shapeCast S256x256 x0 shapeCasts_S256x256_S256x256 : FVec Ideal S256x256 .bf16)
        (transpose S256x5888 [1, 0] (shapeCast S5888x256 x1 shapeCasts_S5888x256_S5888x256 : FVec Ideal S5888x256 .bf16) transposes_S5888x256_p1_0_S256x5888)
        (constant (F := Ideal) S256x5888 .f32 0x00000000#32) (ix2 r u)) = _
  rw [rowBlock_apply, colBlock_apply x4 hx4, logits_apply]
  have := grid_lt i; have := r.isLt; have := u.isLt
  exact select_eq_words _ _ (by omega) (by omega) _ _

/-- The row maximum: the fold of max over the row of masked logits, from −∞. -/
theorem pay4_apply (r : Fin 256) :
    k1_pay4 (F := Ideal) i x4 x0 x1 (ix1 r)
      = (Finset.univ : Finset (Fin 5888)).fold max (Ideal.ofBits .f32 0xFF800000#32)
          (fun u => k1_pay3 (F := Ideal) i x4 x0 x1 (ix2 r u)) := by
  unfold k1_pay4
  refine (Ideal.multiReduction_maximumf_single _ _ reduces_S256x5888_S256 _ _ (ix1 r)).trans ?_
  have hf : (k1_pay3 (F := Ideal) i x4 x0 x1 ∘ reduces_S256x5888_S256.lift (ix1 r))
      = fun u : Fin 5888 => k1_pay3 (F := Ideal) i x4 x0 x1 (ix2 r u) :=
    funext fun u => congrArg (k1_pay3 (F := Ideal) i x4 x0 x1) (lift_axis1 reduces_S256x5888_S256 r u)
  rw [hf]
  rfl

end Cert.KernelIdeal.KAttn
-- ==== Proof.KAttnPay2.lean ====
/-
  The output payload of the attention body, read at an index: the attended values y[r, j] = Σ_u f[r, u] · g[u, j] of the
  softmax weights f, projected by W and shifted by its bias, added to the residual:
  x3[r, c] + ((Σ_j y[r, j] · W[c, j]) + b[c]). The format changes between the two products are the identity at the
  extended reals, and both products accumulate into zero.
-/
import proofs.«123535_j11510512353703_2_alg».proof.Proof.Gen.KernelIdeal.Skeleton
import proofs.«123535_j11510512353703_2_alg».proof.Proof.KAttnPayDot
import Idealize.ShloMosaic.Lib.ValueLayout
import Idealize.ShloMosaic.Lib.Pipeline.Value

noncomputable section

namespace Cert.KernelIdeal.KAttn

open Idealize.ShloMosaic Idealize.ShloMosaic.ValueIdx Cert.KernelIdeal Cert.KernelIdeal.Gen

variable (v40 : FVec Ideal S256x5888 .f32) (v41 : FVec Ideal S256 .f32) (x2 : Vec Ideal S5888x256 .bf16)
  (x5 : Vec Ideal S512x256 .bf16) (x6 : Vec Ideal S1x512 .f32) (x3 : Vec Ideal S256x512 .f32)

/-- The attended values: the softmax weights times the value projection. -/
theorem attended_apply (r : Fin 256) (j : Fin 256) :
    matmul dot_S256x5888_S5888x256_S256x256_1_0_0_1_n_n none (truncf .bf16 (k1_pay1 (F := Ideal) v40 v41) bitsLt_bf16_f32)
        (shapeCast S5888x256 x2 shapeCasts_S5888x256_S5888x256 : FVec Ideal S5888x256 .bf16) (constant (F := Ideal) S256x256 .f32 0x00000000#32) (ix2 r j)
      = ∑ u : Fin 5888, k1_pay1 (F := Ideal) v40 v41 (ix2 r u) * x2 (ix2 u j) := by
  refine (matmulPV_apply _ _ r j).trans ?_
  refine Finset.sum_congr rfl fun u _ => ?_
  rw [shapeCast_self]
  rfl

/-- The output payload as the two sums it is. -/
theorem pay2_eq :
    k1_pay2 (F := Ideal) v40 v41 x2 x5 x6 x3
      = addf (shapeCast S256x512 x3 shapeCasts_S256x512_S256x512 : FVec Ideal S256x512 .f32)
          (addf
            (matmul dot_S256x256_S256x512_S256x512_1_0_0_1_n_n none
              (truncf .bf16
                (matmul dot_S256x5888_S5888x256_S256x256_1_0_0_1_n_n none
                  (truncf .bf16 (k1_pay1 (F := Ideal) v40 v41) bitsLt_bf16_f32)
                  (shapeCast S5888x256 x2 shapeCasts_S5888x256_S5888x256 : FVec Ideal S5888x256 .bf16) (constant (F := Ideal) S256x256 .f32 0x00000000#32))
                bitsLt_bf16_f32)
              (transpose S256x512 [1, 0] (shapeCast S512x256 x5 shapeCasts_S512x256_S512x256 : FVec Ideal S512x256 .bf16) transposes_S512x256_p1_0_S256x512)
              (constant (F := Ideal) S256x512 .f32 0x00000000#32))
            (broadcastTo S256x512 (shapeCast S1x512 x6 shapeCasts_S1x512_S1x512 : FVec Ideal S1x512 .f32) broadcasts_S1x512_S256x512)) := rfl

theorem pay2_apply (r : Fin 256) (ch : Fin 512) :
    k1_pay2 (F := Ideal) v40 v41 x2 x5 x6 x3 (ix2 r ch)
      = x3 (ix2 r ch)
        + ((∑ j : Fin 256, (∑ u : Fin 5888, k1_pay1 (F := Ideal) v40 v41 (ix2 r u) * x2 (ix2 u j)) * x5 (ix2 ch j))
          + x6 (ix2 0 ch)) := by
  rw [pay2_eq, addf_apply, addf_apply, shapeCast_self]
  congr 2
  · refine (matmulW_apply _ _ r ch).trans ?_
    refine Finset.sum_congr rfl fun j _ => ?_
    have e1 : transpose S256x512 [1, 0] (shapeCast S512x256 x5 shapeCasts_S512x256_S512x256 : FVec Ideal S512x256 .bf16)
        transposes_S512x256_p1_0_S256x512 (ix2 j ch) = x5 (ix2 ch j) := by
      rw [transpose_ix2_apply, shapeCast_self]
    rw [e1, truncf_apply, attended_apply]
  · refine (broadcastTo_1b_ab_apply _ broadcasts_S1x512_S256x512 r ch).trans ?_
    rw [shapeCast_self]

end Cert.KernelIdeal.KAttn
-- ==== Proof.KAttnSpec.lean ====
/-
  The attention body against the specification, over arbitrary blocks. A grid point t of the second pallas_call handles
  the 256 token rows 256 t … 256 t + 255. Given that its blocks hold what they should — the rows' x_θ, all of x_φ and
  g_x, the rows' activations, the block-id row (u / 46 at column u), the output projection's weight and bias — the
  body's stored values are, entry by entry, the specification's: the masked logits, their row maximum, the row softmax,
  and the residual sum. Each step is a rewriting of the body's closed form with the hypotheses; the sums are left as they
  are (both sides sum the same terms over the same index sets).
-/
import proofs.«123535_j11510512353703_2_alg».proof.Proof.Spec
import proofs.«123535_j11510512353703_2_alg».proof.Proof.KAttnPay1
import proofs.«123535_j11510512353703_2_alg».proof.Proof.KAttnPay3
import proofs.«123535_j11510512353703_2_alg».proof.Proof.KAttnPay2

noncomputable section

namespace Cert.KernelIdeal.KAttn

open Idealize.ShloMosaic Idealize.ShloMosaic.ValueIdx
open Cert.KernelIdeal Cert.KernelIdeal.Gen

/-- Row r of grid point t's block is token 256 t + r. -/
def row (t : Fin 23) (r : Fin 256) : Fin 5888 := ⟨256 * t.val + r.val, by have := t.isLt; have := r.isLt; omega⟩

variable (A : Cert.Spec.Args) (t : Fin 23) (i : grid1.Coords) (hi : (i 0).val = t.val)
  (x4 : Vec Ideal S1x5888 .i32) (x0 : Vec Ideal S256x256 .bf16) (x1 x2 : Vec Ideal S5888x256 .bf16)
  (x5 : Vec Ideal S512x256 .bf16) (x6 : Vec Ideal S1x512 .f32) (x3 : Vec Ideal S256x512 .f32)
  (hx4 : ∀ u : Fin 5888, x4 (ix2 (0 : Fin 1) u) = BitVec.ofNat 32 (u.val / 46))
  (hx0 : ∀ (r : Fin 256) (j : Fin 256), x0 (ix2 r j) = Cert.Spec.xTheta A (row t r) j)
  (hx1 : ∀ (u : Fin 5888) (j : Fin 256), x1 (ix2 u j) = Cert.Spec.xPhi A u j)
  (hx2 : ∀ (u : Fin 5888) (j : Fin 256), x2 (ix2 u j) = Cert.Spec.gX A u j)
  (hx5 : ∀ (ch : Fin 512) (j : Fin 256), x5 (ix2 ch j) = A.wW (ix2 ch j))
  (hx6 : ∀ ch : Fin 512, x6 (ix2 (0 : Fin 1) ch) = A.wB (ix1 ch))
  (hx3 : ∀ (r : Fin 256) (ch : Fin 512), x3 (ix2 r ch) = Cert.Spec.oriT A (row t r) ch)

include hi hx4 hx0 hx1 in
/-- The masked logits of the block's rows. -/
theorem masked_eq (r : Fin 256) (u : Fin 5888) :
    k1_pay3 (F := Ideal) i x4 x0 x1 (ix2 r u) = Cert.Spec.attn A (row t r) u := by
  rw [pay3_apply i x4 x0 x1 hx4 r u, hi]
  unfold Cert.Spec.attn
  show (if (256 * t.val + r.val) / 46 = u.val / 46 then _ else _) = (if (256 * t.val + r.val) / 46 = u.val / 46 then _ else _)
  refine if_congr Iff.rfl rfl (Finset.sum_congr rfl fun j _ => ?_)
  rw [hx0, hx1]

include hi hx4 hx0 hx1 in
/-- Their row maxima. -/
theorem rowmax_eq (r : Fin 256) :
    k1_pay4 (F := Ideal) i x4 x0 x1 (ix1 r) = Cert.Spec.rowMax A (row t r) := by
  rw [pay4_apply i x4 x0 x1 r]
  unfold Cert.Spec.rowMax
  exact congrArg (fun f : Fin 5888 → EReal => (Finset.univ : Finset (Fin 5888)).fold max (Ideal.ofBits .f32 0xFF800000#32) f)
    (funext fun u => masked_eq A t i hi x4 x0 x1 hx4 hx0 hx1 r u)

include hi hx4 hx0 hx1 in
/-- The row softmax: what the body stores in its first output block. -/
theorem soft_eq (r : Fin 256) (u : Fin 5888) :
    k1_pay1 (F := Ideal) (k1_pay3 (F := Ideal) i x4 x0 x1) (k1_pay4 (F := Ideal) i x4 x0 x1) (ix2 r u) = Cert.Spec.soft A (row t r) u := by
  rw [pay1_apply _ _ r u]
  unfold Cert.Spec.soft Cert.Spec.rowSum Cert.Spec.expo
  rw [rowmax_eq A t i hi x4 x0 x1 hx4 hx0 hx1 r, masked_eq A t i hi x4 x0 x1 hx4 hx0 hx1 r u]
  refine congrArg _ (Finset.sum_congr rfl fun u' _ => ?_)
  rw [masked_eq A t i hi x4 x0 x1 hx4 hx0 hx1 r u']

include hi hx4 hx0 hx1 hx2 hx5 hx6 hx3 in
/-- The residual sum: what the body stores in its second output block. -/
theorem att_eq (r : Fin 256) (ch : Fin 512) :
    k1_pay2 (F := Ideal) (k1_pay3 (F := Ideal) i x4 x0 x1) (k1_pay4 (F := Ideal) i x4 x0 x1) x2 x5 x6 x3 (ix2 r ch) = Cert.Spec.attFlat A (row t r) ch := by
  rw [pay2_apply _ _ x2 x5 x6 x3 r ch]
  unfold Cert.Spec.attFlat Cert.Spec.wy Cert.Spec.yv
  rw [hx3, hx6]
  refine congrArg _ (congrArg (· + _) (Finset.sum_congr rfl fun j _ => ?_))
  rw [hx5]
  refine congrArg (· * _) (Finset.sum_congr rfl fun u _ => ?_)
  rw [soft_eq A t i hi x4 x0 x1 hx4 hx0 hx1 r u, hx2]

end Cert.KernelIdeal.KAttn

end
-- ==== Proof.KAttnGeom.lean ====
/-
  The geometry of the attention region's blocks: 23 grid points, each taking the rows 256 t … 256 t + 255 of the four
  row-blocked arrays (the θ-projection, the features, and the two results) and the whole of the five arrays that have a
  single block (the φ- and g-projections, the block numbers, the output weight and bias). A block's coordinate on an
  axis is always the block index times the block size plus the coordinate inside the block; the index maps, decided over
  the 23 points, are t ↦ (t, 0) for the row-blocked windows and t ↦ (0, 0) for the others. Every row r of a result
  array lies in the block of point r / 256, so the result blocks cover their arrays.
-/
import proofs.«123535_j11510512353703_2_alg».proof.Proof.KernelIdealFrame
import Idealize.ShloMosaic.Lib.Pipeline.Value
import Idealize.ShloMosaic.Lib.ValueIdx

set_option maxRecDepth 16384

noncomputable section

namespace Cert.KernelIdeal.KAttn

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The region has 23 grid points. -/
theorem N1 : cfg1.N = 23 := by decide

/-- The printed index maps, decided over the 23 points: (t, 0) for the row-blocked windows 0, 3, 7, 8, and (0, 0) for
    the single-block windows 1, 2, 4, 5, 6; the grid coordinate of point t is t. -/
theorem idx_facts1 : ∀ t : Fin cfg1.N,
    win1_0.index t (0 : Fin 2) = t.val ∧ win1_0.index t (1 : Fin 2) = 0
    ∧ win1_3.index t (0 : Fin 2) = t.val ∧ win1_3.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ ((grid1.coords t) 0).val = t.val :=
  (by decide +kernel : ∀ t : Fin grid1.N, _)

/-- Row r of point t's block is row 256 t + r of the array. -/
def rowOf (t : Fin cfg1.N) (r : Fin 256) : Fin 5888 :=
  ⟨256 * t.val + r.val, by have h : t.val < 23 := Nat.lt_of_lt_of_eq t.isLt N1; have := r.isLt; omega⟩

theorem rowOf_val (t : Fin cfg1.N) (r : Fin 256) : (rowOf t r).val = 256 * t.val + r.val := rfl

/-! ## The input windows' blocks read off their arrays -/

/-- Point t's block of window 0 at (r, j) is the array at row 256 t + r. -/
theorem blk_rows0 (c : Dev nD) (t : Fin cfg1.N) (r : Fin 256) (j : Fin 256) :
    iblk1 V c 0 t (ix2 r j) = V c main_v18_0 (ix2 (rowOf t r) j) := by
  obtain ⟨e00, e01, e30, e31, e70, e71, e80, e81, e10, e11, e20, e21, e40, e41, e50, e51, e60, e61, eg⟩ := idx_facts1 t
  show V c main_v18_0 (((cfg1.win 0).blk t).view.emb (ix2 r j)) = _
  refine congrArg _ (funext fun a => Fin.ext ?_)
  match a with
  | ⟨0, _⟩ => show win1_0.index t (0 : Fin 2) * 256 + 1 * r.val = 256 * t.val + r.val; omega
  | ⟨1, _⟩ => show win1_0.index t (1 : Fin 2) * 256 + 1 * j.val = j.val; omega

/-- Point t's block of window 3 at (r, ch) is the array at row 256 t + r. -/
theorem blk_rows3 (c : Dev nD) (t : Fin cfg1.N) (r : Fin 256) (ch : Fin 512) :
    iblk1 V c 3 t (ix2 r ch) = V c main_v7 (ix2 (rowOf t r) ch) := by
  obtain ⟨e00, e01, e30, e31, e70, e71, e80, e81, e10, e11, e20, e21, e40, e41, e50, e51, e60, e61, eg⟩ := idx_facts1 t
  show V c main_v7 (((cfg1.win 3).blk t).view.emb (ix2 r ch)) = _
  refine congrArg _ (funext fun a => Fin.ext ?_)
  match a with
  | ⟨0, _⟩ => show win1_3.index t (0 : Fin 2) * 256 + 1 * r.val = 256 * t.val + r.val; omega
  | ⟨1, _⟩ => show win1_3.index t (1 : Fin 2) * 512 + 1 * ch.val = ch.val; omega

/-- Window 1's one block is the whole array. -/
theorem blk_whole1 (c : Dev nD) (t : Fin cfg1.N) (u : Fin 5888) (j : Fin 256) :
    iblk1 V c 1 t (ix2 u j) = V c main_v18_1 (ix2 u j) := by
  obtain ⟨e00, e01, e30, e31, e70, e71, e80, e81, e10, e11, e20, e21, e40, e41, e50, e51, e60, e61, eg⟩ := idx_facts1 t
  show V c main_v18_1 (((cfg1.win 1).blk t).view.emb (ix2 u j)) = _
  refine congrArg _ (funext fun a => Fin.ext ?_)
  match a with
  | ⟨0, _⟩ => show win1_1.index t (0 : Fin 2) * 5888 + 1 * (u).val = (u).val; omega
  | ⟨1, _⟩ => show win1_1.index t (1 : Fin 2) * 256 + 1 * (j).val = (j).val; omega

/-- Window 2's one block is the whole array. -/
theorem blk_whole2 (c : Dev nD) (t : Fin cfg1.N) (u : Fin 5888) (j : Fin 256) :
    iblk1 V c 2 t (ix2 u j) = V c main_v18_2 (ix2 u j) := by
  obtain ⟨e00, e01, e30, e31, e70, e71, e80, e81, e10, e11, e20, e21, e40, e41, e50, e51, e60, e61, eg⟩ := idx_facts1 t
  show V c main_v18_2 (((cfg1.win 2).blk t).view.emb (ix2 u j)) = _
  refine congrArg _ (funext fun a => Fin.ext ?_)
  match a with
  | ⟨0, _⟩ => show win1_2.index t (0 : Fin 2) * 5888 + 1 * (u).val = (u).val; omega
  | ⟨1, _⟩ => show win1_2.index t (1 : Fin 2) * 256 + 1 * (j).val = (j).val; omega

/-- Window 4's one block is the whole array. -/
theorem blk_whole4 (c : Dev nD) (t : Fin cfg1.N) (u : Fin 5888) :
    iblk1 V c 4 t (ix2 (0 : Fin 1) u) = V c main_v21 (ix2 (0 : Fin 1) u) := by
  obtain ⟨e00, e01, e30, e31, e70, e71, e80, e81, e10, e11, e20, e21, e40, e41, e50, e51, e60, e61, eg⟩ := idx_facts1 t
  show V c main_v21 (((cfg1.win 4).blk t).view.emb (ix2 (0 : Fin 1) u)) = _
  refine congrArg _ (funext fun a => Fin.ext ?_)
  match a with
  | ⟨0, _⟩ => show win1_4.index t (0 : Fin 2) * 1 + 1 * ((0 : Fin 1)).val = ((0 : Fin 1)).val; omega
  | ⟨1, _⟩ => show win1_4.index t (1 : Fin 2) * 5888 + 1 * (u).val = (u).val; omega

/-- Window 5's one block is the whole array. -/
theorem blk_whole5 (c : Dev nD) (t : Fin cfg1.N) (ch : Fin 512) (j : Fin 256) :
    iblk1 V c 5 t (ix2 ch j) = V c main_v17 (ix2 ch j) := by
  obtain ⟨e00, e01, e30, e31, e70, e71, e80, e81, e10, e11, e20, e21, e40, e41, e50, e51, e60, e61, eg⟩ := idx_facts1 t
  show V c main_v17 (((cfg1.win 5).blk t).view.emb (ix2 ch j)) = _
  refine congrArg _ (funext fun a => Fin.ext ?_)
  match a with
  | ⟨0, _⟩ => show win1_5.index t (0 : Fin 2) * 512 + 1 * (ch).val = (ch).val; omega
  | ⟨1, _⟩ => show win1_5.index t (1 : Fin 2) * 256 + 1 * (j).val = (j).val; omega

/-- Window 6's one block is the whole array. -/
theorem blk_whole6 (c : Dev nD) (t : Fin cfg1.N) (ch : Fin 512) :
    iblk1 V c 6 t (ix2 (0 : Fin 1) ch) = V c main_v13 (ix2 (0 : Fin 1) ch) := by
  obtain ⟨e00, e01, e30, e31, e70, e71, e80, e81, e10, e11, e20, e21, e40, e41, e50, e51, e60, e61, eg⟩ := idx_facts1 t
  show V c main_v13 (((cfg1.win 6).blk t).view.emb (ix2 (0 : Fin 1) ch)) = _
  refine congrArg _ (funext fun a => Fin.ext ?_)
  match a with
  | ⟨0, _⟩ => show win1_6.index t (0 : Fin 2) * 1 + 1 * ((0 : Fin 1)).val = ((0 : Fin 1)).val; omega
  | ⟨1, _⟩ => show win1_6.index t (1 : Fin 2) * 512 + 1 * (ch).val = (ch).val; omega

/-! ## The output windows: where a block's entry sits, which indices a block holds, and the cover -/

/-- Entry (r, u) of point t's block of window 7 sits at row 256 t + r of the array. -/
theorem emb7 (t : Fin cfg1.N) (r : Fin 256) (u : Fin 5888) :
    ((cfg1.win 7).blk t).view.emb (ix2 r u) = ix2 (rowOf t r) u := by
  obtain ⟨e00, e01, e30, e31, e70, e71, e80, e81, e10, e11, e20, e21, e40, e41, e50, e51, e60, e61, eg⟩ := idx_facts1 t
  funext a
  apply Fin.ext
  match a with
  | ⟨0, _⟩ => show win1_7.index t (0 : Fin 2) * 256 + 1 * r.val = 256 * t.val + r.val; omega
  | ⟨1, _⟩ => show win1_7.index t (1 : Fin 2) * 5888 + 1 * u.val = u.val; omega

/-- Entry (r, ch) of point t's block of window 8 sits at row 256 t + r of the array. -/
theorem emb8 (t : Fin cfg1.N) (r : Fin 256) (ch : Fin 512) :
    ((cfg1.win 8).blk t).view.emb (ix2 r ch) = ix2 (rowOf t r) ch := by
  obtain ⟨e00, e01, e30, e31, e70, e71, e80, e81, e10, e11, e20, e21, e40, e41, e50, e51, e60, e61, eg⟩ := idx_facts1 t
  funext a
  apply Fin.ext
  match a with
  | ⟨0, _⟩ => show win1_8.index t (0 : Fin 2) * 256 + 1 * r.val = 256 * t.val + r.val; omega
  | ⟨1, _⟩ => show win1_8.index t (1 : Fin 2) * 512 + 1 * ch.val = ch.val; omega

/-- An index of the array is in point t's block of window 7 iff each coordinate is in the block's range on its axis. -/
theorem mem_blk7 (t : Fin cfg1.N) (i : S5888x5888.Idx) :
    i ∈ ((cfg1.win 7).blk t).view.set ↔ ∀ a : Fin 2, win1_7.index t a * S256x5888.size a ≤ (i a).val ∧ (i a).val < win1_7.index t a * S256x5888.size a + S256x5888.size a := by
  show i ∈ ((View.whole main_v22_0).slice (win1_7.rect t)).set ↔ _
  rw [View.set_slice_whole, Rect.mem_set_unit]
  exact Iff.rfl

/-- An index of the array is in point t's block of window 8 iff each coordinate is in the block's range on its axis. -/
theorem mem_blk8 (t : Fin cfg1.N) (i : S5888x512.Idx) :
    i ∈ ((cfg1.win 8).blk t).view.set ↔ ∀ a : Fin 2, win1_8.index t a * S256x512.size a ≤ (i a).val ∧ (i a).val < win1_8.index t a * S256x512.size a + S256x512.size a := by
  show i ∈ ((View.whole main_v22_1).slice (win1_8.rect t)).set ↔ _
  rw [View.set_slice_whole, Rect.mem_set_unit]
  exact Iff.rfl

/-- Every index of window 7's array is in some point's block: the point of its row, row / 256. -/
theorem cover7 : ∀ i : S5888x5888.Idx, ∃ t : Fin cfg1.N, (cfg1.win 7).flush t = true ∧ i ∈ ((cfg1.win 7).blk t).view.set := by
  intro i
  have hi0 : (i 0).val < 5888 := (i 0).isLt
  have hi1 : (i 1).val < 5888 := (i 1).isLt
  have hlt : (i 0).val / 256 < cfg1.N := by rw [N1]; omega
  have ht : (⟨(i 0).val / 256, hlt⟩ : Fin cfg1.N).val = (i 0).val / 256 := rfl
  generalize (⟨(i 0).val / 256, hlt⟩ : Fin cfg1.N) = t at ht
  obtain ⟨e00, e01, e30, e31, e70, e71, e80, e81, e10, e11, e20, e21, e40, e41, e50, e51, e60, e61, eg⟩ := idx_facts1 t
  refine ⟨t, flush1_7 t, ?_⟩
  rw [mem_blk7]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 5888 ≤ (i 1).val ∧ (i 1).val < win1_7.index t (1 : Fin 2) * 5888 + 5888; omega

/-- Every index of window 8's array is in some point's block: the point of its row, row / 256. -/
theorem cover8 : ∀ i : S5888x512.Idx, ∃ t : Fin cfg1.N, (cfg1.win 8).flush t = true ∧ i ∈ ((cfg1.win 8).blk t).view.set := by
  intro i
  have hi0 : (i 0).val < 5888 := (i 0).isLt
  have hi1 : (i 1).val < 512 := (i 1).isLt
  have hlt : (i 0).val / 256 < cfg1.N := by rw [N1]; omega
  have ht : (⟨(i 0).val / 256, hlt⟩ : Fin cfg1.N).val = (i 0).val / 256 := rfl
  generalize (⟨(i 0).val / 256, hlt⟩ : Fin cfg1.N) = t at ht
  obtain ⟨e00, e01, e30, e31, e70, e71, e80, e81, e10, e11, e20, e21, e40, e41, e50, e51, e60, e61, eg⟩ := idx_facts1 t
  refine ⟨t, flush1_8 t, ?_⟩
  rw [mem_blk8]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 512 ≤ (i 1).val ∧ (i 1).val < win1_8.index t (1 : Fin 2) * 512 + 512; omega

/-- The covers are what the whole-array post of the region's data asks of windows 7 and 8. -/
example (c : Dev nD) (G : Buf (Elt F) ((cfg1.win 7).arr.view.loc (c.tc : Thread nD τ)))
    (hG : ∀ t, (cfg1.win 7).flush t = true → (dat1 V c).flushed 7 t = ((cfg1.win 7).blk t).view.read (Elt F) G) :
    (dat1 V c).arrAt 7 cfg1.N = G := (dat1 V c).arrAt_eq_of_cover 7 G hG cover7
example (c : Dev nD) (G : Buf (Elt F) ((cfg1.win 8).arr.view.loc (c.tc : Thread nD τ)))
    (hG : ∀ t, (cfg1.win 8).flush t = true → (dat1 V c).flushed 8 t = ((cfg1.win 8).blk t).view.read (Elt F) G) :
    (dat1 V c).arrAt 8 cfg1.N = G := (dat1 V c).arrAt_eq_of_cover 8 G hG cover8

end Cert.KernelIdeal.KAttn

end
-- ==== Proof.KAttn.lean ====
/-
  The second pallas_call's two output arrays after its run. The call's grid has 23 points; point t fetches rows
  256 t … 256 t + 255 of x_θ and of the activation, all of x_φ and g_x, the block-id row and the output projection's
  parameters, runs the attention body on them, and writes back rows 256 t … 256 t + 255 of the two outputs. Whatever the
  call finds in its input arrays, if those hold the specification's x_θ, x_φ, g_x, the token-major activation, the
  block ids u / 46 and the parameters, then each written-back block is the corresponding block of the specification's
  softmax matrix, respectively residual sum; the 23 row blocks cover all 5888 rows, so the arrays end holding exactly
  those two functions.
-/
import proofs.«123535_j11510512353703_2_alg».proof.Proof.KernelIdealFrame
import proofs.«123535_j11510512353703_2_alg».proof.Proof.KAttnSpec
import proofs.«123535_j11510512353703_2_alg».proof.Proof.KAttnGeom
import Idealize.ShloMosaic.Lib.Pipeline.Value

set_option maxRecDepth 16384

noncomputable section

namespace Cert.KernelIdeal.KAttn

open Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD) (A : Cert.Spec.Args)
  (hθ : ∀ (t : Fin 5888) (j : Fin 256), (V c main_v18_0 : S5888x256.Idx → EReal) (ix2 t j) = Cert.Spec.xTheta A t j)
  (hφ : ∀ (u : Fin 5888) (j : Fin 256), (V c main_v18_1 : S5888x256.Idx → EReal) (ix2 u j) = Cert.Spec.xPhi A u j)
  (hg : ∀ (u : Fin 5888) (j : Fin 256), (V c main_v18_2 : S5888x256.Idx → EReal) (ix2 u j) = Cert.Spec.gX A u j)
  (ho : ∀ (t : Fin 5888) (ch : Fin 512), (V c main_v7 : S5888x512.Idx → EReal) (ix2 t ch) = Cert.Spec.oriT A t ch)
  (hb : ∀ u : Fin 5888, (V c main_v21 : S1x5888.Idx → BitVec 32) (ix2 (0 : Fin 1) u) = BitVec.ofNat 32 (u.val / 46))
  (hW : ∀ (ch : Fin 512) (j : Fin 256), (V c main_v17 : S512x256.Idx → EReal) (ix2 ch j) = A.wW (ix2 ch j))
  (hB : ∀ ch : Fin 512, (V c main_v13 : S1x512.Idx → EReal) (ix2 (0 : Fin 1) ch) = A.wB (ix1 ch))

/-- The specification's residual sum on the token layout, as an array [5888, 512]. -/
def attFlatArr : S5888x512.Idx → EReal := fun i => Cert.Spec.attFlat A (i 0) (i 1)

theorem row_cast (t : Fin cfg1.N) (r : Fin 256) : row (Fin.cast N1 t) r = rowOf t r := rfl

/-- The one grid coordinate of point t is t. -/
theorem grid_coord (t : Fin cfg1.N) : ((grid1.coords t) 0).val = (Fin.cast N1 t).val := by
  obtain ⟨_, _, _, _, _, _, _, _, _, _, _, _, _, _, _, _, _, _, eg⟩ := idx_facts1 t
  exact eg

include hθ hφ hb in
/-- What point t writes back to the first output is block t of the softmax matrix. -/
theorem flushed_soft (t : Fin cfg1.N) :
    (dat1 V c).flushed 7 t = ((cfg1.win 7).blk t).view.read (Elt Ideal) (Cert.Spec.fdiv A) := by
  show (cfg1.win 7).cut (grid1.coords t) ((dat1 V c).after 7 t) = _
  rw [after1_7]
  unfold out1_7
  rw [View.canon_unit_zero hz]
  simp only [View.ld_unit_zero (S := S1x5888) hz, View.ld_unit_zero (S := S256x256) hz, View.ld_unit_zero (S := S5888x256) hz]
  funext y
  obtain ⟨r, u, rfl⟩ : ∃ (r : Fin 256) (u : Fin 5888), y = ix2 r u := ⟨y 0, y 1, eq_ix2 y⟩
  refine (soft_eq A (Fin.cast N1 t) (grid1.coords t) (grid_coord t) (iblk1 V c 4 t) (iblk1 V c 0 t) (iblk1 V c 1 t)
      (fun u => (blk_whole4 V c t u).trans (hb u))
      (fun r j => (blk_rows0 V c t r j).trans (hθ _ j))
      (fun u j => (blk_whole1 V c t u j).trans (hφ u j)) r u).trans ?_
  rw [View.read_apply, emb7, row_cast]
  rfl

include hθ hφ hg ho hb hW hB in
/-- What point t writes back to the second output is block t of the residual sum. -/
theorem flushed_att (t : Fin cfg1.N) :
    (dat1 V c).flushed 8 t = ((cfg1.win 8).blk t).view.read (Elt Ideal) (attFlatArr A) := by
  show (cfg1.win 8).cut (grid1.coords t) ((dat1 V c).after 8 t) = _
  rw [after1_8]
  unfold out1_8
  rw [View.canon_unit_zero hz]
  simp only [View.ld_unit_zero (S := S1x5888) hz, View.ld_unit_zero (S := S256x256) hz, View.ld_unit_zero (S := S5888x256) hz,
    View.ld_unit_zero (S := S512x256) hz, View.ld_unit_zero (S := S1x512) hz, View.ld_unit_zero (S := S256x512) hz]
  funext y
  obtain ⟨r, ch, rfl⟩ : ∃ (r : Fin 256) (ch : Fin 512), y = ix2 r ch := ⟨y 0, y 1, eq_ix2 y⟩
  refine (att_eq A (Fin.cast N1 t) (grid1.coords t) (grid_coord t) (iblk1 V c 4 t) (iblk1 V c 0 t) (iblk1 V c 1 t) (iblk1 V c 2 t)
      (iblk1 V c 5 t) (iblk1 V c 6 t) (iblk1 V c 3 t)
      (fun u => (blk_whole4 V c t u).trans (hb u))
      (fun r j => (blk_rows0 V c t r j).trans (hθ _ j))
      (fun u j => (blk_whole1 V c t u j).trans (hφ u j))
      (fun u j => (blk_whole2 V c t u j).trans (hg u j))
      (fun ch j => (blk_whole5 V c t ch j).trans (hW ch j))
      (fun ch => (blk_whole6 V c t ch).trans (hB ch))
      (fun r ch => (blk_rows3 V c t r ch).trans (ho _ ch)) r ch).trans ?_
  rw [View.read_apply, emb8, row_cast]
  rfl

include hθ hφ hb in
/-- The first output array after the run: the softmax matrix. -/
theorem final_soft : (dat1 V c).arrAt 7 cfg1.N = Cert.Spec.fdiv A :=
  (dat1 V c).arrAt_eq_of_cover 7 (Cert.Spec.fdiv A) (fun t _ => flushed_soft V c A hθ hφ hb t) cover7

include hθ hφ hg ho hb hW hB in
/-- The second output array after the run: the residual sum on the token layout. -/
theorem final_att : (dat1 V c).arrAt 8 cfg1.N = attFlatArr A :=
  (dat1 V c).arrAt_eq_of_cover 8 (attFlatArr A) (fun t _ => flushed_att V c A hθ hφ hg ho hb hW hB t) cover8

end Cert.KernelIdeal.KAttn

end
-- ==== Proof.KProjHost.lean ====
/-
  The arrays the projection kernel finds when it starts, read entry by entry as functions of the launch arguments.

  Before the kernel the host folds the batch norm into a scale γ / sqrt(var + ε) and an offset β − mean · scale per
  channel, lays the activation [128, 512, 46] out as 5888 tokens of 512 channels (entry (t, c) is ori[t / 46, c, t % 46]:
  the transpose swaps the last two axes and the reshape merges the first two, 46 positions to a sample), turns each
  bias vector into a one-row matrix, and narrows the four weight matrices to a shorter float format, which is the
  identity on extended reals.
-/
import proofs.«123535_j11510512353703_2_alg».proof.Proof.KernelIdealFrame
import proofs.«123535_j11510512353703_2_alg».proof.Proof.Args
import Idealize.ShloMosaic.Lib.ValueIdx
import Idealize.ShloMosaic.Lib.ValueLayout
import Idealize.ShloMosaic.Lib.Pipeline.Value

noncomputable section

namespace Cert.KernelIdeal.KProj

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The token layout of the activation: entry (t, c) is ori[t / 46, c, t % 46]. The row-major position of (t, c) in
    [5888, 512] is that of (t / 46, t % 46, c) in [128, 46, 512] because t = 46 · (t / 46) + t % 46. -/
theorem V1_ori (c : Dev nD) (t : Fin 5888) (ch : Fin 512) :
    GenP.V1 m ρ c main_v7 (ix2 t ch) = Cert.Spec.oriT (argsK m c) t ch := by
  have e : (GenP.V1 m ρ c main_v7 : S5888x512.Idx → EReal)
      = shapeCast S5888x512 (transpose S128x46x512 [0, 2, 1] (m ((c : Thread nD τ).loc main_arg0) : S128x512x46.Idx → EReal)
          transposes_S128x512x46_S128x46x512_0_2_1) shapeCasts_S128x46x512_S5888x512 := by
    dsimp only [GenP.V1, GenP.W1, hostOps0]
    after_results
    rfl
  rw [e]
  refine (shapeCast_apply _ _ (ix2 t ch) (ix3 (Cert.Spec.tn t) (Cert.Spec.tk t) ch) ?_).trans ?_
  · rw [Shape.rowMajor_val_two, Shape.rowMajor_val_three]
    show ((t.val / 46) * 46 + t.val % 46) * 512 + ch.val = t.val * 512 + ch.val
    have := Nat.div_add_mod t.val 46
    omega
  · exact transpose_ix3_021_apply _ _ _ _ _

/-- The folded scale, as a one-row matrix: γ / sqrt(var + ε). -/
theorem V1_inv (c : Dev nD) (ch : Fin 512) :
    GenP.V1 m ρ c main_v8 (ix2 (0 : Fin 1) ch) = Cert.Spec.inv (argsK m c) ch := by
  have e : (GenP.V1 m ρ c main_v8 : S1x512.Idx → EReal)
      = shapeCast S1x512 (Host.divf (F := Ideal) (m ((c : Thread nD τ).loc main_arg1) : FVec Ideal S512 .f32)
          (Host.sqrt (F := Ideal) (addf (m ((c : Thread nD τ).loc main_arg4) : FVec Ideal S512 .f32)
            (broadcastInDim S512 ![] bcast_S_S512 (constant (F := Ideal) S_ .f32 0x3727C5AC#32))))) shapeCasts_S512_S1x512 := by
    dsimp only [GenP.V1, GenP.W1, hostOps0]
    after_results
    rfl
  rw [e]
  refine (shapeCast_a_1a_apply _ _ _ _).trans ?_
  rfl

/-- The folded offset, as a one-row matrix: β − mean · scale. -/
theorem V1_shift (c : Dev nD) (ch : Fin 512) :
    GenP.V1 m ρ c main_v9 (ix2 (0 : Fin 1) ch) = Cert.Spec.shift (argsK m c) ch := by
  have e : (GenP.V1 m ρ c main_v9 : S1x512.Idx → EReal)
      = shapeCast S1x512 (subf (m ((c : Thread nD τ).loc main_arg2) : FVec Ideal S512 .f32)
          (mulf (m ((c : Thread nD τ).loc main_arg3) : FVec Ideal S512 .f32)
            (Host.divf (F := Ideal) (m ((c : Thread nD τ).loc main_arg1) : FVec Ideal S512 .f32)
              (Host.sqrt (F := Ideal) (addf (m ((c : Thread nD τ).loc main_arg4) : FVec Ideal S512 .f32)
                (broadcastInDim S512 ![] bcast_S_S512 (constant (F := Ideal) S_ .f32 0x3727C5AC#32))))))) shapeCasts_S512_S1x512 := by
    dsimp only [GenP.V1, GenP.W1, hostOps0]
    after_results
    rfl
  rw [e]
  refine (shapeCast_a_1a_apply _ _ _ _).trans ?_
  rfl

/-! The four weight matrices: narrowed to a shorter format, unchanged as extended reals. -/

theorem V1_thetaW (c : Dev nD) (j : Fin 256) (ch : Fin 512) :
    GenP.V1 m ρ c main_v14 (ix2 j ch) = (argsK m c).thetaW (ix2 j ch) := by
  have e : (GenP.V1 m ρ c main_v14 : S256x512.Idx → EReal)
      = (truncf .bf16 (m ((c : Thread nD τ).loc main_arg5) : FVec Ideal S256x512 .f32) bitsLt_bf16_f32 : FVec Ideal S256x512 .bf16) := by
    dsimp only [GenP.V1, GenP.W1, hostOps0]
    after_results
  rw [e]
  rfl

theorem V1_phiW (c : Dev nD) (j : Fin 256) (ch : Fin 512) :
    GenP.V1 m ρ c main_v15 (ix2 j ch) = (argsK m c).phiW (ix2 j ch) := by
  have e : (GenP.V1 m ρ c main_v15 : S256x512.Idx → EReal)
      = (truncf .bf16 (m ((c : Thread nD τ).loc main_arg7) : FVec Ideal S256x512 .f32) bitsLt_bf16_f32 : FVec Ideal S256x512 .bf16) := by
    dsimp only [GenP.V1, GenP.W1, hostOps0]
    after_results
  rw [e]
  rfl

theorem V1_gW (c : Dev nD) (j : Fin 256) (ch : Fin 512) :
    GenP.V1 m ρ c main_v16 (ix2 j ch) = (argsK m c).gW (ix2 j ch) := by
  have e : (GenP.V1 m ρ c main_v16 : S256x512.Idx → EReal)
      = (truncf .bf16 (m ((c : Thread nD τ).loc main_arg9) : FVec Ideal S256x512 .f32) bitsLt_bf16_f32 : FVec Ideal S256x512 .bf16) := by
    dsimp only [GenP.V1, GenP.W1, hostOps0]
    after_results
  rw [e]
  rfl

theorem V1_wW (c : Dev nD) (ch : Fin 512) (j : Fin 256) :
    GenP.V1 m ρ c main_v17 (ix2 ch j) = (argsK m c).wW (ix2 ch j) := by
  have e : (GenP.V1 m ρ c main_v17 : S512x256.Idx → EReal)
      = (truncf .bf16 (m ((c : Thread nD τ).loc main_arg11) : FVec Ideal S512x256 .f32) bitsLt_bf16_f32 : FVec Ideal S512x256 .bf16) := by
    dsimp only [GenP.V1, GenP.W1, hostOps0]
    after_results
  rw [e]
  rfl

/-! The four bias vectors: each read as a one-row matrix. -/

theorem V1_thetaB (c : Dev nD) (j : Fin 256) :
    GenP.V1 m ρ c main_v10 (ix2 (0 : Fin 1) j) = (argsK m c).thetaB (ix1 j) := by
  have e : (GenP.V1 m ρ c main_v10 : S1x256.Idx → EReal)
      = shapeCast S1x256 (m ((c : Thread nD τ).loc main_arg6) : S256.Idx → EReal) shapeCasts_S256_S1x256 := by
    dsimp only [GenP.V1, GenP.W1, hostOps0]
    after_results
    rfl
  rw [e]
  exact shapeCast_a_1a_apply _ _ _ _

theorem V1_phiB (c : Dev nD) (j : Fin 256) :
    GenP.V1 m ρ c main_v11 (ix2 (0 : Fin 1) j) = (argsK m c).phiB (ix1 j) := by
  have e : (GenP.V1 m ρ c main_v11 : S1x256.Idx → EReal)
      = shapeCast S1x256 (m ((c : Thread nD τ).loc main_arg8) : S256.Idx → EReal) shapeCasts_S256_S1x256 := by
    dsimp only [GenP.V1, GenP.W1, hostOps0]
    after_results
    rfl
  rw [e]
  exact shapeCast_a_1a_apply _ _ _ _

theorem V1_gB (c : Dev nD) (j : Fin 256) :
    GenP.V1 m ρ c main_v12 (ix2 (0 : Fin 1) j) = (argsK m c).gB (ix1 j) := by
  have e : (GenP.V1 m ρ c main_v12 : S1x256.Idx → EReal)
      = shapeCast S1x256 (m ((c : Thread nD τ).loc main_arg10) : S256.Idx → EReal) shapeCasts_S256_S1x256 := by
    dsimp only [GenP.V1, GenP.W1, hostOps0]
    after_results
    rfl
  rw [e]
  exact shapeCast_a_1a_apply _ _ _ _

theorem V1_wB (c : Dev nD) (ch : Fin 512) :
    GenP.V1 m ρ c main_v13 (ix2 (0 : Fin 1) ch) = (argsK m c).wB (ix1 ch) := by
  have e : (GenP.V1 m ρ c main_v13 : S1x512.Idx → EReal)
      = shapeCast S1x512 (m ((c : Thread nD τ).loc main_arg12) : S512.Idx → EReal) shapeCasts_S512_S1x512 := by
    dsimp only [GenP.V1, GenP.W1, hostOps0]
    after_results
    rfl
  rw [e]
  exact shapeCast_a_1a_apply _ _ _ _

end Cert.KernelIdeal.KProj

end
-- ==== Proof.KProjPay.lean ====
/-
  The arithmetic of one block of the projection kernel, read entry by entry at the extended reals.

  A block is 1472 tokens of 512 channels. The kernel scales and shifts each channel (the folded batch norm), clamps at
  zero, and multiplies the block of features by the transpose of each of three [256, 512] weight matrices, adding a
  bias row. Read at row r and column j this is
      feature r c = max (x r c · scale c + offset c, 0),     projection r j = (Σ_c feature r c · w j c) + bias j.
  Every operation is exact here and a change of float format is the identity, so the only work is reading each
  operation at an index; the matrix product is the sum over the one contracted axis, and the transpose swaps the two
  coordinates of the weight.
-/
import proofs.«123535_j11510512353703_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KProj

open Idealize.ShloMosaic Idealize.ShloMosaic.ValueIdx Cert.KernelIdeal Cert.KernelIdeal.Gen

/-- The features of a block: scale, shift, clamp at zero. The scale and the offset are rows broadcast down the block. -/
theorem feat_pay (x0 : Vec Ideal S1472x512 .f32) (x1 x2 : Vec Ideal S1x512 .f32) (r : Fin 1472) (ch : Fin 512) :
    k0_pay2 x0 x1 x2 (ix2 r ch)
      = max (x0 (ix2 r ch) * x1 (ix2 (0 : Fin 1) ch) + x2 (ix2 (0 : Fin 1) ch)) (Ideal.ofBits .f32 0x00000000#32) := by
  unfold k0_pay2
  simp only [truncf_apply, maximumf_apply, addf_apply, mulf_apply, shapeCast_self, broadcastTo_1b_ab_apply, broadcast_apply]
  rfl

/-- The product of a [1472, 512] block with the transpose of a [256, 512] weight, into a zero accumulator, at (r, j):
    the sum over the 512 channels of block entry (r, c) times weight entry (j, c). -/
theorem matmul_wT_apply (P : FVec Ideal S1472x512 .bf16) (w : FVec Ideal S256x512 .bf16)
    (hT : S256x512.Transposes [1, 0] S512x256) (r : Fin 1472) (j : Fin 256) :
    matmul dot_S1472x512_S512x256_S1472x256_1_0_0_1_n_n none P (transpose S512x256 [1, 0] w hT)
        (constant S1472x256 .f32 0x00000000#32) (ix2 r j)
      = ∑ ch : Fin 512, P (ix2 r ch) * w (ix2 j ch) := by
  refine (Ideal.matmul_constant_zero_apply _ none P _ (ix2 r j)).trans ?_
  rw [← Equiv.sum_comp (contrEquiv1 dot_S1472x512_S512x256_S1472x256_1_0_0_1_n_n 512 rfl rfl).symm]
  refine Finset.sum_congr rfl fun c _ => ?_
  have c2 := contrEquiv1_symm_val dot_S1472x512_S512x256_S1472x256_1_0_0_1_n_n 512 rfl rfl c
  have l2 : dot_S1472x512_S512x256_S1472x256_1_0_0_1_n_n.lhsIdx (ix2 r j) ((contrEquiv1 _ 512 rfl rfl).symm c) = ix2 r c := by
    funext ax; apply Fin.ext
    match ax with
    | ⟨0, _⟩ => rfl
    | ⟨1, _⟩ => exact (DotDims.lhsIdx_val_of_single _ rfl _ _).trans c2
  have r2 : dot_S1472x512_S512x256_S1472x256_1_0_0_1_n_n.rhsIdx (ix2 r j) ((contrEquiv1 _ 512 rfl rfl).symm c) = ix2 c j := by
    funext ax; apply Fin.ext
    match ax with
    | ⟨0, _⟩ => exact (DotDims.rhsIdx_val_of_single _ rfl _ _).trans c2
    | ⟨1, _⟩ => rfl
  rw [l2, r2, transpose_ix2_apply]

/-- The third projection, from a block of features already computed. -/
theorem proj_pay1 (P : FVec Ideal S1472x512 .bf16) (w : Vec Ideal S256x512 .bf16) (b : Vec Ideal S1x256 .f32)
    (r : Fin 1472) (j : Fin 256) :
    k0_pay1 P w b (ix2 r j) = (∑ ch : Fin 512, P (ix2 r ch) * w (ix2 j ch)) + b (ix2 (0 : Fin 1) j) := by
  unfold k0_pay1
  simp only [truncf_apply, addf_apply, shapeCast_self, broadcastTo_1b_ab_apply]
  rw [matmul_wT_apply]

/-- The first projection, from the block of activations. -/
theorem proj_pay3 (x0 : Vec Ideal S1472x512 .f32) (x1 x2 : Vec Ideal S1x512 .f32) (w : Vec Ideal S256x512 .bf16)
    (b : Vec Ideal S1x256 .f32) (r : Fin 1472) (j : Fin 256) :
    k0_pay3 x0 x1 x2 w b (ix2 r j)
      = (∑ ch : Fin 512, k0_pay2 x0 x1 x2 (ix2 r ch) * w (ix2 j ch)) + b (ix2 (0 : Fin 1) j) := by
  unfold k0_pay3
  simp only [truncf_apply, addf_apply, shapeCast_self, broadcastTo_1b_ab_apply]
  rw [matmul_wT_apply]

/-- The second projection, from the block of activations. -/
theorem proj_pay4 (x0 : Vec Ideal S1472x512 .f32) (x1 x2 : Vec Ideal S1x512 .f32) (w : Vec Ideal S256x512 .bf16)
    (b : Vec Ideal S1x256 .f32) (r : Fin 1472) (j : Fin 256) :
    k0_pay4 x0 x1 x2 w b (ix2 r j)
      = (∑ ch : Fin 512, k0_pay2 x0 x1 x2 (ix2 r ch) * w (ix2 j ch)) + b (ix2 (0 : Fin 1) j) := by
  unfold k0_pay4
  simp only [truncf_apply, addf_apply, shapeCast_self, broadcastTo_1b_ab_apply]
  rw [matmul_wT_apply]

end Cert.KernelIdeal.KProj

end
-- ==== Proof.KProjRow.lean ====
/-
  One block of each projection as rows of the specification.

  If a block of activations holds the tokens T r (r the row inside the block), and the scale, offset, weight and bias
  blocks hold the specification's folded scale and offset and a weight matrix W and bias B, then row r of the
  block's projection is the specification's projection of token T r. Stated over arbitrary blocks with these facts as
  hypotheses, so that it can be applied to the blocks a grid point reads without opening them.
-/
import proofs.«123535_j11510512353703_2_alg».proof.Proof.KProjPay
import proofs.«123535_j11510512353703_2_alg».proof.Proof.Spec

noncomputable section

namespace Cert.KernelIdeal.KProj

open Idealize.ShloMosaic Idealize.ShloMosaic.ValueIdx Cert.KernelIdeal Cert.KernelIdeal.Gen

variable (A : Cert.Spec.Args) (W : (⟨2, ![256, 512]⟩ : Shape).Idx → EReal) (B : (⟨1, ![256]⟩ : Shape).Idx → EReal)
variable (x0 : Vec Ideal S1472x512 .f32) (x1 x2 : Vec Ideal S1x512 .f32) (w : Vec Ideal S256x512 .bf16) (b : Vec Ideal S1x256 .f32)
variable (T : Fin 1472 → Fin 5888)

/-- The block's features are the specification's features of its tokens. -/
theorem feat_block (h0 : ∀ r ch, x0 (ix2 r ch) = Cert.Spec.oriT A (T r) ch)
    (h1 : ∀ ch, x1 (ix2 (0 : Fin 1) ch) = Cert.Spec.inv A ch) (h2 : ∀ ch, x2 (ix2 (0 : Fin 1) ch) = Cert.Spec.shift A ch)
    (r : Fin 1472) (ch : Fin 512) : k0_pay2 x0 x1 x2 (ix2 r ch) = Cert.Spec.feat A (T r) ch := by
  rw [feat_pay, h0, h1, h2]
  rfl

/-- A sum of feature · weight plus a bias is the specification's projection. -/
theorem proj_of_feat (P : FVec Ideal S1472x512 .bf16) (hP : ∀ r ch, P (ix2 r ch) = Cert.Spec.feat A (T r) ch)
    (hw : ∀ j ch, w (ix2 j ch) = W (ix2 j ch)) (hb : ∀ j, b (ix2 (0 : Fin 1) j) = B (ix1 j)) (r : Fin 1472) (j : Fin 256) :
    (∑ ch : Fin 512, P (ix2 r ch) * w (ix2 j ch)) + b (ix2 (0 : Fin 1) j) = Cert.Spec.proj A W B (T r) j := by
  unfold Cert.Spec.proj
  rw [hb]
  refine congrArg (· + B (ix1 j)) (Finset.sum_congr rfl fun ch _ => ?_)
  rw [hP, hw]

theorem proj_block3 (h0 : ∀ r ch, x0 (ix2 r ch) = Cert.Spec.oriT A (T r) ch)
    (h1 : ∀ ch, x1 (ix2 (0 : Fin 1) ch) = Cert.Spec.inv A ch) (h2 : ∀ ch, x2 (ix2 (0 : Fin 1) ch) = Cert.Spec.shift A ch)
    (hw : ∀ j ch, w (ix2 j ch) = W (ix2 j ch)) (hb : ∀ j, b (ix2 (0 : Fin 1) j) = B (ix1 j)) (y : S1472x256.Idx) :
    k0_pay3 x0 x1 x2 w b y = Cert.Spec.proj A W B (T (y 0)) (y 1) := by
  obtain ⟨r, j, rfl⟩ : ∃ (r : Fin 1472) (j : Fin 256), y = ix2 r j := ⟨y 0, y 1, eq_ix2 y⟩
  rw [proj_pay3]
  exact proj_of_feat A W B w b T (k0_pay2 x0 x1 x2) (feat_block A x0 x1 x2 T h0 h1 h2) hw hb r j

theorem proj_block4 (h0 : ∀ r ch, x0 (ix2 r ch) = Cert.Spec.oriT A (T r) ch)
    (h1 : ∀ ch, x1 (ix2 (0 : Fin 1) ch) = Cert.Spec.inv A ch) (h2 : ∀ ch, x2 (ix2 (0 : Fin 1) ch) = Cert.Spec.shift A ch)
    (hw : ∀ j ch, w (ix2 j ch) = W (ix2 j ch)) (hb : ∀ j, b (ix2 (0 : Fin 1) j) = B (ix1 j)) (y : S1472x256.Idx) :
    k0_pay4 x0 x1 x2 w b y = Cert.Spec.proj A W B (T (y 0)) (y 1) := by
  obtain ⟨r, j, rfl⟩ : ∃ (r : Fin 1472) (j : Fin 256), y = ix2 r j := ⟨y 0, y 1, eq_ix2 y⟩
  rw [proj_pay4]
  exact proj_of_feat A W B w b T (k0_pay2 x0 x1 x2) (feat_block A x0 x1 x2 T h0 h1 h2) hw hb r j

theorem proj_block1 (h0 : ∀ r ch, x0 (ix2 r ch) = Cert.Spec.oriT A (T r) ch)
    (h1 : ∀ ch, x1 (ix2 (0 : Fin 1) ch) = Cert.Spec.inv A ch) (h2 : ∀ ch, x2 (ix2 (0 : Fin 1) ch) = Cert.Spec.shift A ch)
    (hw : ∀ j ch, w (ix2 j ch) = W (ix2 j ch)) (hb : ∀ j, b (ix2 (0 : Fin 1) j) = B (ix1 j)) (y : S1472x256.Idx) :
    k0_pay1 (k0_pay2 x0 x1 x2) w b y = Cert.Spec.proj A W B (T (y 0)) (y 1) := by
  obtain ⟨r, j, rfl⟩ : ∃ (r : Fin 1472) (j : Fin 256), y = ix2 r j := ⟨y 0, y 1, eq_ix2 y⟩
  rw [proj_pay1]
  exact proj_of_feat A W B w b T (k0_pay2 x0 x1 x2) (feat_block A x0 x1 x2 T h0 h1 h2) hw hb r j

end Cert.KernelIdeal.KProj

end
-- ==== Proof.KProj.lean ====
/-
  The three projections as whole arrays: what the first kernel region leaves in its three output arrays.

  The region runs over four grid points; point t handles the 1472 tokens 1472 t … 1472 t + 1471. At each point the
  activation window holds those tokens' rows of the token layout, every other input window holds its whole array, and
  the body writes, for each of the three projections, the [1472, 256] block of that projection of those tokens. The
  four blocks tile the [5888, 256] array (token u is in block u / 1472), so each array ends holding the specification's
  projection of every token: xθ, xφ and gx.
-/
import proofs.«123535_j11510512353703_2_alg».proof.Proof.KernelIdealFrame
import proofs.«123535_j11510512353703_2_alg».proof.Proof.KProjHost
import proofs.«123535_j11510512353703_2_alg».proof.Proof.KProjRow
import Idealize.ShloMosaic.Lib.ValueIdx
import Idealize.ShloMosaic.Lib.Pipeline.Value

noncomputable section

namespace Cert.KernelIdeal.KProj

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The windows that move with the grid (the activation and the three outputs) are at block (t, 0) at point t … -/
theorem idx_rows : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- … and every other window is at block (0, 0) at every point: its block is its whole array. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The grid has four points. -/
theorem lt4 (t : Fin cfg0.N) : t.val < 4 := Nat.lt_of_lt_of_eq t.isLt N_0

/-- The token in row r of block t: 1472 t + r. -/
def tokOf (t : Fin cfg0.N) (r : Fin 1472) : Fin 5888 :=
  ⟨t.val * 1472 + r.val, by have := lt4 t; have := r.isLt; omega⟩

/-- Row r of the activation block at point t is token 1472 t + r of the token layout. -/
theorem blk_ori (c : Dev nD) (t : Fin cfg0.N) (r : Fin 1472) (ch : Fin 512) :
    (GenP.iblk0 (GenP.V1 m ρ) c 0 t : S1472x512.Idx → EReal) (ix2 r ch) = GenP.V1 m ρ c main_v7 (ix2 (tokOf t r) ch) := by
  have e := idx_rows t
  unfold GenP.iblk0
  rw [View.read_apply]
  show GenP.V1 m ρ c main_v7 _ = GenP.V1 m ρ c main_v7 _
  refine congrArg (GenP.V1 m ρ c main_v7) ?_
  funext a; apply Fin.ext
  match a with
  | ⟨0, _⟩ => show win0_0.index t (0 : Fin 2) * 1472 + 1 * r.val = t.val * 1472 + r.val; rw [e.1.1]; omega
  | ⟨1, _⟩ => show win0_0.index t (1 : Fin 2) * 512 + 1 * ch.val = ch.val; rw [e.1.2]; omega

/-- The scale row is read whole at every point. -/
theorem blk_inv (c : Dev nD) (t : Fin cfg0.N) (u : Fin 1) (ch : Fin 512) :
    (GenP.iblk0 (GenP.V1 m ρ) c 1 t : S1x512.Idx → EReal) (ix2 u ch) = GenP.V1 m ρ c main_v8 (ix2 u ch) := by
  have e := idx_whole t
  unfold GenP.iblk0
  rw [View.read_apply]
  show GenP.V1 m ρ c main_v8 _ = GenP.V1 m ρ c main_v8 _
  refine congrArg (GenP.V1 m ρ c main_v8) ?_
  funext a; apply Fin.ext
  match a with
  | ⟨0, _⟩ => show win0_1.index t (0 : Fin 2) * 1 + 1 * u.val = u.val; rw [(e.1).1]; omega
  | ⟨1, _⟩ => show win0_1.index t (1 : Fin 2) * 512 + 1 * ch.val = ch.val; rw [(e.1).2]; omega

/-- The offset row is read whole at every point. -/
theorem blk_shift (c : Dev nD) (t : Fin cfg0.N) (u : Fin 1) (ch : Fin 512) :
    (GenP.iblk0 (GenP.V1 m ρ) c 2 t : S1x512.Idx → EReal) (ix2 u ch) = GenP.V1 m ρ c main_v9 (ix2 u ch) := by
  have e := idx_whole t
  unfold GenP.iblk0
  rw [View.read_apply]
  show GenP.V1 m ρ c main_v9 _ = GenP.V1 m ρ c main_v9 _
  refine congrArg (GenP.V1 m ρ c main_v9) ?_
  funext a; apply Fin.ext
  match a with
  | ⟨0, _⟩ => show win0_2.index t (0 : Fin 2) * 1 + 1 * u.val = u.val; rw [(e.2.1).1]; omega
  | ⟨1, _⟩ => show win0_2.index t (1 : Fin 2) * 512 + 1 * ch.val = ch.val; rw [(e.2.1).2]; omega

/-- The first weight matrix is read whole at every point. -/
theorem blk_thetaW (c : Dev nD) (t : Fin cfg0.N) (j : Fin 256) (ch : Fin 512) :
    (GenP.iblk0 (GenP.V1 m ρ) c 3 t : S256x512.Idx → EReal) (ix2 j ch) = GenP.V1 m ρ c main_v14 (ix2 j ch) := by
  have e := idx_whole t
  unfold GenP.iblk0
  rw [View.read_apply]
  show GenP.V1 m ρ c main_v14 _ = GenP.V1 m ρ c main_v14 _
  refine congrArg (GenP.V1 m ρ c main_v14) ?_
  funext a; apply Fin.ext
  match a with
  | ⟨0, _⟩ => show win0_3.index t (0 : Fin 2) * 256 + 1 * j.val = j.val; rw [(e.2.2.1).1]; omega
  | ⟨1, _⟩ => show win0_3.index t (1 : Fin 2) * 512 + 1 * ch.val = ch.val; rw [(e.2.2.1).2]; omega

/-- The first bias row is read whole at every point. -/
theorem blk_thetaB (c : Dev nD) (t : Fin cfg0.N) (u : Fin 1) (j : Fin 256) :
    (GenP.iblk0 (GenP.V1 m ρ) c 4 t : S1x256.Idx → EReal) (ix2 u j) = GenP.V1 m ρ c main_v10 (ix2 u j) := by
  have e := idx_whole t
  unfold GenP.iblk0
  rw [View.read_apply]
  show GenP.V1 m ρ c main_v10 _ = GenP.V1 m ρ c main_v10 _
  refine congrArg (GenP.V1 m ρ c main_v10) ?_
  funext a; apply Fin.ext
  match a with
  | ⟨0, _⟩ => show win0_4.index t (0 : Fin 2) * 1 + 1 * u.val = u.val; rw [(e.2.2.2.1).1]; omega
  | ⟨1, _⟩ => show win0_4.index t (1 : Fin 2) * 256 + 1 * j.val = j.val; rw [(e.2.2.2.1).2]; omega

/-- The second weight matrix is read whole at every point. -/
theorem blk_phiW (c : Dev nD) (t : Fin cfg0.N) (j : Fin 256) (ch : Fin 512) :
    (GenP.iblk0 (GenP.V1 m ρ) c 5 t : S256x512.Idx → EReal) (ix2 j ch) = GenP.V1 m ρ c main_v15 (ix2 j ch) := by
  have e := idx_whole t
  unfold GenP.iblk0
  rw [View.read_apply]
  show GenP.V1 m ρ c main_v15 _ = GenP.V1 m ρ c main_v15 _
  refine congrArg (GenP.V1 m ρ c main_v15) ?_
  funext a; apply Fin.ext
  match a with
  | ⟨0, _⟩ => show win0_5.index t (0 : Fin 2) * 256 + 1 * j.val = j.val; rw [(e.2.2.2.2.1).1]; omega
  | ⟨1, _⟩ => show win0_5.index t (1 : Fin 2) * 512 + 1 * ch.val = ch.val; rw [(e.2.2.2.2.1).2]; omega

/-- The second bias row is read whole at every point. -/
theorem blk_phiB (c : Dev nD) (t : Fin cfg0.N) (u : Fin 1) (j : Fin 256) :
    (GenP.iblk0 (GenP.V1 m ρ) c 6 t : S1x256.Idx → EReal) (ix2 u j) = GenP.V1 m ρ c main_v11 (ix2 u j) := by
  have e := idx_whole t
  unfold GenP.iblk0
  rw [View.read_apply]
  show GenP.V1 m ρ c main_v11 _ = GenP.V1 m ρ c main_v11 _
  refine congrArg (GenP.V1 m ρ c main_v11) ?_
  funext a; apply Fin.ext
  match a with
  | ⟨0, _⟩ => show win0_6.index t (0 : Fin 2) * 1 + 1 * u.val = u.val; rw [(e.2.2.2.2.2.1).1]; omega
  | ⟨1, _⟩ => show win0_6.index t (1 : Fin 2) * 256 + 1 * j.val = j.val; rw [(e.2.2.2.2.2.1).2]; omega

/-- The third weight matrix is read whole at every point. -/
theorem blk_gW (c : Dev nD) (t : Fin cfg0.N) (j : Fin 256) (ch : Fin 512) :
    (GenP.iblk0 (GenP.V1 m ρ) c 7 t : S256x512.Idx → EReal) (ix2 j ch) = GenP.V1 m ρ c main_v16 (ix2 j ch) := by
  have e := idx_whole t
  unfold GenP.iblk0
  rw [View.read_apply]
  show GenP.V1 m ρ c main_v16 _ = GenP.V1 m ρ c main_v16 _
  refine congrArg (GenP.V1 m ρ c main_v16) ?_
  funext a; apply Fin.ext
  match a with
  | ⟨0, _⟩ => show win0_7.index t (0 : Fin 2) * 256 + 1 * j.val = j.val; rw [(e.2.2.2.2.2.2.1).1]; omega
  | ⟨1, _⟩ => show win0_7.index t (1 : Fin 2) * 512 + 1 * ch.val = ch.val; rw [(e.2.2.2.2.2.2.1).2]; omega

/-- The third bias row is read whole at every point. -/
theorem blk_gB (c : Dev nD) (t : Fin cfg0.N) (u : Fin 1) (j : Fin 256) :
    (GenP.iblk0 (GenP.V1 m ρ) c 8 t : S1x256.Idx → EReal) (ix2 u j) = GenP.V1 m ρ c main_v12 (ix2 u j) := by
  have e := idx_whole t
  unfold GenP.iblk0
  rw [View.read_apply]
  show GenP.V1 m ρ c main_v12 _ = GenP.V1 m ρ c main_v12 _
  refine congrArg (GenP.V1 m ρ c main_v12) ?_
  funext a; apply Fin.ext
  match a with
  | ⟨0, _⟩ => show win0_8.index t (0 : Fin 2) * 1 + 1 * u.val = u.val; rw [(e.2.2.2.2.2.2.2).1]; omega
  | ⟨1, _⟩ => show win0_8.index t (1 : Fin 2) * 256 + 1 * j.val = j.val; rw [(e.2.2.2.2.2.2.2).2]; omega

/-! ## The first projection (output window 9) -/

/-- Where entry (r, j) of block t of the first projection sits in its array: at token 1472 t + r, column j. -/
theorem emb_theta (t : Fin cfg0.N) (y : S1472x256.Idx) :
    ((cfg0.win 9).blk t).view.emb y = ix2 (tokOf t (y 0)) (y 1) := by
  have e := idx_rows t
  funext a; apply Fin.ext
  match a with
  | ⟨0, _⟩ => show win0_9.index t (0 : Fin 2) * 1472 + 1 * (y 0).val = t.val * 1472 + (y 0).val; rw [e.2.1.1]; omega
  | ⟨1, _⟩ => show win0_9.index t (1 : Fin 2) * 256 + 1 * (y 1).val = (y 1).val; rw [e.2.1.2]; omega

/-- The first projection as one array over tokens and output channels. -/
abbrev thetaArr (c : Dev nD) : S5888x256.Idx → EReal := fun i => Cert.Spec.xTheta (argsK m c) (i 0) (i 1)

/-- What point t writes back is block t of that array: the body's projection of the blocks it read, each of which is
    the specification's array at the block's tokens. -/
theorem flushed_theta (c : Dev nD) (t : Fin cfg0.N) :
    (GenP.dat0 (GenP.V1 m ρ) c).flushed 9 t = ((cfg0.win 9).blk t).view.read (Elt Ideal) (thetaArr m c) := by
  show (cfg0.win 9).cut (grid0.coords t) ((GenP.dat0 (GenP.V1 m ρ) c).after 9 t) = _
  rw [GenP.after0_9]
  unfold GenP.out0_9
  rw [View.canon_unit_zero hz]
  simp only [View.ld_unit_zero (S := S1472x512) hz, View.ld_unit_zero (S := S1x512) hz, View.ld_unit_zero (S := S256x512) hz,
    View.ld_unit_zero (S := S1x256) hz]
  funext y
  show k0_pay3 (GenP.iblk0 (GenP.V1 m ρ) c 0 t) (GenP.iblk0 (GenP.V1 m ρ) c 1 t) (GenP.iblk0 (GenP.V1 m ρ) c 2 t)
      (GenP.iblk0 (GenP.V1 m ρ) c 3 t) (GenP.iblk0 (GenP.V1 m ρ) c 4 t) y = thetaArr m c (((cfg0.win 9).blk t).view.emb y)
  rw [emb_theta]
  exact proj_block3 (argsK m c) (argsK m c).thetaW (argsK m c).thetaB
    (GenP.iblk0 (GenP.V1 m ρ) c 0 t) (GenP.iblk0 (GenP.V1 m ρ) c 1 t) (GenP.iblk0 (GenP.V1 m ρ) c 2 t)
    (GenP.iblk0 (GenP.V1 m ρ) c 3 t) (GenP.iblk0 (GenP.V1 m ρ) c 4 t) (tokOf t)
    (fun r ch => (blk_ori m ρ c t r ch).trans (V1_ori m ρ c (tokOf t r) ch))
    (fun ch => (blk_inv m ρ c t 0 ch).trans (V1_inv m ρ c ch))
    (fun ch => (blk_shift m ρ c t 0 ch).trans (V1_shift m ρ c ch))
    (fun j ch => (blk_thetaW m ρ c t j ch).trans (V1_thetaW m ρ c j ch))
    (fun j => (blk_thetaB m ρ c t 0 j).trans (V1_thetaB m ρ c j)) y

/-- An index is in point t's block iff each coordinate is in the block's range on its axis. -/
theorem mem_blk_theta (t : Fin cfg0.N) (i : S5888x256.Idx) :
    i ∈ ((cfg0.win 9).blk t).view.set ↔ ∀ a : Fin 2, win0_9.index t a * S1472x256.size a ≤ (i a).val
      ∧ (i a).val < win0_9.index t a * S1472x256.size a + S1472x256.size a := by
  show i ∈ ((View.whole main_v18_0).slice (win0_9.rect t)).set ↔ _
  rw [View.set_slice_whole, Rect.mem_set_unit]
  exact Iff.rfl

/-- Every entry is written: token u lies in block u / 1472. -/
theorem cover_theta (i : S5888x256.Idx) :
    ∃ t : Fin cfg0.N, (cfg0.win 9).flush t = true ∧ i ∈ ((cfg0.win 9).blk t).view.set := by
  have hi0 : (i 0).val < 5888 := (i 0).isLt
  have hi1 : (i 1).val < 256 := (i 1).isLt
  obtain ⟨t, ht⟩ : ∃ t : Fin cfg0.N, t.val = (i 0).val / 1472 :=
    ⟨⟨(i 0).val / 1472, by rw [show cfg0.N = 4 from N_0]; omega⟩, rfl⟩
  refine ⟨t, flush0_9 t, ?_⟩
  have e := idx_rows t
  rw [mem_blk_theta]
  intro a
  match a with
  | ⟨0, _⟩ =>
    show win0_9.index t (0 : Fin 2) * 1472 ≤ (i 0).val ∧ (i 0).val < win0_9.index t (0 : Fin 2) * 1472 + 1472
    rw [e.2.1.1, ht]; omega
  | ⟨1, _⟩ =>
    show win0_9.index t (1 : Fin 2) * 256 ≤ (i 1).val ∧ (i 1).val < win0_9.index t (1 : Fin 2) * 256 + 256
    rw [e.2.1.2]; omega

/-- THE ARRAY after the region: the first projection of every token. -/
theorem final_theta (c : Dev nD) :
    (GenP.dat0 (F := Ideal) (GenP.V1 m ρ) c).arrAt 9 cfg0.N
      = (fun i => Cert.Spec.xTheta (argsK m c) (i 0) (i 1) : S5888x256.Idx → EReal) :=
  (GenP.dat0 (GenP.V1 m ρ) c).arrAt_eq_of_cover 9 (thetaArr m c) (fun t _ => flushed_theta m ρ c t) (cover_theta)

/-! ## The second projection (output window 10) -/

/-- Where entry (r, j) of block t of the second projection sits in its array: at token 1472 t + r, column j. -/
theorem emb_phi (t : Fin cfg0.N) (y : S1472x256.Idx) :
    ((cfg0.win 10).blk t).view.emb y = ix2 (tokOf t (y 0)) (y 1) := by
  have e := idx_rows t
  funext a; apply Fin.ext
  match a with
  | ⟨0, _⟩ => show win0_10.index t (0 : Fin 2) * 1472 + 1 * (y 0).val = t.val * 1472 + (y 0).val; rw [e.2.2.1.1]; omega
  | ⟨1, _⟩ => show win0_10.index t (1 : Fin 2) * 256 + 1 * (y 1).val = (y 1).val; rw [e.2.2.1.2]; omega

/-- The second projection as one array over tokens and output channels. -/
abbrev phiArr (c : Dev nD) : S5888x256.Idx → EReal := fun i => Cert.Spec.xPhi (argsK m c) (i 0) (i 1)

/-- What point t writes back is block t of that array: the body's projection of the blocks it read, each of which is
    the specification's array at the block's tokens. -/
theorem flushed_phi (c : Dev nD) (t : Fin cfg0.N) :
    (GenP.dat0 (GenP.V1 m ρ) c).flushed 10 t = ((cfg0.win 10).blk t).view.read (Elt Ideal) (phiArr m c) := by
  show (cfg0.win 10).cut (grid0.coords t) ((GenP.dat0 (GenP.V1 m ρ) c).after 10 t) = _
  rw [GenP.after0_10]
  unfold GenP.out0_10
  rw [View.canon_unit_zero hz]
  simp only [View.ld_unit_zero (S := S1472x512) hz, View.ld_unit_zero (S := S1x512) hz, View.ld_unit_zero (S := S256x512) hz,
    View.ld_unit_zero (S := S1x256) hz]
  funext y
  show k0_pay4 (GenP.iblk0 (GenP.V1 m ρ) c 0 t) (GenP.iblk0 (GenP.V1 m ρ) c 1 t) (GenP.iblk0 (GenP.V1 m ρ) c 2 t)
      (GenP.iblk0 (GenP.V1 m ρ) c 5 t) (GenP.iblk0 (GenP.V1 m ρ) c 6 t) y = phiArr m c (((cfg0.win 10).blk t).view.emb y)
  rw [emb_phi]
  exact proj_block4 (argsK m c) (argsK m c).phiW (argsK m c).phiB
    (GenP.iblk0 (GenP.V1 m ρ) c 0 t) (GenP.iblk0 (GenP.V1 m ρ) c 1 t) (GenP.iblk0 (GenP.V1 m ρ) c 2 t)
    (GenP.iblk0 (GenP.V1 m ρ) c 5 t) (GenP.iblk0 (GenP.V1 m ρ) c 6 t) (tokOf t)
    (fun r ch => (blk_ori m ρ c t r ch).trans (V1_ori m ρ c (tokOf t r) ch))
    (fun ch => (blk_inv m ρ c t 0 ch).trans (V1_inv m ρ c ch))
    (fun ch => (blk_shift m ρ c t 0 ch).trans (V1_shift m ρ c ch))
    (fun j ch => (blk_phiW m ρ c t j ch).trans (V1_phiW m ρ c j ch))
    (fun j => (blk_phiB m ρ c t 0 j).trans (V1_phiB m ρ c j)) y

/-- An index is in point t's block iff each coordinate is in the block's range on its axis. -/
theorem mem_blk_phi (t : Fin cfg0.N) (i : S5888x256.Idx) :
    i ∈ ((cfg0.win 10).blk t).view.set ↔ ∀ a : Fin 2, win0_10.index t a * S1472x256.size a ≤ (i a).val
      ∧ (i a).val < win0_10.index t a * S1472x256.size a + S1472x256.size a := by
  show i ∈ ((View.whole main_v18_1).slice (win0_10.rect t)).set ↔ _
  rw [View.set_slice_whole, Rect.mem_set_unit]
  exact Iff.rfl

/-- Every entry is written: token u lies in block u / 1472. -/
theorem cover_phi (i : S5888x256.Idx) :
    ∃ t : Fin cfg0.N, (cfg0.win 10).flush t = true ∧ i ∈ ((cfg0.win 10).blk t).view.set := by
  have hi0 : (i 0).val < 5888 := (i 0).isLt
  have hi1 : (i 1).val < 256 := (i 1).isLt
  obtain ⟨t, ht⟩ : ∃ t : Fin cfg0.N, t.val = (i 0).val / 1472 :=
    ⟨⟨(i 0).val / 1472, by rw [show cfg0.N = 4 from N_0]; omega⟩, rfl⟩
  refine ⟨t, flush0_10 t, ?_⟩
  have e := idx_rows t
  rw [mem_blk_phi]
  intro a
  match a with
  | ⟨0, _⟩ =>
    show win0_10.index t (0 : Fin 2) * 1472 ≤ (i 0).val ∧ (i 0).val < win0_10.index t (0 : Fin 2) * 1472 + 1472
    rw [e.2.2.1.1, ht]; omega
  | ⟨1, _⟩ =>
    show win0_10.index t (1 : Fin 2) * 256 ≤ (i 1).val ∧ (i 1).val < win0_10.index t (1 : Fin 2) * 256 + 256
    rw [e.2.2.1.2]; omega

/-- THE ARRAY after the region: the second projection of every token. -/
theorem final_phi (c : Dev nD) :
    (GenP.dat0 (F := Ideal) (GenP.V1 m ρ) c).arrAt 10 cfg0.N
      = (fun i => Cert.Spec.xPhi (argsK m c) (i 0) (i 1) : S5888x256.Idx → EReal) :=
  (GenP.dat0 (GenP.V1 m ρ) c).arrAt_eq_of_cover 10 (phiArr m c) (fun t _ => flushed_phi m ρ c t) (cover_phi)

/-! ## The third projection (output window 11) -/

/-- Where entry (r, j) of block t of the third projection sits in its array: at token 1472 t + r, column j. -/
theorem emb_g (t : Fin cfg0.N) (y : S1472x256.Idx) :
    ((cfg0.win 11).blk t).view.emb y = ix2 (tokOf t (y 0)) (y 1) := by
  have e := idx_rows t
  funext a; apply Fin.ext
  match a with
  | ⟨0, _⟩ => show win0_11.index t (0 : Fin 2) * 1472 + 1 * (y 0).val = t.val * 1472 + (y 0).val; rw [e.2.2.2.1]; omega
  | ⟨1, _⟩ => show win0_11.index t (1 : Fin 2) * 256 + 1 * (y 1).val = (y 1).val; rw [e.2.2.2.2]; omega

/-- The third projection as one array over tokens and output channels. -/
abbrev gArr (c : Dev nD) : S5888x256.Idx → EReal := fun i => Cert.Spec.gX (argsK m c) (i 0) (i 1)

/-- What point t writes back is block t of that array: the body's projection of the blocks it read, each of which is
    the specification's array at the block's tokens. -/
theorem flushed_g (c : Dev nD) (t : Fin cfg0.N) :
    (GenP.dat0 (GenP.V1 m ρ) c).flushed 11 t = ((cfg0.win 11).blk t).view.read (Elt Ideal) (gArr m c) := by
  show (cfg0.win 11).cut (grid0.coords t) ((GenP.dat0 (GenP.V1 m ρ) c).after 11 t) = _
  rw [GenP.after0_11]
  unfold GenP.out0_11
  rw [View.canon_unit_zero hz]
  simp only [View.ld_unit_zero (S := S1472x512) hz, View.ld_unit_zero (S := S1x512) hz, View.ld_unit_zero (S := S256x512) hz,
    View.ld_unit_zero (S := S1x256) hz]
  funext y
  show k0_pay1 (k0_pay2 (GenP.iblk0 (GenP.V1 m ρ) c 0 t) (GenP.iblk0 (GenP.V1 m ρ) c 1 t) (GenP.iblk0 (GenP.V1 m ρ) c 2 t))
      (GenP.iblk0 (GenP.V1 m ρ) c 7 t) (GenP.iblk0 (GenP.V1 m ρ) c 8 t) y = gArr m c (((cfg0.win 11).blk t).view.emb y)
  rw [emb_g]
  exact proj_block1 (argsK m c) (argsK m c).gW (argsK m c).gB
    (GenP.iblk0 (GenP.V1 m ρ) c 0 t) (GenP.iblk0 (GenP.V1 m ρ) c 1 t) (GenP.iblk0 (GenP.V1 m ρ) c 2 t)
    (GenP.iblk0 (GenP.V1 m ρ) c 7 t) (GenP.iblk0 (GenP.V1 m ρ) c 8 t) (tokOf t)
    (fun r ch => (blk_ori m ρ c t r ch).trans (V1_ori m ρ c (tokOf t r) ch))
    (fun ch => (blk_inv m ρ c t 0 ch).trans (V1_inv m ρ c ch))
    (fun ch => (blk_shift m ρ c t 0 ch).trans (V1_shift m ρ c ch))
    (fun j ch => (blk_gW m ρ c t j ch).trans (V1_gW m ρ c j ch))
    (fun j => (blk_gB m ρ c t 0 j).trans (V1_gB m ρ c j)) y

/-- An index is in point t's block iff each coordinate is in the block's range on its axis. -/
theorem mem_blk_g (t : Fin cfg0.N) (i : S5888x256.Idx) :
    i ∈ ((cfg0.win 11).blk t).view.set ↔ ∀ a : Fin 2, win0_11.index t a * S1472x256.size a ≤ (i a).val
      ∧ (i a).val < win0_11.index t a * S1472x256.size a + S1472x256.size a := by
  show i ∈ ((View.whole main_v18_2).slice (win0_11.rect t)).set ↔ _
  rw [View.set_slice_whole, Rect.mem_set_unit]
  exact Iff.rfl

/-- Every entry is written: token u lies in block u / 1472. -/
theorem cover_g (i : S5888x256.Idx) :
    ∃ t : Fin cfg0.N, (cfg0.win 11).flush t = true ∧ i ∈ ((cfg0.win 11).blk t).view.set := by
  have hi0 : (i 0).val < 5888 := (i 0).isLt
  have hi1 : (i 1).val < 256 := (i 1).isLt
  obtain ⟨t, ht⟩ : ∃ t : Fin cfg0.N, t.val = (i 0).val / 1472 :=
    ⟨⟨(i 0).val / 1472, by rw [show cfg0.N = 4 from N_0]; omega⟩, rfl⟩
  refine ⟨t, flush0_11 t, ?_⟩
  have e := idx_rows t
  rw [mem_blk_g]
  intro a
  match a with
  | ⟨0, _⟩ =>
    show win0_11.index t (0 : Fin 2) * 1472 ≤ (i 0).val ∧ (i 0).val < win0_11.index t (0 : Fin 2) * 1472 + 1472
    rw [e.2.2.2.1, ht]; omega
  | ⟨1, _⟩ =>
    show win0_11.index t (1 : Fin 2) * 256 ≤ (i 1).val ∧ (i 1).val < win0_11.index t (1 : Fin 2) * 256 + 256
    rw [e.2.2.2.2]; omega

/-- THE ARRAY after the region: the third projection of every token. -/
theorem final_g (c : Dev nD) :
    (GenP.dat0 (F := Ideal) (GenP.V1 m ρ) c).arrAt 11 cfg0.N
      = (fun i => Cert.Spec.gX (argsK m c) (i 0) (i 1) : S5888x256.Idx → EReal) :=
  (GenP.dat0 (GenP.V1 m ρ) c).arrAt_eq_of_cover 11 (gArr m c) (fun t _ => flushed_g m ρ c t) (cover_g)

end Cert.KernelIdeal.KProj

end
-- ==== Proof.KValue.lean ====
/-
  The idealized kernel's run ends at the specification. The run's two result buffers hold the last fold of the buffer
  contents; unwinding it: the final reshape reads the second call's second output array through the token layout, the
  second call's arrays are the softmax matrix and the residual sum provided its seven input arrays hold what they should,
  and those hold it because the first call's arrays are the three projections, the host prepared the activation and the
  parameters before the first call, computed the block ids between the calls, and nothing in between overwrote any of
  them.
-/
import proofs.«123535_j11510512353703_2_alg».proof.Proof.Args
import proofs.«123535_j11510512353703_2_alg».proof.Proof.KRun
import proofs.«123535_j11510512353703_2_alg».proof.Proof.KMid
import proofs.«123535_j11510512353703_2_alg».proof.Proof.KBlk
import proofs.«123535_j11510512353703_2_alg».proof.Proof.KTail
import proofs.«123535_j11510512353703_2_alg».proof.Proof.KAttn
import proofs.«123535_j11510512353703_2_alg».proof.Proof.KProjHost
import proofs.«123535_j11510512353703_2_alg».proof.Proof.KProj

set_option maxRecDepth 16384

noncomputable section

namespace Cert.KernelIdeal.KValue

open Cert.KernelIdeal.Gen Cert.KernelIdeal.GenP
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- x_θ as the second call finds it. -/
theorem in_theta (t : Fin 5888) (j : Fin 256) :
    (V5 m ρ c main_v18_0 : S5888x256.Idx → EReal) (ix2 t j) = Cert.Spec.xTheta (argsK m c) t j := by
  rw [KMid.V5_theta, KProj.final_theta]
/-- x_φ as the second call finds it. -/
theorem in_phi (u : Fin 5888) (j : Fin 256) :
    (V5 m ρ c main_v18_1 : S5888x256.Idx → EReal) (ix2 u j) = Cert.Spec.xPhi (argsK m c) u j := by
  rw [KMid.V5_phi, KProj.final_phi]
/-- g_x as the second call finds it. -/
theorem in_g (u : Fin 5888) (j : Fin 256) :
    (V5 m ρ c main_v18_2 : S5888x256.Idx → EReal) (ix2 u j) = Cert.Spec.gX (argsK m c) u j := by
  rw [KMid.V5_g, KProj.final_g]
/-- The token-major activation as the second call finds it. -/
theorem in_ori (t : Fin 5888) (ch : Fin 512) :
    (V5 m ρ c main_v7 : S5888x512.Idx → EReal) (ix2 t ch) = Cert.Spec.oriT (argsK m c) t ch := by
  rw [KMid.V5_ori]; exact KProj.V1_ori m ρ c t ch
/-- The output projection's weight as the second call finds it. -/
theorem in_wW (ch : Fin 512) (j : Fin 256) :
    (V5 m ρ c main_v17 : S512x256.Idx → EReal) (ix2 ch j) = (argsK m c).wW (ix2 ch j) := by
  rw [KMid.V5_wW]; exact KProj.V1_wW m ρ c ch j
/-- Its bias. -/
theorem in_wB (ch : Fin 512) :
    (V5 m ρ c main_v13 : S1x512.Idx → EReal) (ix2 (0 : Fin 1) ch) = (argsK m c).wB (ix1 ch) := by
  rw [KMid.V5_wB]; exact KProj.V1_wB m ρ c ch

/-- SECOND RESULT at the end of the run: the softmax matrix. -/
theorem fdiv_final : W7 m ρ c (Proc.devRef .tc main_v22_0) = Cert.Spec.fdiv (argsK m c) :=
  (KTail.W7_fdiv m ρ c).trans
    (KAttn.final_soft (V5 m ρ) c (argsK m c) (in_theta m ρ c) (in_phi m ρ c) (KBlk.V5_blk m ρ c))

/-- FIRST RESULT at the end of the run: the residual sum, read through the token layout. -/
theorem att_final : (W7 m ρ c (Proc.devRef .tc main_v23) : S128x46x512.Idx → EReal) = Cert.Spec.attOut (argsK m c) := by
  funext i
  obtain ⟨n, k, ch, rfl⟩ : ∃ (n : Fin 128) (k : Fin 46) (ch : Fin 512), i = ix3 n k ch := ⟨i 0, i 1, i 2, eq_ix3 i⟩
  rw [KTail.W7_att m ρ c n k ch,
    KAttn.final_att (V5 m ρ) c (argsK m c) (in_theta m ρ c) (in_phi m ρ c) (in_g m ρ c) (in_ori m ρ c) (KBlk.V5_blk m ρ c)
      (in_wW m ρ c) (in_wB m ρ c)]
  exact (Cert.Spec.attNKC_eq_attFlat (argsK m c) n k ch).symm

/-- The idealized kernel's run: both results at the specification of the launch memory's arguments, the arguments kept. -/
theorem run : θ_run (defs (F := Ideal)) (onTc (τ := τ) (main (F := Ideal))) ⟨m, fun _ => 0, ρ⟩ (fun r => ∀ c : Dev nD,
      r.2.mem ((c.tc : Thread nD τ).loc main_v23) = Cert.Spec.attOut (argsK m c)
      ∧ r.2.mem ((c.tc : Thread nD τ).loc main_v22_0) = Cert.Spec.fdiv (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (att_final m ρ c), (h c).2.1.trans (fdiv_final m ρ c), (h c).2.2⟩)
    (KRun.run (F := Ideal) m ρ)

end Cert.KernelIdeal.KValue

end
-- ==== Proof.RefTerm.lean ====
/-
  The reference's two results as closed terms of the thirteen argument arrays, read at the extended reals.

  Each definition below is one stage of the reference: the composition of its tensor operations on the stage's
  operands, in the order the program lists them.  Nothing is simplified here: a stage is the operations themselves,
  so that what the program's run leaves in a result buffer is the corresponding term by unfolding alone, and the
  index-by-index reading of each stage (which sum, which maximum, which entry of which argument) is proved elsewhere.

  The stages.  inv = γ / sqrt(var + ε) and shift = β − mean · inv per channel; the features: the activation scaled
  and shifted per channel, clamped below at zero, its last two axes exchanged and its first two merged into one
  token axis of 5888 = 128 · 46; a projection: features times a transposed weight plus a bias row; the block number
  of a token: its index divided by 46, rounded toward −∞; the masked logits: θ-projection times transposed
  φ-projection with −1000 written wherever row and column tokens have equal block numbers; the row softmax of the
  masked logits, through the row maximum, the exponentials and their row sums; and the output: softmax times the
  g-projection, times the transposed output weight, plus its bias, split back into (sample, position) and added to
  the activation with its last two axes exchanged.
-/
import proofs.«123535_j11510512353703_2_alg».proof.ReferenceIdeal
import proofs.«123535_j11510512353703_2_alg».proof.Proof.Gen.ReferenceIdeal
import Idealize.ShloMosaic.PureOps.Ideal

noncomputable section

namespace Cert.ReferenceIdeal.RefTerm

open Idealize.ShloMosaic Cert.ReferenceIdeal Cert.ReferenceIdeal.Gen

/-- The folded scale per channel, γ / sqrt(var + ε): ε's splat over the 512 channels, the sum, its square root,
    the quotient. -/
def stInv (a1 a4 : FVec Ideal S512 .f32) : FVec Ideal S512 .f32 :=
  Host.divf a1 (Host.sqrt (addf a4 (broadcastInDim S512 ![] bcast_S_S512 (constant (F := Ideal) S_ .f32 0x3727C5AC#32))))

/-- The folded offset per channel, β − mean · inv. -/
def stShift (a2 a3 inv : FVec Ideal S512 .f32) : FVec Ideal S512 .f32 :=
  subf a2 (mulf a3 inv)

/-- A per-channel vector spread over [128, 512, 46] along the channel axis. -/
def stChan (v : FVec Ideal S512 .f32) : FVec Ideal S128x512x46 .f32 :=
  broadcastInDim S128x512x46 ![0, 1, 2] bcast_S1x512x1_S128x512x46_0_1_2
    (broadcastInDim S1x512x1 ![1] bcast_S512_S1x512x1_1 v)

/-- The features on the token layout [5888, 512]: max (ori · inv + shift, 0) on [128, 512, 46], the last two axes
    exchanged, the first two merged. -/
def stFeat (a0 : FVec Ideal S128x512x46 .f32) (inv shift : FVec Ideal S512 .f32) : FVec Ideal S5888x512 .f32 :=
  shapeCast S5888x512
    (transpose S128x46x512 [0, 2, 1]
      (maximumf (addf (mulf a0 (stChan inv)) (stChan shift))
        (broadcastInDim S128x512x46 ![] bcast_S_S128x512x46 (constant (F := Ideal) S_ .f32 0x00000000#32)))
      transposes_S128x512x46_S128x46x512_0_2_1)
    shapeCasts_S128x46x512_S5888x512

/-- A projection to 256 channels: the features times the transposed weight, plus the bias spread over the rows. -/
def stProj (feat : FVec Ideal S5888x512 .f32) (w : FVec Ideal S256x512 .f32) (b : FVec Ideal S256 .f32) :
    FVec Ideal S5888x256 .f32 :=
  addf
    (Host.dotGeneral dot_S5888x512_S512x256_S5888x256_1_0_0_1_n_n none feat
      (transpose S512x256 [1, 0] w transposes_S256x512_S512x256_1_0))
    (broadcastInDim S5888x256 ![0, 1] bcast_S1x256_S5888x256_0_1 (broadcastInDim S1x256 ![1] bcast_S256_S1x256_1 b))

/-- The token indices 0 … 5887. -/
def stIota : IVec S5888 32 := iotaInDim S5888 32 0

/-- The divisor 46 spread over the tokens. -/
def stDivisor : IVec S5888 32 := broadcastInDim S5888 ![] bcast_S_S5888 (constantI S_ 32 46#32)

/-- The quotient rounded toward zero. -/
def stQuot : IVec S5888 32 := Host.divsi stIota stDivisor

/-- Where the rounded quotient must be lowered by one: the operands' signs differ and the remainder is not zero. -/
def stAdjust : IVec S5888 1 :=
  andi
    (cmpi .ne (signi stIota) (broadcastInDim S5888 ![] bcast_S_S5888 (signi (constantI S_ 32 46#32))))
    (cmpi .ne (Host.remsi stIota stDivisor) (broadcastInDim S5888 ![] bcast_S_S5888 (constantI S_ 32 0#32)))

/-- The block number of each token: its index divided by 46, rounded toward −∞. -/
def stBlk : IVec S5888 32 :=
  select stAdjust (subi stQuot (broadcastInDim S5888 ![] bcast_S_S5888 (constantI S_ 32 1#32))) stQuot

/-- Whether the row token and the column token have the same block number. -/
def stSame (blk : IVec S5888 32) : IVec S5888x5888 1 :=
  cmpi .eq
    (broadcastInDim S5888x5888 ![0, 1] bcast_S5888x1_S5888x5888_0_1 (broadcastInDim S5888x1 ![0] bcast_S5888_S5888x1_0 blk))
    (broadcastInDim S5888x5888 ![0, 1] bcast_S1x5888_S5888x5888_0_1 (broadcastInDim S1x5888 ![1] bcast_S5888_S1x5888_1 blk))

/-- The masked logits: θ-projection times transposed φ-projection, −1000 where the two tokens share a block. -/
def stMasked (xt xp : FVec Ideal S5888x256 .f32) (blk : IVec S5888 32) : FVec Ideal S5888x5888 .f32 :=
  select (stSame blk)
    (broadcastInDim S5888x5888 ![] bcast_S_S5888x5888 (constant (F := Ideal) S_ .f32 0xC47A0000#32))
    (Host.dotGeneral dot_S5888x256_S256x5888_S5888x5888_1_0_0_1_n_n none xt
      (transpose S256x5888 [1, 0] xp transposes_S5888x256_S256x5888_1_0))

/-- A per-row vector spread over the columns of [5888, 5888]. -/
def stRow (v : FVec Ideal S5888 .f32) : FVec Ideal S5888x5888 .f32 :=
  broadcastInDim S5888x5888 ![0, 1] bcast_S5888x1_S5888x5888_0_1 (broadcastInDim S5888x1 ![0] bcast_S5888_S5888x1_0 v)

/-- The row maxima: the reduction by max from −∞ along the columns, then once more the max with −∞. -/
def stRowMax (x : FVec Ideal S5888x5888 .f32) : FVec Ideal S5888 .f32 :=
  maximumf (broadcastInDim S5888 ![] bcast_S_S5888 (constant (F := Ideal) S_ .f32 0xFF800000#32))
    (Host.reduce (FloatOps.maximumf (F := Ideal) (φ := .f32)) x (constant (F := Ideal) S_ .f32 0xFF800000#32)
      reducesTo_S5888x5888_S5888_d1 h_S_)

/-- The exponentials of the logits less their row maximum. -/
def stExpo (x : FVec Ideal S5888x5888 .f32) : FVec Ideal S5888x5888 .f32 :=
  Host.exp (subf x (stRow (stRowMax x)))

/-- The row sums of an array, from zero. -/
def stRowSum (e : FVec Ideal S5888x5888 .f32) : FVec Ideal S5888 .f32 :=
  Host.reduceAdd e (constant (F := Ideal) S_ .f32 0x00000000#32) reducesTo_S5888x5888_S5888_d1 h_S_

/-- The row softmax. -/
def stSoftmax (x : FVec Ideal S5888x5888 .f32) : FVec Ideal S5888x5888 .f32 :=
  Host.divf (stExpo x) (stRow (stRowSum (stExpo x)))

/-- The output: softmax times the g-projection, times the transposed output weight, plus the bias spread over the
    rows, split into [128, 46, 512], added to the activation with its last two axes exchanged. -/
def stOut (a0 : FVec Ideal S128x512x46 .f32) (f : FVec Ideal S5888x5888 .f32) (gx : FVec Ideal S5888x256 .f32)
    (a11 : FVec Ideal S512x256 .f32) (a12 : FVec Ideal S512 .f32) : FVec Ideal S128x46x512 .f32 :=
  addf (transpose S128x46x512 [0, 2, 1] a0 transposes_S128x512x46_S128x46x512_0_2_1)
    (shapeCast S128x46x512
      (addf
        (Host.dotGeneral dot_S5888x256_S256x512_S5888x512_1_0_0_1_n_n none
          (Host.dotGeneral dot_S5888x5888_S5888x256_S5888x256_1_0_0_1_n_n none f gx)
          (transpose S256x512 [1, 0] a11 transposes_S512x256_S256x512_1_0))
        (broadcastInDim S5888x512 ![0, 1] bcast_S1x512_S5888x512_0_1 (broadcastInDim S1x512 ![1] bcast_S512_S1x512_1 a12)))
      shapeCasts_S5888x512_S128x46x512)

/-- The features of the arguments. -/
def featTerm (a0 : FVec Ideal S128x512x46 .f32) (a1 a2 a3 a4 : FVec Ideal S512 .f32) : FVec Ideal S5888x512 .f32 :=
  stFeat a0 (stInv a1 a4) (stShift a2 a3 (stInv a1 a4))

/-- The masked logits of the arguments. -/
def maskedTerm (a0 : FVec Ideal S128x512x46 .f32) (a1 a2 a3 a4 : FVec Ideal S512 .f32)
    (a5 : FVec Ideal S256x512 .f32) (a6 : FVec Ideal S256 .f32) (a7 : FVec Ideal S256x512 .f32) (a8 : FVec Ideal S256 .f32) :
    FVec Ideal S5888x5888 .f32 :=
  stMasked (stProj (featTerm a0 a1 a2 a3 a4) a5 a6) (stProj (featTerm a0 a1 a2 a3 a4) a7 a8) stBlk

/-- SECOND RESULT, [5888, 5888]: the row softmax of the masked logits. -/
def fdivTerm (a0 : FVec Ideal S128x512x46 .f32) (a1 a2 a3 a4 : FVec Ideal S512 .f32)
    (a5 : FVec Ideal S256x512 .f32) (a6 : FVec Ideal S256 .f32) (a7 : FVec Ideal S256x512 .f32) (a8 : FVec Ideal S256 .f32)
    (a9 : FVec Ideal S256x512 .f32) (a10 : FVec Ideal S256 .f32) (a11 : FVec Ideal S512x256 .f32) (a12 : FVec Ideal S512 .f32) :
    FVec Ideal S5888x5888 .f32 :=
  stSoftmax (maskedTerm a0 a1 a2 a3 a4 a5 a6 a7 a8)

/-- FIRST RESULT, [128, 46, 512]. -/
def attTerm (a0 : FVec Ideal S128x512x46 .f32) (a1 a2 a3 a4 : FVec Ideal S512 .f32)
    (a5 : FVec Ideal S256x512 .f32) (a6 : FVec Ideal S256 .f32) (a7 : FVec Ideal S256x512 .f32) (a8 : FVec Ideal S256 .f32)
    (a9 : FVec Ideal S256x512 .f32) (a10 : FVec Ideal S256 .f32) (a11 : FVec Ideal S512x256 .f32) (a12 : FVec Ideal S512 .f32) :
    FVec Ideal S128x46x512 .f32 :=
  stOut a0 (fdivTerm a0 a1 a2 a3 a4 a5 a6 a7 a8 a9 a10 a11 a12) (stProj (featTerm a0 a1 a2 a3 a4) a9 a10) a11 a12

end Cert.ReferenceIdeal.RefTerm

end
-- ==== Proof.RefRun.lean ====
/-
  The reference's run.  Its @main, with the three functions it calls written out at their call sites, is one straight
  line of 85 tensor operations; run from any memory, every execution terminates, each of the two result buffers ends
  at the composed term of the argument arrays that the stages of RefTerm spell out, and no argument buffer is written.
-/
import proofs.«123535_j11510512353703_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 85 operations in order, each call replaced by its callee's operations over that call's own buffers: the
    clamp at zero is three (the zero, its splat, the maximum); the division by 46 rounded toward −∞ is seventeen (the
    divisor converted and spread, the quotient toward zero, the two signs and their comparison, the remainder and its
    comparison with zero, their conjunction, the quotient less one, and the selection between the two quotients); the
    mask is two (−1000 spread, the selection). -/
abbrev ops : List (HloOp τ sig (Elt F)) :=
  [
    nullary main_cst (constant S_ .f32 0x3727C5AC#32),
    unary main_cst main_v0 (broadcastInDim S512 ![] bcast_S_S512 : (⟨S_, .f32⟩ : BufTy).Contents (Elt F) → (⟨S512, .f32⟩ : BufTy).Contents (Elt F)),
    binary main_arg4 main_v0 main_v1 (addf : (⟨S512, .f32⟩ : BufTy).Contents (Elt F) → (⟨S512, .f32⟩ : BufTy).Contents (Elt F) → (⟨S512, .f32⟩ : BufTy).Contents (Elt F)),
    unary main_v1 main_v2 (Host.sqrt : (⟨S512, .f32⟩ : BufTy).Contents (Elt F) → (⟨S512, .f32⟩ : BufTy).Contents (Elt F)),
    binary main_arg1 main_v2 main_v3 (Host.divf : (⟨S512, .f32⟩ : BufTy).Contents (Elt F) → (⟨S512, .f32⟩ : BufTy).Contents (Elt F) → (⟨S512, .f32⟩ : BufTy).Contents (Elt F)),
    unary main_v3 main_v4 (broadcastInDim S1x512x1 ![1] bcast_S512_S1x512x1_1 : (⟨S512, .f32⟩ : BufTy).Contents (Elt F) → (⟨S1x512x1, .f32⟩ : BufTy).Contents (Elt F)),
    unary main_v4 main_v5 (broadcastInDim S128x512x46 ![0, 1, 2] bcast_S1x512x1_S128x512x46_0_1_2 : (⟨S1x512x1, .f32⟩ : BufTy).Contents (Elt F) → (⟨S128x512x46, .f32⟩ : BufTy).Contents (Elt F)),
    binary main_arg0 main_v5 main_v6 (mulf : (⟨S128x512x46, .f32⟩ : BufTy).Contents (Elt F) → (⟨S128x512x46, .f32⟩ : BufTy).Contents (Elt F) → (⟨S128x512x46, .f32⟩ : BufTy).Contents (Elt F)),
    binary main_arg3 main_v3 main_v7 (mulf : (⟨S512, .f32⟩ : BufTy).Contents (Elt F) → (⟨S512, .f32⟩ : BufTy).Contents (Elt F) → (⟨S512, .f32⟩ : BufTy).Contents (Elt F)),
    binary main_arg2 main_v7 main_v8 (subf : (⟨S512, .f32⟩ : BufTy).Contents (Elt F) → (⟨S512, .f32⟩ : BufTy).Contents (Elt F) → (⟨S512, .f32⟩ : BufTy).Contents (Elt F)),
    unary main_v8 main_v9 (broadcastInDim S1x512x1 ![1] bcast_S512_S1x512x1_1 : (⟨S512, .f32⟩ : BufTy).Contents (Elt F) → (⟨S1x512x1, .f32⟩ : BufTy).Contents (Elt F)),
    unary main_v9 main_v10 (broadcastInDim S128x512x46 ![0, 1, 2] bcast_S1x512x1_S128x512x46_0_1_2 : (⟨S1x512x1, .f32⟩ : BufTy).Contents (Elt F) → (⟨S128x512x46, .f32⟩ : BufTy).Contents (Elt F)),
    binary main_v6 main_v10 main_v11 (addf : (⟨S128x512x46, .f32⟩ : BufTy).Contents (Elt F) → (⟨S128x512x46, .f32⟩ : BufTy).Contents (Elt F) → (⟨S128x512x46, .f32⟩ : BufTy).Contents (Elt F)),
    TRef.nullary main_call0.cst (constant S_ .f32 0x00000000#32),
    TRef.unary main_call0.cst main_call0.v0 (broadcastInDim S128x512x46 ![] bcast_S_S128x512x46),
    TRef.binary (.of main_v11 : TRef sig ⟨S128x512x46, .f32⟩) main_call0.v0 main_call0.v1 maximumf,
    unary main_v12 main_v13 ((transpose S128x46x512 [0, 2, 1] · transposes_S128x512x46_S128x46x512_0_2_1) : (⟨S128x512x46, .f32⟩ : BufTy).Contents (Elt F) → (⟨S128x46x512, .f32⟩ : BufTy).Contents (Elt F)),
    reshape main_v13 main_v14 rfl shapeCasts_S128x46x512_S5888x512,
    unary main_arg5 main_v15 ((transpose S512x256 [1, 0] · transposes_S256x512_S512x256_1_0) : (⟨S256x512, .f32⟩ : BufTy).Contents (Elt F) → (⟨S512x256, .f32⟩ : BufTy).Contents (Elt F)),
    binary main_v14 main_v15 main_v16 ((fun l r => Host.dotGeneral dot_S5888x512_S512x256_S5888x256_1_0_0_1_n_n none l r) : (⟨S5888x512, .f32⟩ : BufTy).Contents (Elt F) → (⟨S512x256, .f32⟩ : BufTy).Contents (Elt F) → (⟨S5888x256, .f32⟩ : BufTy).Contents (Elt F)),
    unary main_arg6 main_v17 (broadcastInDim S1x256 ![1] bcast_S256_S1x256_1 : (⟨S256, .f32⟩ : BufTy).Contents (Elt F) → (⟨S1x256, .f32⟩ : BufTy).Contents (Elt F)),
    unary main_v17 main_v18 (broadcastInDim S5888x256 ![0, 1] bcast_S1x256_S5888x256_0_1 : (⟨S1x256, .f32⟩ : BufTy).Contents (Elt F) → (⟨S5888x256, .f32⟩ : BufTy).Contents (Elt F)),
    binary main_v16 main_v18 main_v19 (addf : (⟨S5888x256, .f32⟩ : BufTy).Contents (Elt F) → (⟨S5888x256, .f32⟩ : BufTy).Contents (Elt F) → (⟨S5888x256, .f32⟩ : BufTy).Contents (Elt F)),
    unary main_arg7 main_v20 ((transpose S512x256 [1, 0] · transposes_S256x512_S512x256_1_0) : (⟨S256x512, .f32⟩ : BufTy).Contents (Elt F) → (⟨S512x256, .f32⟩ : BufTy).Contents (Elt F)),
    binary main_v14 main_v20 main_v21 ((fun l r => Host.dotGeneral dot_S5888x512_S512x256_S5888x256_1_0_0_1_n_n none l r) : (⟨S5888x512, .f32⟩ : BufTy).Contents (Elt F) → (⟨S512x256, .f32⟩ : BufTy).Contents (Elt F) → (⟨S5888x256, .f32⟩ : BufTy).Contents (Elt F)),
    unary main_arg8 main_v22 (broadcastInDim S1x256 ![1] bcast_S256_S1x256_1 : (⟨S256, .f32⟩ : BufTy).Contents (Elt F) → (⟨S1x256, .f32⟩ : BufTy).Contents (Elt F)),
    unary main_v22 main_v23 (broadcastInDim S5888x256 ![0, 1] bcast_S1x256_S5888x256_0_1 : (⟨S1x256, .f32⟩ : BufTy).Contents (Elt F) → (⟨S5888x256, .f32⟩ : BufTy).Contents (Elt F)),
    binary main_v21 main_v23 main_v24 (addf : (⟨S5888x256, .f32⟩ : BufTy).Contents (Elt F) → (⟨S5888x256, .f32⟩ : BufTy).Contents (Elt F) → (⟨S5888x256, .f32⟩ : BufTy).Contents (Elt F)),
    unary main_v24 main_v25 ((transpose S256x5888 [1, 0] · transposes_S5888x256_S256x5888_1_0) : (⟨S5888x256, .f32⟩ : BufTy).Contents (Elt F) → (⟨S256x5888, .f32⟩ : BufTy).Contents (Elt F)),
    binary main_v19 main_v25 main_v26 ((fun l r => Host.dotGeneral dot_S5888x256_S256x5888_S5888x5888_1_0_0_1_n_n none l r) : (⟨S5888x256, .f32⟩ : BufTy).Contents (Elt F) → (⟨S256x5888, .f32⟩ : BufTy).Contents (Elt F) → (⟨S5888x5888, .f32⟩ : BufTy).Contents (Elt F)),
    nullary main_v27 (iotaInDim S5888 32 0),
    nullary main_c (constantI S_ 32 46#32),
    TRef.unary (.of main_c : TRef sig ⟨S_, .i32⟩) main_call1.v0 id,
    TRef.unary main_call1.v0 main_call1.v1 (broadcastInDim S5888 ![] bcast_S_S5888),
    TRef.binary (.of main_v27 : TRef sig ⟨S5888, .i32⟩) main_call1.v1 main_call1.v2 Host.divsi,
    TRef.unary (.of main_v27 : TRef sig ⟨S5888, .i32⟩) main_call1.v3 signi,
    TRef.unary main_call1.v0 main_call1.v4 signi,
    TRef.unary main_call1.v4 main_call1.v5 (broadcastInDim S5888 ![] bcast_S_S5888),
    TRef.binary main_call1.v3 main_call1.v5 main_call1.v6 (cmpi .ne),
    TRef.unary main_call1.v0 main_call1.v7 (broadcastInDim S5888 ![] bcast_S_S5888),
    TRef.binary (.of main_v27 : TRef sig ⟨S5888, .i32⟩) main_call1.v7 main_call1.v8 Host.remsi,
    TRef.nullary main_call1.c (constantI S_ 32 0#32),
    TRef.unary main_call1.c main_call1.v9 (broadcastInDim S5888 ![] bcast_S_S5888),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S5888 ![] bcast_S_S5888),
    TRef.binary main_call1.v2 main_call1.v12 main_call1.v13 subi,
    TRef.ternary main_call1.v11 main_call1.v13 main_call1.v2 main_call1.call0.v0 select,
    unary main_v28 main_v29 (broadcastInDim S5888x1 ![0] bcast_S5888_S5888x1_0 : (⟨S5888, .i32⟩ : BufTy).Contents (Elt F) → (⟨S5888x1, .i32⟩ : BufTy).Contents (Elt F)),
    unary main_v28 main_v30 (broadcastInDim S1x5888 ![1] bcast_S5888_S1x5888_1 : (⟨S5888, .i32⟩ : BufTy).Contents (Elt F) → (⟨S1x5888, .i32⟩ : BufTy).Contents (Elt F)),
    unary main_v29 main_v31 (broadcastInDim S5888x5888 ![0, 1] bcast_S5888x1_S5888x5888_0_1 : (⟨S5888x1, .i32⟩ : BufTy).Contents (Elt F) → (⟨S5888x5888, .i32⟩ : BufTy).Contents (Elt F)),
    unary main_v30 main_v32 (broadcastInDim S5888x5888 ![0, 1] bcast_S1x5888_S5888x5888_0_1 : (⟨S1x5888, .i32⟩ : BufTy).Contents (Elt F) → (⟨S5888x5888, .i32⟩ : BufTy).Contents (Elt F)),
    binary main_v31 main_v32 main_v33 (cmpi .eq : (⟨S5888x5888, .i32⟩ : BufTy).Contents (Elt F) → (⟨S5888x5888, .i32⟩ : BufTy).Contents (Elt F) → (⟨S5888x5888, .i1⟩ : BufTy).Contents (Elt F)),
    nullary main_cst_0 (constant S_ .f32 0xC47A0000#32),
    TRef.unary (.of main_cst_0 : TRef sig ⟨S_, .f32⟩) main_call2.v0 (broadcastInDim S5888x5888 ![] bcast_S_S5888x5888),
    TRef.ternary (.of main_v33 : TRef sig ⟨S5888x5888, .i1⟩) main_call2.v0 (.of main_v26 : TRef sig ⟨S5888x5888, .f32⟩) main_call2.v1 select,
    nullary main_cst_1 (constant S_ .f32 0xFF800000#32),
    binary main_v34 main_cst_1 main_v35 ((fun x v => Host.reduce FloatOps.maximumf x v reducesTo_S5888x5888_S5888_d1 h_S_) : (⟨S5888x5888, .f32⟩ : BufTy).Contents (Elt F) → (⟨S_, .f32⟩ : BufTy).Contents (Elt F) → (⟨S5888, .f32⟩ : BufTy).Contents (Elt F)),
    nullary main_cst_2 (constant S_ .f32 0xFF800000#32),
    unary main_cst_2 main_v36 (broadcastInDim S5888 ![] bcast_S_S5888 : (⟨S_, .f32⟩ : BufTy).Contents (Elt F) → (⟨S5888, .f32⟩ : BufTy).Contents (Elt F)),
    binary main_v36 main_v35 main_v37 (maximumf : (⟨S5888, .f32⟩ : BufTy).Contents (Elt F) → (⟨S5888, .f32⟩ : BufTy).Contents (Elt F) → (⟨S5888, .f32⟩ : BufTy).Contents (Elt F)),
    unary main_v37 main_v38 (broadcastInDim S5888x1 ![0] bcast_S5888_S5888x1_0 : (⟨S5888, .f32⟩ : BufTy).Contents (Elt F) → (⟨S5888x1, .f32⟩ : BufTy).Contents (Elt F)),
    unary main_v38 main_v39 (broadcastInDim S5888x5888 ![0, 1] bcast_S5888x1_S5888x5888_0_1 : (⟨S5888x1, .f32⟩ : BufTy).Contents (Elt F) → (⟨S5888x5888, .f32⟩ : BufTy).Contents (Elt F)),
    binary main_v34 main_v39 main_v40 (subf : (⟨S5888x5888, .f32⟩ : BufTy).Contents (Elt F) → (⟨S5888x5888, .f32⟩ : BufTy).Contents (Elt F) → (⟨S5888x5888, .f32⟩ : BufTy).Contents (Elt F)),
    unary main_v40 main_v41 (Host.exp : (⟨S5888x5888, .f32⟩ : BufTy).Contents (Elt F) → (⟨S5888x5888, .f32⟩ : BufTy).Contents (Elt F)),
    nullary main_cst_3 (constant S_ .f32 0x00000000#32),
    binary main_v41 main_cst_3 main_v42 ((fun x v => Host.reduceAdd x v reducesTo_S5888x5888_S5888_d1 h_S_) : (⟨S5888x5888, .f32⟩ : BufTy).Contents (Elt F) → (⟨S_, .f32⟩ : BufTy).Contents (Elt F) → (⟨S5888, .f32⟩ : BufTy).Contents (Elt F)),
    unary main_v42 main_v43 (broadcastInDim S5888x1 ![0] bcast_S5888_S5888x1_0 : (⟨S5888, .f32⟩ : BufTy).Contents (Elt F) → (⟨S5888x1, .f32⟩ : BufTy).Contents (Elt F)),
    unary main_v43 main_v44 (broadcastInDim S5888x5888 ![0, 1] bcast_S5888x1_S5888x5888_0_1 : (⟨S5888x1, .f32⟩ : BufTy).Contents (Elt F) → (⟨S5888x5888, .f32⟩ : BufTy).Contents (Elt F)),
    binary main_v41 main_v44 main_v45 (Host.divf : (⟨S5888x5888, .f32⟩ : BufTy).Contents (Elt F) → (⟨S5888x5888, .f32⟩ : BufTy).Contents (Elt F) → (⟨S5888x5888, .f32⟩ : BufTy).Contents (Elt F)),
    unary main_arg9 main_v46 ((transpose S512x256 [1, 0] · transposes_S256x512_S512x256_1_0) : (⟨S256x512, .f32⟩ : BufTy).Contents (Elt F) → (⟨S512x256, .f32⟩ : BufTy).Contents (Elt F)),
    binary main_v14 main_v46 main_v47 ((fun l r => Host.dotGeneral dot_S5888x512_S512x256_S5888x256_1_0_0_1_n_n none l r) : (⟨S5888x512, .f32⟩ : BufTy).Contents (Elt F) → (⟨S512x256, .f32⟩ : BufTy).Contents (Elt F) → (⟨S5888x256, .f32⟩ : BufTy).Contents (Elt F)),
    unary main_arg10 main_v48 (broadcastInDim S1x256 ![1] bcast_S256_S1x256_1 : (⟨S256, .f32⟩ : BufTy).Contents (Elt F) → (⟨S1x256, .f32⟩ : BufTy).Contents (Elt F)),
    unary main_v48 main_v49 (broadcastInDim S5888x256 ![0, 1] bcast_S1x256_S5888x256_0_1 : (⟨S1x256, .f32⟩ : BufTy).Contents (Elt F) → (⟨S5888x256, .f32⟩ : BufTy).Contents (Elt F)),
    binary main_v47 main_v49 main_v50 (addf : (⟨S5888x256, .f32⟩ : BufTy).Contents (Elt F) → (⟨S5888x256, .f32⟩ : BufTy).Contents (Elt F) → (⟨S5888x256, .f32⟩ : BufTy).Contents (Elt F)),
    binary main_v45 main_v50 main_v51 ((fun l r => Host.dotGeneral dot_S5888x5888_S5888x256_S5888x256_1_0_0_1_n_n none l r) : (⟨S5888x5888, .f32⟩ : BufTy).Contents (Elt F) → (⟨S5888x256, .f32⟩ : BufTy).Contents (Elt F) → (⟨S5888x256, .f32⟩ : BufTy).Contents (Elt F)),
    unary main_arg11 main_v52 ((transpose S256x512 [1, 0] · transposes_S512x256_S256x512_1_0) : (⟨S512x256, .f32⟩ : BufTy).Contents (Elt F) → (⟨S256x512, .f32⟩ : BufTy).Contents (Elt F)),
    binary main_v51 main_v52 main_v53 ((fun l r => Host.dotGeneral dot_S5888x256_S256x512_S5888x512_1_0_0_1_n_n none l r) : (⟨S5888x256, .f32⟩ : BufTy).Contents (Elt F) → (⟨S256x512, .f32⟩ : BufTy).Contents (Elt F) → (⟨S5888x512, .f32⟩ : BufTy).Contents (Elt F)),
    unary main_arg12 main_v54 (broadcastInDim S1x512 ![1] bcast_S512_S1x512_1 : (⟨S512, .f32⟩ : BufTy).Contents (Elt F) → (⟨S1x512, .f32⟩ : BufTy).Contents (Elt F)),
    unary main_v54 main_v55 (broadcastInDim S5888x512 ![0, 1] bcast_S1x512_S5888x512_0_1 : (⟨S1x512, .f32⟩ : BufTy).Contents (Elt F) → (⟨S5888x512, .f32⟩ : BufTy).Contents (Elt F)),
    binary main_v53 main_v55 main_v56 (addf : (⟨S5888x512, .f32⟩ : BufTy).Contents (Elt F) → (⟨S5888x512, .f32⟩ : BufTy).Contents (Elt F) → (⟨S5888x512, .f32⟩ : BufTy).Contents (Elt F)),
    reshape main_v56 main_v57 rfl shapeCasts_S5888x512_S128x46x512,
    unary main_arg0 main_v58 ((transpose S128x46x512 [0, 2, 1] · transposes_S128x512x46_S128x46x512_0_2_1) : (⟨S128x512x46, .f32⟩ : BufTy).Contents (Elt F) → (⟨S128x46x512, .f32⟩ : BufTy).Contents (Elt F)),
    binary main_v58 main_v57 main_v59 (addf : (⟨S128x46x512, .f32⟩ : BufTy).Contents (Elt F) → (⟨S128x46x512, .f32⟩ : BufTy).Contents (Elt F) → (⟨S128x46x512, .f32⟩ : BufTy).Contents (Elt F)) ]

-- eighty-five binds re-associated: the rewriting under the chain recurses once per statement
set_option maxRecDepth 4096 in
set_option maxHeartbeats 4000000 in
/-- @main is that straight line: its two windows and the called functions unfolded at their calls, both sides are one
    chain of steps once sequencing is re-associated. -/
theorem main_eq (c : Dev nD) : main (F := F) c = seq ops := by
  simp only [main, main_part0, main_part1, fn_relu.body, fn_floor_divide.body, fn_where.body, fn_where_0.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., binary_bufs_sub .., unary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., unary_bufs_sub .., reshape_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., unary_bufs_sub .., unary_bufs_sub .., unary_bufs_sub .., binary_bufs_sub ..,
    nullary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., unary_bufs_sub ..,
    binary_bufs_sub .., unary_bufs_sub .., unary_bufs_sub .., binary_bufs_sub .., binary_bufs_sub .., unary_bufs_sub ..,
    binary_bufs_sub .., unary_bufs_sub .., unary_bufs_sub .., binary_bufs_sub .., reshape_bufs_sub .., unary_bufs_sub ..,
    binary_bufs_sub ..⟩

/-- The buffers the line writes: one per operation, its result's. -/
abbrev ops_W : List (Ref sig .tc) :=
  [main_cst, main_v0, main_v1, main_v2, main_v3, main_v4, main_v5, main_v6, main_v7, main_v8,
    main_v9, main_v10, main_v11, main_call0_cst, main_call0_v0, main_v12, main_v13, main_v14, main_v15, main_v16,
    main_v17, main_v18, main_v19, main_v20, main_v21, main_v22, main_v23, main_v24, main_v25, main_v26,
    main_v27, main_c, main_call1_v0, main_call1_v1, main_call1_v2, main_call1_v3, main_call1_v4, main_call1_v5, main_call1_v6, main_call1_v7,
    main_call1_v8, main_call1_c, main_call1_v9, main_call1_v10, main_call1_v11, main_call1_c_0, main_call1_v12, main_call1_v13, main_v28, main_v29,
    main_v30, main_v31, main_v32, main_v33, main_cst_0, main_call2_v0, main_v34, main_cst_1, main_v35, main_cst_2,
    main_v36, main_v37, main_v38, main_v39, main_v40, main_v41, main_cst_3, main_v42, main_v43, main_v44,
    main_v45, main_v46, main_v47, main_v48, main_v49, main_v50, main_v51, main_v52, main_v53, main_v54,
    main_v55, main_v56, main_v57, main_v58, main_v59]

theorem ops_writes : (ops : List (HloOp τ sig (Elt F))).Forall fun op =>
    op.writes ⊆ (ops_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the line does not write keeps its contents: every argument buffer does. -/
theorem keep (V : Valuation τ sig (Elt F)) (r : Ref sig .tc) (h : r ∉ ops_W) :
    after (ops (F := F)) V (Proc.devRef .tc r) = V (Proc.devRef .tc r) :=
  after_of_writes_sub ops V ops_writes h

set_option maxHeartbeats 4000000 in
/-- After the line, the first result buffer holds the composed term of the arguments' contents. -/
theorem v59_eq (V : Valuation τ sig (Elt Ideal)) :
    after (ops (F := Ideal)) V (Proc.devRef .tc main_v59)
      = RefTerm.attTerm (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12)) := by
  after_results_simp
  rfl

/-- After the line, the second result buffer holds the composed term of the arguments' contents. -/
theorem v45_eq (V : Valuation τ sig (Elt Ideal)) :
    after (ops (F := Ideal)) V (Proc.devRef .tc main_v45)
      = RefTerm.fdivTerm (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8))
        (V (Proc.devRef .tc main_arg9))
        (V (Proc.devRef .tc main_arg10))
        (V (Proc.devRef .tc main_arg11))
        (V (Proc.devRef .tc main_arg12)) := by
  after_results_simp
  rfl

/-- On every device, from any memory with zero counters: every weakly fair execution of @main terminates with the two
    results at the composed terms of the arguments' launch contents, and the arguments unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      (r.2.mem ((c.tc : Thread nD τ).loc main_v59) = RefTerm.attTerm
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
        ∧ r.2.mem ((c.tc : Thread nD τ).loc main_v45) = RefTerm.fdivTerm
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12))) :=
  (θ_run defs _ _).mono (fun _ h c => ⟨⟨(h c main_v59).trans (v59_eq _), (h c main_v45).trans (v45_eq _)⟩,
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide)),
      (h c main_arg12).trans (keep _ main_arg12 (by decide))⟩)
    (run_seq scopedRefs_eq scopedSems_eq defs main (fun _ => ops) main_eq (fun _ => ops_sub) m ρ)

end Cert.ReferenceIdeal.RefRun

end
-- ==== Proof.RefRead1.lean ====
/-
  Single host operations of the reference read at an index, at the program's literal shapes: each broadcast, transpose
  and reshape the reference prints reads ONE element of its operand, named here by explicit coordinates; a product of two
  matrices reads as the sum over the contracted coordinate; an iota reads its coordinate as a word.

  Tokens: the reshape [128, 46, 512] → [5888, 512] reads entry (t, c) from (t / 46, t % 46, c), and the reshape back reads
  entry (n, k, c) from (46 n + k, c): both are the statement that the two row-major positions agree.
-/
import proofs.«123535_j11510512353703_2_alg».proof.ReferenceIdeal
import proofs.«123535_j11510512353703_2_alg».proof.Proof.Spec
import Idealize.ShloMosaic.Lib.IdealHost
import Idealize.ShloMosaic.Lib.StackMember

noncomputable section

namespace Cert.ReferenceIdeal.RefRead

open Idealize.ShloMosaic Idealize.ShloMosaic.ValueIdx
open Cert.Spec (tn tk tok)

variable {α : Type}

/-! ## Broadcasts -/

/-- A scalar broadcast to any shape reads the scalar. -/
theorem bcast_scalar {T : Shape} (h : S_.BroadcastsInDim T ![]) (x : S_.Idx → α) (j : T.Idx) :
    broadcastInDim T ![] h x j = x ix0 :=
  broadcastInDim_scalar_apply h x j

/-- [512] → [1, 512, 1] along axis 1. -/
theorem bcast_512_1x512x1 (h : S512.BroadcastsInDim S1x512x1 ![1]) (x : S512.Idx → α) (a : Fin 1) (c : Fin 512) (b : Fin 1) :
    broadcastInDim S1x512x1 ![1] h x (ix3 a c b) = x (ix1 c) :=
  broadcastInDim_apply _ h x _ (ix1 c) (fun a => match a with | ⟨0, _⟩ => rfl)

/-- [1, 512, 1] → [128, 512, 46]. -/
theorem bcast_1x512x1_128x512x46 (h : S1x512x1.BroadcastsInDim S128x512x46 ![0, 1, 2]) (x : S1x512x1.Idx → α)
    (n : Fin 128) (c : Fin 512) (k : Fin 46) :
    broadcastInDim S128x512x46 ![0, 1, 2] h x (ix3 n c k) = x (ix3 (0 : Fin 1) c (0 : Fin 1)) :=
  broadcastInDim_apply _ h x _ (ix3 (0 : Fin 1) c (0 : Fin 1))
    (fun a => match a with | ⟨0, _⟩ => rfl | ⟨1, _⟩ => rfl | ⟨2, _⟩ => rfl)

/-- [256] → [1, 256] along axis 1. -/
theorem bcast_256_1x256 (h : S256.BroadcastsInDim S1x256 ![1]) (x : S256.Idx → α) (a : Fin 1) (j : Fin 256) :
    broadcastInDim S1x256 ![1] h x (ix2 a j) = x (ix1 j) :=
  broadcastInDim_apply _ h x _ (ix1 j) (fun a => match a with | ⟨0, _⟩ => rfl)

/-- [1, 256] → [5888, 256]. -/
theorem bcast_1x256_5888x256 (h : S1x256.BroadcastsInDim S5888x256 ![0, 1]) (x : S1x256.Idx → α) (t : Fin 5888) (j : Fin 256) :
    broadcastInDim S5888x256 ![0, 1] h x (ix2 t j) = x (ix2 (0 : Fin 1) j) :=
  broadcastInDim_apply _ h x _ (ix2 (0 : Fin 1) j) (fun a => match a with | ⟨0, _⟩ => rfl | ⟨1, _⟩ => rfl)

/-- [512] → [1, 512] along axis 1. -/
theorem bcast_512_1x512 (h : S512.BroadcastsInDim S1x512 ![1]) (x : S512.Idx → α) (a : Fin 1) (c : Fin 512) :
    broadcastInDim S1x512 ![1] h x (ix2 a c) = x (ix1 c) :=
  broadcastInDim_apply _ h x _ (ix1 c) (fun a => match a with | ⟨0, _⟩ => rfl)

/-- [1, 512] → [5888, 512]. -/
theorem bcast_1x512_5888x512 (h : S1x512.BroadcastsInDim S5888x512 ![0, 1]) (x : S1x512.Idx → α) (t : Fin 5888) (c : Fin 512) :
    broadcastInDim S5888x512 ![0, 1] h x (ix2 t c) = x (ix2 (0 : Fin 1) c) :=
  broadcastInDim_apply _ h x _ (ix2 (0 : Fin 1) c) (fun a => match a with | ⟨0, _⟩ => rfl | ⟨1, _⟩ => rfl)

/-- [5888] → [5888, 1] along axis 0. -/
theorem bcast_5888_5888x1 (h : S5888.BroadcastsInDim S5888x1 ![0]) (x : S5888.Idx → α) (t : Fin 5888) (b : Fin 1) :
    broadcastInDim S5888x1 ![0] h x (ix2 t b) = x (ix1 t) :=
  broadcastInDim_apply _ h x _ (ix1 t) (fun a => match a with | ⟨0, _⟩ => rfl)

/-- [5888] → [1, 5888] along axis 1. -/
theorem bcast_5888_1x5888 (h : S5888.BroadcastsInDim S1x5888 ![1]) (x : S5888.Idx → α) (a : Fin 1) (u : Fin 5888) :
    broadcastInDim S1x5888 ![1] h x (ix2 a u) = x (ix1 u) :=
  broadcastInDim_apply _ h x _ (ix1 u) (fun a => match a with | ⟨0, _⟩ => rfl)

/-- [5888, 1] → [5888, 5888]: a column copied along the rows. -/
theorem bcast_5888x1_5888x5888 (h : S5888x1.BroadcastsInDim S5888x5888 ![0, 1]) (x : S5888x1.Idx → α) (t u : Fin 5888) :
    broadcastInDim S5888x5888 ![0, 1] h x (ix2 t u) = x (ix2 t (0 : Fin 1)) :=
  broadcastInDim_apply _ h x _ (ix2 t (0 : Fin 1)) (fun a => match a with | ⟨0, _⟩ => rfl | ⟨1, _⟩ => rfl)

/-- [1, 5888] → [5888, 5888]: a row copied down the columns. -/
theorem bcast_1x5888_5888x5888 (h : S1x5888.BroadcastsInDim S5888x5888 ![0, 1]) (x : S1x5888.Idx → α) (t u : Fin 5888) :
    broadcastInDim S5888x5888 ![0, 1] h x (ix2 t u) = x (ix2 (0 : Fin 1) u) :=
  broadcastInDim_apply _ h x _ (ix2 (0 : Fin 1) u) (fun a => match a with | ⟨0, _⟩ => rfl | ⟨1, _⟩ => rfl)

/-! ## Transposes -/

/-- [128, 512, 46] → [128, 46, 512] by the permutation [0, 2, 1]. -/
theorem transpose_nck_nkc (h : S128x512x46.Transposes [0, 2, 1] S128x46x512) (x : S128x512x46.Idx → α)
    (n : Fin 128) (k : Fin 46) (c : Fin 512) :
    transpose S128x46x512 [0, 2, 1] x h (ix3 n k c) = x (ix3 n c k) :=
  transpose_apply _ x h _ (ix3 n c k) (fun b => match b with | ⟨0, _⟩ => rfl | ⟨1, _⟩ => rfl | ⟨2, _⟩ => rfl)

/-- A matrix transpose, at any extents. -/
theorem transpose_mat {m n : Nat} (h : (⟨2, ![m, n]⟩ : Shape).Transposes [1, 0] ⟨2, ![n, m]⟩)
    (x : (⟨2, ![m, n]⟩ : Shape).Idx → α) (a : Fin n) (b : Fin m) :
    transpose ⟨2, ![n, m]⟩ [1, 0] x h (ix2 a b) = x (ix2 b a) :=
  transpose_apply _ x h _ (ix2 b a) (fun c => match c with | ⟨0, _⟩ => rfl | ⟨1, _⟩ => rfl)

/-! ## Reshapes -/

/-- [128, 46, 512] → [5888, 512]: token t is (sample t / 46, position t % 46). -/
theorem reshape_tokens (h : S128x46x512.ShapeCasts S5888x512) (x : S128x46x512.Idx → α) (t : Fin 5888) (c : Fin 512) :
    shapeCast S5888x512 x h (ix2 t c) = x (ix3 (tn t) (tk t) c) := by
  refine shapeCast_apply x h _ (ix3 (tn t) (tk t) c) ?_
  rw [Shape.rowMajor_val_two, Shape.rowMajor_val_three]
  show (t.val / 46 * 46 + t.val % 46) * 512 + c.val = t.val * 512 + c.val
  omega

/-- [5888, 512] → [128, 46, 512]: (sample n, position k) is token 46 n + k. -/
theorem reshape_samples (h : S5888x512.ShapeCasts S128x46x512) (x : S5888x512.Idx → α) (n : Fin 128) (k : Fin 46) (c : Fin 512) :
    shapeCast S128x46x512 x h (ix3 n k c) = x (ix2 (tok n k) c) := by
  refine shapeCast_apply x h _ (ix2 (tok n k) c) ?_
  rw [Shape.rowMajor_val_two, Shape.rowMajor_val_three]
  show (46 * n.val + k.val) * 512 + c.val = (n.val * 46 + k.val) * 512 + c.val
  omega

/-! ## Products of matrices -/

/-- A product of an [m, k] by a [k, n] matrix, whatever proof its dimension numbers carry, is at (a, b) the sum over the
    contracted coordinate of the products of the entries. -/
theorem dot_plain {m k n : Nat} {φ₁ φ₂ : FTy}
    (D : DotDims ⟨2, ![m, k]⟩ ⟨2, ![k, n]⟩ ⟨2, ![m, n]⟩) (hD : D = DotDims.plain m k n)
    (A : FVec Ideal ⟨2, ![m, k]⟩ φ₁) (B : FVec Ideal ⟨2, ![k, n]⟩ φ₂) (a : Fin m) (b : Fin n) :
    Host.dotGeneral D none A B (ix2 a b) = ∑ c : Fin k, A (ix2 a c) * B (ix2 c b) := by
  subst hD
  exact StackMember.dotGeneral_plain_apply none A B a b

/-! ## The iota -/

/-- The iota over [5888] reads its coordinate as a 32-bit word. -/
theorem iota_5888 (u : Fin 5888) : iotaInDim S5888 32 0 (ix1 u) = BitVec.ofNat 32 u.val := rfl

end Cert.ReferenceIdeal.RefRead

end
-- ==== Proof.RefRead2.lean ====
/-
  The reference's feature, projection and output stages read at an index.

  inv and shift are pointwise; the features at (t, c) read the activation at (t / 46, c, t % 46) — the reshape, then the
  exchange of the last two axes, then the per-channel scale and offset spread along the channel axis — clamped below at zero;
  a projection at (t, j) is the sum over the 512 channels of feature times weight[j, ·], plus bias[j]; the output at
  (n, k, c) is the activation at (n, c, k) plus the output projection of the attended values at token 46 n + k.
-/
import proofs.«123535_j11510512353703_2_alg».proof.Proof.RefTerm
import proofs.«123535_j11510512353703_2_alg».proof.Proof.RefRead1

noncomputable section

namespace Cert.ReferenceIdeal.RefRead

open Idealize.ShloMosaic Idealize.ShloMosaic.ValueIdx
open Cert.Spec (tn tk tok)
open Cert.ReferenceIdeal.RefTerm

/-- inv at channel c: γ / sqrt(var + ε). -/
theorem stInv_apply (a1 a4 : FVec Ideal S512 .f32) (c : Fin 512) :
    stInv a1 a4 (ix1 c) = Ideal.div (a1 (ix1 c)) (Ideal.sqrt (a4 (ix1 c) + Ideal.ofBits .f32 0x3727C5AC#32)) := by
  unfold stInv
  have h : broadcastInDim S512 ![] Gen.bcast_S_S512 (constant (F := Ideal) S_ .f32 0x3727C5AC#32) (ix1 c)
      = Ideal.ofBits .f32 0x3727C5AC#32 := bcast_scalar _ _ _
  exact congrArg (fun e => Ideal.div (a1 (ix1 c)) (Ideal.sqrt (a4 (ix1 c) + e))) h

/-- shift at channel c: β − mean · inv. -/
theorem stShift_apply (a2 a3 inv : FVec Ideal S512 .f32) (c : Fin 512) :
    stShift a2 a3 inv (ix1 c) = a2 (ix1 c) - a3 (ix1 c) * inv (ix1 c) := rfl

/-- A per-channel vector spread over [128, 512, 46] reads its channel. -/
theorem stChan_apply (v : FVec Ideal S512 .f32) (n : Fin 128) (c : Fin 512) (k : Fin 46) :
    stChan v (ix3 n c k) = v (ix1 c) := by
  unfold stChan
  exact (bcast_1x512x1_128x512x46 _ _ n c k).trans (bcast_512_1x512x1 _ _ _ c _)

/-- The features at token t, channel c. -/
theorem stFeat_apply (a0 : FVec Ideal S128x512x46 .f32) (inv shift : FVec Ideal S512 .f32) (t : Fin 5888) (c : Fin 512) :
    stFeat a0 inv shift (ix2 t c)
      = max (a0 (ix3 (tn t) c (tk t)) * inv (ix1 c) + shift (ix1 c)) (Ideal.ofBits .f32 0x00000000#32) := by
  unfold stFeat
  refine (reshape_tokens _ _ t c).trans ?_
  refine (transpose_nck_nkc _ _ (tn t) (tk t) c).trans ?_
  have e1 := stChan_apply inv (tn t) c (tk t)
  have e2 := stChan_apply shift (tn t) c (tk t)
  have e3 : broadcastInDim S128x512x46 ![] Gen.bcast_S_S128x512x46 (constant (F := Ideal) S_ .f32 0x00000000#32)
      (ix3 (tn t) c (tk t)) = Ideal.ofBits .f32 0x00000000#32 := bcast_scalar _ _ _
  show max (a0 (ix3 (tn t) c (tk t)) * stChan inv (ix3 (tn t) c (tk t)) + stChan shift (ix3 (tn t) c (tk t)))
      (broadcastInDim S128x512x46 ![] Gen.bcast_S_S128x512x46 (constant (F := Ideal) S_ .f32 0x00000000#32) (ix3 (tn t) c (tk t))) = _
  rw [e1, e2, e3]

/-- A projection at token t, output channel j: the sum over the input channels, plus the bias. -/
theorem stProj_apply (feat : FVec Ideal S5888x512 .f32) (w : FVec Ideal S256x512 .f32) (b : FVec Ideal S256 .f32)
    (t : Fin 5888) (j : Fin 256) :
    stProj feat w b (ix2 t j) = (∑ c : Fin 512, feat (ix2 t c) * w (ix2 j c)) + b (ix1 j) := by
  unfold stProj
  have e1 : Host.dotGeneral dot_S5888x512_S512x256_S5888x256_1_0_0_1_n_n none feat
      (transpose S512x256 [1, 0] w Gen.transposes_S256x512_S512x256_1_0) (ix2 t j)
      = ∑ c : Fin 512, feat (ix2 t c) * w (ix2 j c) := by
    refine (dot_plain (m := 5888) (k := 512) (n := 256) _ rfl feat _ t j).trans ?_
    exact Finset.sum_congr rfl fun c _ => congrArg (feat (ix2 t c) * ·) (transpose_mat _ w c j)
  have e2 : broadcastInDim S5888x256 ![0, 1] Gen.bcast_S1x256_S5888x256_0_1
      (broadcastInDim S1x256 ![1] Gen.bcast_S256_S1x256_1 b) (ix2 t j) = b (ix1 j) :=
    (bcast_1x256_5888x256 _ _ t j).trans (bcast_256_1x256 _ _ _ j)
  exact congrArg₂ (· + ·) e1 e2

/-- The output at (sample n, position k, channel c). -/
theorem stOut_apply (a0 : FVec Ideal S128x512x46 .f32) (f : FVec Ideal S5888x5888 .f32) (gx : FVec Ideal S5888x256 .f32)
    (a11 : FVec Ideal S512x256 .f32) (a12 : FVec Ideal S512 .f32) (n : Fin 128) (k : Fin 46) (c : Fin 512) :
    stOut a0 f gx a11 a12 (ix3 n k c)
      = a0 (ix3 n c k)
        + ((∑ j : Fin 256, (∑ u : Fin 5888, f (ix2 (tok n k) u) * gx (ix2 u j)) * a11 (ix2 c j)) + a12 (ix1 c)) := by
  unfold stOut
  have e0 : transpose S128x46x512 [0, 2, 1] a0 Gen.transposes_S128x512x46_S128x46x512_0_2_1 (ix3 n k c) = a0 (ix3 n c k) :=
    transpose_nck_nkc _ _ n k c
  have e1 : Host.dotGeneral dot_S5888x256_S256x512_S5888x512_1_0_0_1_n_n none
        (Host.dotGeneral dot_S5888x5888_S5888x256_S5888x256_1_0_0_1_n_n none f gx)
        (transpose S256x512 [1, 0] a11 Gen.transposes_S512x256_S256x512_1_0) (ix2 (tok n k) c)
      = ∑ j : Fin 256, (∑ u : Fin 5888, f (ix2 (tok n k) u) * gx (ix2 u j)) * a11 (ix2 c j) := by
    refine (dot_plain (m := 5888) (k := 256) (n := 512) _ rfl _ _ (tok n k) c).trans ?_
    refine Finset.sum_congr rfl fun j _ => ?_
    exact congrArg₂ (· * ·) (dot_plain (m := 5888) (k := 5888) (n := 256) _ rfl f gx (tok n k) j) (transpose_mat _ a11 j c)
  have e2 : broadcastInDim S5888x512 ![0, 1] Gen.bcast_S1x512_S5888x512_0_1
      (broadcastInDim S1x512 ![1] Gen.bcast_S512_S1x512_1 a12) (ix2 (tok n k) c) = a12 (ix1 c) :=
    (bcast_1x512_5888x512 _ _ (tok n k) c).trans (bcast_512_1x512 _ _ _ c)
  refine congrArg₂ (· + ·) e0 ?_
  refine (reshape_samples _ _ n k c).trans ?_
  exact congrArg₂ (· + ·) e1 e2

end Cert.ReferenceIdeal.RefRead

end
-- ==== Proof.RefRead3.lean ====
/-
  The reference's block numbers and masked logits read at an index.

  The block number of token u is the 32-bit word of u / 46: the iota reads u, the divisor, the zero and the one are
  splats of scalars, and what the elementwise operations compute at one element is the host's floor-division formula,
  which on a word below 5888 is the natural-number quotient. Two such words are equal exactly when the quotients are
  (both are far below 2^32), so the comparison of the row token's and the column token's block numbers selects −1000
  exactly when t / 46 = u / 46, and otherwise the logit: the sum over the 256 channels of the θ-projection at t times
  the φ-projection at u.
-/
import proofs.«123535_j11510512353703_2_alg».proof.Proof.RefTerm
import proofs.«123535_j11510512353703_2_alg».proof.Proof.RefRead1
import proofs.«123535_j11510512353703_2_alg».proof.Proof.FloorDiv

noncomputable section

namespace Cert.ReferenceIdeal.RefRead

open Idealize.ShloMosaic Idealize.ShloMosaic.ValueIdx
open Cert.ReferenceIdeal.RefTerm

/-- The word of a token index is the index. -/
theorem toNat_ofNat_token (u : Fin 5888) : (BitVec.ofNat 32 u.val).toNat = u.val := by
  rw [BitVec.toNat_ofNat]; exact Nat.mod_eq_of_lt (by have := u.isLt; omega)

/-- The block number of token u: the word of u / 46. -/
theorem stBlk_apply (u : Fin 5888) : stBlk (ix1 u) = BitVec.ofNat 32 (u.val / 46) := by
  have hX := toNat_ofNat_token u
  refine Eq.trans ?_ ((Cert.FloorDiv.host_floordiv46 (BitVec.ofNat 32 u.val) (by rw [hX]; exact u.isLt)).trans (by rw [hX]))
  rfl

/-- Two block numbers are equal words exactly when they are equal numbers. -/
theorem blk_word_eq_iff (t u : Fin 5888) :
    BitVec.ofNat 32 (t.val / 46) = BitVec.ofNat 32 (u.val / 46) ↔ t.val / 46 = u.val / 46 := by
  constructor
  · intro h
    have h2 := congrArg BitVec.toNat h
    rw [BitVec.toNat_ofNat, BitVec.toNat_ofNat,
      Nat.mod_eq_of_lt (by have := t.isLt; omega), Nat.mod_eq_of_lt (by have := u.isLt; omega)] at h2
    exact h2
  · intro h; rw [h]

/-- A select on the comparison of two words for equality is the `if` on their equality. -/
theorem select_cmpi_eq {α : Type} (x y : BitVec 32) (a b : α) :
    Scalar.select (IntOp.cmpi .eq x y) a b = if x = y then a else b := by
  by_cases h : x = y
  · subst h
    have hc : IntOp.cmpi .eq x x = 1#1 := by simp [IntOp.cmpi]
    rw [hc, if_pos rfl, select_one]
  · have hb : (x == y) = false := beq_eq_false_iff_ne.mpr h
    have hc : IntOp.cmpi .eq x y = 0#1 := by simp [IntOp.cmpi, hb]
    rw [hc, if_neg h, select_zero]

/-- Whether row token t and column token u have the same block number, as the comparison of the two words. -/
theorem stSame_apply (blk : IVec S5888 32) (t u : Fin 5888) :
    stSame blk (ix2 t u) = IntOp.cmpi .eq (blk (ix1 t)) (blk (ix1 u)) := by
  unfold stSame
  have e1 : broadcastInDim S5888x5888 ![0, 1] Gen.bcast_S5888x1_S5888x5888_0_1
      (broadcastInDim S5888x1 ![0] Gen.bcast_S5888_S5888x1_0 blk) (ix2 t u) = blk (ix1 t) :=
    (bcast_5888x1_5888x5888 _ _ t u).trans (bcast_5888_5888x1 _ _ t _)
  have e2 : broadcastInDim S5888x5888 ![0, 1] Gen.bcast_S1x5888_S5888x5888_0_1
      (broadcastInDim S1x5888 ![1] Gen.bcast_S5888_S1x5888_1 blk) (ix2 t u) = blk (ix1 u) :=
    (bcast_1x5888_5888x5888 _ _ t u).trans (bcast_5888_1x5888 _ _ _ u)
  exact congrArg₂ (IntOp.cmpi .eq) e1 e2

/-- The masked logits at (t, u), over the reference's own block numbers. -/
theorem stMasked_stBlk_apply (xt xp : FVec Ideal S5888x256 .f32) (t u : Fin 5888) :
    stMasked xt xp stBlk (ix2 t u)
      = if t.val / 46 = u.val / 46 then Ideal.ofBits .f32 0xC47A0000#32 else ∑ j : Fin 256, xt (ix2 t j) * xp (ix2 u j) := by
  unfold stMasked
  have e0 : stSame stBlk (ix2 t u) = IntOp.cmpi .eq (BitVec.ofNat 32 (t.val / 46)) (BitVec.ofNat 32 (u.val / 46)) := by
    rw [stSame_apply, stBlk_apply, stBlk_apply]
  have e1 : broadcastInDim S5888x5888 ![] Gen.bcast_S_S5888x5888 (constant (F := Ideal) S_ .f32 0xC47A0000#32) (ix2 t u)
      = Ideal.ofBits .f32 0xC47A0000#32 := bcast_scalar _ _ _
  have e2 : Host.dotGeneral dot_S5888x256_S256x5888_S5888x5888_1_0_0_1_n_n none xt
      (transpose S256x5888 [1, 0] xp Gen.transposes_S5888x256_S256x5888_1_0) (ix2 t u)
      = ∑ j : Fin 256, xt (ix2 t j) * xp (ix2 u j) := by
    refine (dot_plain (m := 5888) (k := 256) (n := 5888) _ rfl xt _ t u).trans ?_
    exact Finset.sum_congr rfl fun j _ => congrArg (xt (ix2 t j) * ·) (transpose_mat _ xp j u)
  refine (select_apply _ _ _ _).trans ?_
  rw [e0, e1, e2, select_cmpi_eq]
  by_cases h : t.val / 46 = u.val / 46
  · rw [if_pos ((blk_word_eq_iff t u).2 h), if_pos h]
  · rw [if_neg (fun h' => h ((blk_word_eq_iff t u).1 h')), if_neg h]

end Cert.ReferenceIdeal.RefRead

end
-- ==== Proof.RefRead4.lean ====
/-
  The reference's row softmax read at an index.

  A row's maximum is the host's reduction by max along the columns from −∞, which for a commutative and associative
  body is the fold of max from −∞ over the row's entries, in any order; the maximum with −∞ taken once more changes
  nothing, a fold of max from b being at least b. A row's sum is the host's reduction by + from the zero word: zero
  plus the finite sum over the row's entries. The exponentials subtract the row's maximum, spread along the row; the
  softmax divides by the row's sum, spread along the row.
-/
import proofs.«123535_j11510512353703_2_alg».proof.Proof.RefTerm
import proofs.«123535_j11510512353703_2_alg».proof.Proof.RefRead1

noncomputable section

namespace Cert.ReferenceIdeal.RefRead

open Idealize.ShloMosaic Idealize.ShloMosaic.ValueIdx
open Cert.ReferenceIdeal.RefTerm

/-- The columns of [5888, 5888] are one reduced axis. -/
theorem reduces_rows : S5888x5888.Reduces [1] S5888 := by decide

/-- Row t with column u put back is the entry (t, u). -/
theorem lift_rows (t u : Fin 5888) : reduces_rows.lift (ix1 t) u = ix2 t u := by
  funext a
  apply Fin.ext
  match a with
  | ⟨0, _⟩ => rfl
  | ⟨1, _⟩ => rfl

/-- The maximum of row t of an array: the fold of max from −∞ over the row's entries. -/
def rowMaxOf (x : FVec Ideal S5888x5888 .f32) (t : Fin 5888) : EReal :=
  (Finset.univ : Finset (Fin 5888)).fold max (Ideal.ofBits .f32 0xFF800000#32) (fun u => x (ix2 t u))

/-- A per-row vector spread along the rows reads the row's entry. -/
theorem stRow_apply (v : FVec Ideal S5888 .f32) (t u : Fin 5888) : stRow v (ix2 t u) = v (ix1 t) := by
  unfold stRow
  exact (bcast_5888x1_5888x5888 _ _ t u).trans (bcast_5888_5888x1 _ _ t _)

/-- The reference's row maximum at row t. -/
theorem stRowMax_apply (x : FVec Ideal S5888x5888 .f32) (t : Fin 5888) : stRowMax x (ix1 t) = rowMaxOf x t := by
  unfold stRowMax
  have e1 : Host.reduce (FloatOps.maximumf (F := Ideal) (φ := .f32)) x (constant (F := Ideal) S_ .f32 0xFF800000#32)
      Gen.reducesTo_S5888x5888_S5888_d1 Gen.h_S_ (ix1 t) = rowMaxOf x t := by
    refine (Host.reduce_eq_fold_single _ x _ _ reduces_rows _ (ix1 t)).trans ?_
    have hf : (x ∘ reduces_rows.lift (ix1 t)) = fun u : Fin 5888 => x (ix2 t u) :=
      funext fun u => congrArg x (lift_rows t u)
    rw [hf]
    rfl
  have e2 : broadcastInDim S5888 ![] Gen.bcast_S_S5888 (constant (F := Ideal) S_ .f32 0xFF800000#32) (ix1 t)
      = Ideal.ofBits .f32 0xFF800000#32 := bcast_scalar _ _ _
  refine (maximumf_apply _ _ _).trans ?_
  rw [e1, e2]
  unfold rowMaxOf
  exact max_eq_right ((Finset.le_fold_max _).2 (Or.inl le_rfl))

/-- The exponential at (t, u): of the entry less the row's maximum. -/
theorem stExpo_apply (x : FVec Ideal S5888x5888 .f32) (t u : Fin 5888) :
    stExpo x (ix2 t u) = Ideal.exp (x (ix2 t u) - rowMaxOf x t) := by
  unfold stExpo
  show Ideal.exp (x (ix2 t u) - stRow (stRowMax x) (ix2 t u)) = _
  rw [stRow_apply, stRowMax_apply]

/-- The reference's row sum at row t: the finite sum over the row's entries. -/
theorem stRowSum_apply (e : FVec Ideal S5888x5888 .f32) (t : Fin 5888) :
    stRowSum e (ix1 t) = ∑ u : Fin 5888, e (ix2 t u) := by
  unfold stRowSum
  refine (hostReduceAdd_apply e _ _ _ (ix1 t)).trans ?_
  refine (Ideal.hostReduceAdd_single _ reduces_rows e _ (ix1 t)).trans ?_
  show Ideal.ofBits .f32 0x00000000#32 + ∑ k : Fin 5888, e (reduces_rows.lift (ix1 t) k) = _
  rw [Ideal.ofBits_zero_f32, zero_add]
  exact Finset.sum_congr rfl fun u _ => congrArg e (lift_rows t u)

/-- The softmax at (t, u): the exponential over the row's sum of exponentials. -/
theorem stSoftmax_apply (x : FVec Ideal S5888x5888 .f32) (t u : Fin 5888) :
    stSoftmax x (ix2 t u) = Ideal.div (stExpo x (ix2 t u)) (∑ v : Fin 5888, stExpo x (ix2 t v)) := by
  unfold stSoftmax
  show Ideal.div (stExpo x (ix2 t u)) (stRow (stRowSum (stExpo x)) (ix2 t u)) = _
  rw [stRow_apply, stRowSum_apply]

end Cert.ReferenceIdeal.RefRead

end
-- ==== Proof.RefRead.lean ====
/-
  The reference's two results are the specification's.

  Stage by stage, from the arguments forward: inv and shift are the specification's per channel; so the features are, at
  every token and channel; so each projection is (the same sum over the channels, term by term); so the masked logits
  are; the row maximum is the same fold of max from −∞ over the same row; so the exponentials, their row sums and the
  softmax are — the second result. The attended values, the output projection and the residual sum follow in the same
  way, giving the first result at (n, k, c). Only congruence of finite sums and of the fold is used.
-/
import proofs.«123535_j11510512353703_2_alg».proof.Proof.Spec
import proofs.«123535_j11510512353703_2_alg».proof.Proof.RefRead2
import proofs.«123535_j11510512353703_2_alg».proof.Proof.RefRead3
import proofs.«123535_j11510512353703_2_alg».proof.Proof.RefRead4

noncomputable section

namespace Cert.ReferenceIdeal.RefRead

open Idealize.ShloMosaic Idealize.ShloMosaic.ValueIdx
open Cert.Spec (tn tk tok)
open Cert.ReferenceIdeal.RefTerm

variable (A : Cert.Spec.Args)

/-- inv. -/
theorem inv_eq (c : Fin 512) : stInv A.gamma A.var (ix1 c) = Cert.Spec.inv A c := stInv_apply _ _ c

/-- shift. -/
theorem shift_eq (c : Fin 512) : stShift A.beta A.mean (stInv A.gamma A.var) (ix1 c) = Cert.Spec.shift A c := by
  rw [stShift_apply, inv_eq]; rfl

/-- The features. -/
theorem featTerm_eq (t : Fin 5888) (c : Fin 512) :
    featTerm A.ori A.gamma A.beta A.mean A.var (ix2 t c) = Cert.Spec.feat A t c := by
  unfold featTerm
  rw [stFeat_apply, inv_eq, shift_eq]; rfl

/-- A projection of the features. -/
theorem proj_eq (w : FVec Ideal S256x512 .f32) (b : FVec Ideal S256 .f32) (t : Fin 5888) (j : Fin 256) :
    stProj (featTerm A.ori A.gamma A.beta A.mean A.var) w b (ix2 t j) = Cert.Spec.proj A w b t j := by
  rw [stProj_apply]
  unfold Cert.Spec.proj
  refine congrArg (· + b (ix1 j)) ?_
  exact Finset.sum_congr rfl fun c _ => by rw [featTerm_eq]

/-- The masked logits. -/
theorem maskedTerm_eq (t u : Fin 5888) :
    maskedTerm A.ori A.gamma A.beta A.mean A.var A.thetaW A.thetaB A.phiW A.phiB (ix2 t u) = Cert.Spec.attn A t u := by
  unfold maskedTerm
  rw [stMasked_stBlk_apply]
  unfold Cert.Spec.attn
  by_cases h : t.val / 46 = u.val / 46
  · rw [if_pos h, if_pos h]
  · rw [if_neg h, if_neg h]
    exact Finset.sum_congr rfl fun j _ => by rw [proj_eq, proj_eq]; rfl

/-- The row maximum. -/
theorem rowMax_eq (t : Fin 5888) :
    rowMaxOf (maskedTerm A.ori A.gamma A.beta A.mean A.var A.thetaW A.thetaB A.phiW A.phiB) t = Cert.Spec.rowMax A t := by
  unfold rowMaxOf Cert.Spec.rowMax
  exact Finset.fold_congr fun u _ => maskedTerm_eq A t u

/-- The exponentials. -/
theorem expo_eq (t u : Fin 5888) :
    stExpo (maskedTerm A.ori A.gamma A.beta A.mean A.var A.thetaW A.thetaB A.phiW A.phiB) (ix2 t u) = Cert.Spec.expo A t u := by
  rw [stExpo_apply, maskedTerm_eq, rowMax_eq]; rfl

/-- The softmax at an entry. -/
theorem soft_eq (t u : Fin 5888) :
    fdivTerm A.ori A.gamma A.beta A.mean A.var A.thetaW A.thetaB A.phiW A.phiB A.gW A.gB A.wW A.wB (ix2 t u)
      = Cert.Spec.soft A t u := by
  unfold fdivTerm
  rw [stSoftmax_apply, expo_eq]
  unfold Cert.Spec.soft Cert.Spec.rowSum
  refine congrArg (Ideal.div (Cert.Spec.expo A t u)) ?_
  exact Finset.sum_congr rfl fun v _ => expo_eq A t v

/-- SECOND RESULT. -/
theorem fdivTerm_eq :
    fdivTerm A.ori A.gamma A.beta A.mean A.var A.thetaW A.thetaB A.phiW A.phiB A.gW A.gB A.wW A.wB = Cert.Spec.fdiv A := by
  funext i
  obtain ⟨t, u, rfl⟩ : ∃ (t u : Fin 5888), i = ix2 t u := ⟨i 0, i 1, eq_ix2 i⟩
  exact soft_eq A t u

/-- FIRST RESULT. -/
theorem attTerm_eq :
    attTerm A.ori A.gamma A.beta A.mean A.var A.thetaW A.thetaB A.phiW A.phiB A.gW A.gB A.wW A.wB = Cert.Spec.attOut A := by
  funext i
  obtain ⟨n, k, c, rfl⟩ : ∃ (n : Fin 128) (k : Fin 46) (c : Fin 512), i = ix3 n k c := ⟨i 0, i 1, i 2, eq_ix3 i⟩
  unfold attTerm
  rw [stOut_apply]
  show _ = Cert.Spec.attNKC A n k c
  unfold Cert.Spec.attNKC Cert.Spec.wy
  refine congrArg (A.ori (ix3 n c k) + ·) ?_
  refine congrArg (· + A.wB (ix1 c)) ?_
  refine Finset.sum_congr rfl fun j _ => ?_
  refine congrArg (· * A.wW (ix2 c j)) ?_
  unfold Cert.Spec.yv
  refine Finset.sum_congr rfl fun u _ => ?_
  rw [soft_eq, proj_eq]; rfl

end Cert.ReferenceIdeal.RefRead

end
-- ==== Proof.lean ====
/-
  The certificate's five claims.

  The kernel: a fused BatchNorm + ReLU + three 512→256 projections in one pallas_call over four row blocks, then a
  masked-softmax attention in a second pallas_call over 23 blocks of 256 query rows (the logits of tokens in the same
  block of 46 replaced by −1000, an exact row softmax, the attended values projected back to 512 channels and added to
  the input), with host operations around them: the folded batch-norm scale and offset, the token-major re-layout of the
  input, the block ids u // 46, and a final reshape. The reference: the same mathematics in plain jnp on whole arrays.

  At the extended reals both compute one function of the thirteen arguments, stated once in Proof/Spec.lean: every
  matrix product is a finite sum of products (the kernel's over a block's rows, the reference's over the whole array: the
  same terms), the row maximum is the fold of max from −∞ on both sides (the reference takes one more max with −∞, which
  changes nothing), the row sum is a finite sum, the re-layouts are bijections of indices, and the floor division by 46 on
  32-bit words is the natural-number quotient for every token index below 5888, whether the host's formula or the
  kernel body's. No step uses the precondition: nothing here needs finiteness.

  The three frames: for the two kernel programs the frame certificate over @main's seven segments (Proof/KernelFrame.lean
  and Proof/KernelIdealFrame.lean); for the reference its run (Proof/RefRun.lean) with the results dropped. The
  idealization rewrote no operation, so `preserves` has nothing to state. `algebraic`: the idealized kernel's run ends at
  the specification of its launch memory's arguments (Proof/KValue.lean), the idealized reference's run ends at its host
  operations' composed term (Proof/RefRun.lean), which is the specification of its own arguments (Proof/RefRead.lean),
  and memories that agree on the arguments give the same specification.
-/
import proofs.«123535_j11510512353703_2_alg».proof.Defs
import proofs.«123535_j11510512353703_2_alg».proof.Proof.Gen.Kernel
import proofs.«123535_j11510512353703_2_alg».proof.Proof.Gen.KernelIdeal
import proofs.«123535_j11510512353703_2_alg».proof.Proof.Gen.ReferenceIdeal
import proofs.«123535_j11510512353703_2_alg».proof.Proof.Gen.Pre_finite_inputs
import proofs.«123535_j11510512353703_2_alg».proof.Proof.KernelFrame
import proofs.«123535_j11510512353703_2_alg».proof.Proof.KernelIdealFrame
import proofs.«123535_j11510512353703_2_alg».proof.Proof.Args
import proofs.«123535_j11510512353703_2_alg».proof.Proof.KValue
import proofs.«123535_j11510512353703_2_alg».proof.Proof.RefRun
import proofs.«123535_j11510512353703_2_alg».proof.Proof.RefRead

noncomputable section

namespace Cert.Proof

open Idealize.ShloMosaic Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.GenP.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs and keeps its arguments: its run, the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Memories that agree on the thirteen arguments give the same specification arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.argsR m' c = Cert.KernelIdeal.argsK m c := by
  obtain ⟨h0, h1, h2, h3, h4, h5, h6, h7, h8, h9, h10, h11, h12⟩ := h
  unfold Cert.ReferenceIdeal.argsR Cert.KernelIdeal.argsK
  rw [h0, h1, h2, h3, h4, h5, h6, h7, h8, h9, h10, h11, h12]

/-- From memories agreeing on the arguments, both idealized programs run and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.attOut (Cert.KernelIdeal.argsK m c), fun c => Cert.Spec.fdiv (Cert.KernelIdeal.argsK m c),
    Cert.KernelIdeal.KValue.run m ρ, ?_⟩
  refine (θ_run Cert.ReferenceIdeal.defs _ _).mono (fun _ h c => ⟨(h c).1.1.trans ?_, (h c).1.2.trans ?_, (h c).2⟩)
    (Cert.ReferenceIdeal.RefRun.run m' ρ')
  · exact (Cert.ReferenceIdeal.RefRead.attTerm_eq (Cert.ReferenceIdeal.argsR m' c)).trans
      (congrArg Cert.Spec.attOut (args_agree m m' c (hagree c)))
  · exact (Cert.ReferenceIdeal.RefRead.fdivTerm_eq (Cert.ReferenceIdeal.argsR m' c)).trans
      (congrArg Cert.Spec.fdiv (args_agree m m' c (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
